-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x600 : Shape := ⟨2, ![32768, 600]⟩
abbrev S32768x138 : Shape := ⟨2, ![32768, 138]⟩
abbrev S32768x300 : Shape := ⟨2, ![32768, 300]⟩
abbrev S32768x411 : Shape := ⟨2, ![32768, 411]⟩
abbrev S600x600 : Shape := ⟨2, ![600, 600]⟩
abbrev S822x822 : Shape := ⟨2, ![822, 822]⟩
abbrev S822x600 : Shape := ⟨2, ![822, 600]⟩
abbrev S138x600 : Shape := ⟨2, ![138, 600]⟩
abbrev S1x138 : Shape := ⟨2, ![1, 138]⟩
abbrev S1x69 : Shape := ⟨2, ![1, 69]⟩
abbrev S_ : Shape := ⟨0, ![]⟩

class Facts : Prop where
  bcast_S_S32768x600 : S_.BroadcastsInDim S32768x600 (![] : Fin 0 → Fin S32768x600.rank)
  reducesTo_S32768x600_S_d0_1 : S32768x600.ReducesTo [0, 1] S_
  h_S_ : 0 < S_.numel
  bcast_S_S32768x138 : S_.BroadcastsInDim S32768x138 (![] : Fin 0 → Fin S32768x138.rank)
  reducesTo_S32768x138_S_d0_1 : S32768x138.ReducesTo [0, 1] S_
  bcast_S_S32768x300 : S_.BroadcastsInDim S32768x300 (![] : Fin 0 → Fin S32768x300.rank)
  reducesTo_S32768x300_S_d0_1 : S32768x300.ReducesTo [0, 1] S_
  bcast_S_S32768x411 : S_.BroadcastsInDim S32768x411 (![] : Fin 0 → Fin S32768x411.rank)
  reducesTo_S32768x411_S_d0_1 : S32768x411.ReducesTo [0, 1] S_
  bcast_S_S600x600 : S_.BroadcastsInDim S600x600 (![] : Fin 0 → Fin S600x600.rank)
  reducesTo_S600x600_S_d0_1 : S600x600.ReducesTo [0, 1] S_
  bcast_S_S822x822 : S_.BroadcastsInDim S822x822 (![] : Fin 0 → Fin S822x822.rank)
  reducesTo_S822x822_S_d0_1 : S822x822.ReducesTo [0, 1] S_
  bcast_S_S822x600 : S_.BroadcastsInDim S822x600 (![] : Fin 0 → Fin S822x600.rank)
  reducesTo_S822x600_S_d0_1 : S822x600.ReducesTo [0, 1] S_
  bcast_S_S138x600 : S_.BroadcastsInDim S138x600 (![] : Fin 0 → Fin S138x600.rank)
  reducesTo_S138x600_S_d0_1 : S138x600.ReducesTo [0, 1] S_
  bcast_S_S1x138 : S_.BroadcastsInDim S1x138 (![] : Fin 0 → Fin S1x138.rank)
  reducesTo_S1x138_S_d0_1 : S1x138.ReducesTo [0, 1] S_
  bcast_S_S1x69 : S_.BroadcastsInDim S1x69 (![] : Fin 0 → Fin S1x69.rank)
  reducesTo_S1x69_S_d0_1 : S1x69.ReducesTo [0, 1] S_

variable [Facts]

def fn_part5 {F : FTy → Type} [FloatOps F] (main_v83 : IVec S_ 1) (main_v84 : FVec F S1x69 .f32) (main_cst_32 : FVec F S_ .f32) : IVec S_ 1 :=
  let main_v85 : FVec F S1x69 .f32 := broadcastInDim S1x69 ![] bcast_S_S1x69 main_cst_32
  let main_v86 : IVec S1x69 1 := cmpf .olt main_v84 main_v85
  let main_c_33 : IVec S_ 1 := constantI S_ 1 1#1
  let main_v87 : IVec S_ 1 := (fun x v => Host.reduce IntOp.andi x v reducesTo_S1x69_S_d0_1 h_S_) main_v86 main_c_33
  let main_v88 : IVec S_ 1 := andi main_v83 main_v87
  main_v88

def fn_part4 {F : FTy → Type} [FloatOps F] (main_arg14 : FVec F S600x600 .f32) (main_arg15 : FVec F S1x138 .f32) (main_arg16 : FVec F S1x138 .f32) (main_arg17 : FVec F S1x69 .f32) (main_v63 : IVec S_ 1) (main_v67 : IVec S_ 1) : IVec S_ 1 :=
  let main_v68 : IVec S_ 1 := andi main_v63 main_v67
  let main_v69 : FVec F S600x600 .f32 := Host.absf main_arg14
  let main_cst_26 : FVec F S_ .f32 := constant S_ .f32 0x7F800000#32
  let main_v70 : FVec F S600x600 .f32 := broadcastInDim S600x600 ![] bcast_S_S600x600 main_cst_26
  let main_v71 : IVec S600x600 1 := cmpf .olt main_v69 main_v70
  let main_c_27 : IVec S_ 1 := constantI S_ 1 1#1
  let main_v72 : IVec S_ 1 := (fun x v => Host.reduce IntOp.andi x v reducesTo_S600x600_S_d0_1 h_S_) main_v71 main_c_27
  let main_v73 : IVec S_ 1 := andi main_v68 main_v72
  let main_v74 : FVec F S1x138 .f32 := Host.absf main_arg15
  let main_cst_28 : FVec F S_ .f32 := constant S_ .f32 0x7F800000#32
  let main_v75 : FVec F S1x138 .f32 := broadcastInDim S1x138 ![] bcast_S_S1x138 main_cst_28
  let main_v76 : IVec S1x138 1 := cmpf .olt main_v74 main_v75
  let main_c_29 : IVec S_ 1 := constantI S_ 1 1#1
  let main_v77 : IVec S_ 1 := (fun x v => Host.reduce IntOp.andi x v reducesTo_S1x138_S_d0_1 h_S_) main_v76 main_c_29
  let main_v78 : IVec S_ 1 := andi main_v73 main_v77
  let main_v79 : FVec F S1x138 .f32 := Host.absf main_arg16
  let main_cst_30 : FVec F S_ .f32 := constant S_ .f32 0x7F800000#32
  let main_v80 : FVec F S1x138 .f32 := broadcastInDim S1x138 ![] bcast_S_S1x138 main_cst_30
  let main_v81 : IVec S1x138 1 := cmpf .olt main_v79 main_v80
  let main_c_31 : IVec S_ 1 := constantI S_ 1 1#1
  let main_v82 : IVec S_ 1 := (fun x v => Host.reduce IntOp.andi x v reducesTo_S1x138_S_d0_1 h_S_) main_v81 main_c_31
  let main_v83 : IVec S_ 1 := andi main_v78 main_v82
  let main_v84 : FVec F S1x69 .f32 := Host.absf main_arg17
  let main_cst_32 : FVec F S_ .f32 := constant S_ .f32 0x7F800000#32
  fn_part5 (F := F) main_v83 main_v84 main_cst_32

def fn_part3 {F : FTy → Type} [FloatOps F] (main_arg11 : FVec F S822x822 .f32) (main_arg12 : FVec F S822x600 .f32) (main_arg13 : FVec F S138x600 .f32) (main_arg14 : FVec F S600x600 .f32) (main_arg15 : FVec F S1x138 .f32) (main_arg16 : FVec F S1x138 .f32) (main_arg17 : FVec F S1x69 .f32) (main_v48 : IVec S_ 1) (main_v49 : FVec F S600x600 .f32) (main_v50 : FVec F S600x600 .f32) : IVec S_ 1 :=
  let main_v51 : IVec S600x600 1 := cmpf .olt main_v49 main_v50
  let main_c_19 : IVec S_ 1 := constantI S_ 1 1#1
  let main_v52 : IVec S_ 1 := (fun x v => Host.reduce IntOp.andi x v reducesTo_S600x600_S_d0_1 h_S_) main_v51 main_c_19
  let main_v53 : IVec S_ 1 := andi main_v48 main_v52
  let main_v54 : FVec F S822x822 .f32 := Host.absf main_arg11
  let main_cst_20 : FVec F S_ .f32 := constant S_ .f32 0x7F800000#32
  let main_v55 : FVec F S822x822 .f32 := broadcastInDim S822x822 ![] bcast_S_S822x822 main_cst_20
  let main_v56 : IVec S822x822 1 := cmpf .olt main_v54 main_v55
  let main_c_21 : IVec S_ 1 := constantI S_ 1 1#1
  let main_v57 : IVec S_ 1 := (fun x v => Host.reduce IntOp.andi x v reducesTo_S822x822_S_d0_1 h_S_) main_v56 main_c_21
  let main_v58 : IVec S_ 1 := andi main_v53 main_v57
  let main_v59 : FVec F S822x600 .f32 := Host.absf main_arg12
  let main_cst_22 : FVec F S_ .f32 := constant S_ .f32 0x7F800000#32
  let main_v60 : FVec F S822x600 .f32 := broadcastInDim S822x600 ![] bcast_S_S822x600 main_cst_22
  let main_v61 : IVec S822x600 1 := cmpf .olt main_v59 main_v60
  let main_c_23 : IVec S_ 1 := constantI S_ 1 1#1
  let main_v62 : IVec S_ 1 := (fun x v => Host.reduce IntOp.andi x v reducesTo_S822x600_S_d0_1 h_S_) main_v61 main_c_23
  let main_v63 : IVec S_ 1 := andi main_v58 main_v62
  let main_v64 : FVec F S138x600 .f32 := Host.absf main_arg13
  let main_cst_24 : FVec F S_ .f32 := constant S_ .f32 0x7F800000#32
  let main_v65 : FVec F S138x600 .f32 := broadcastInDim S138x600 ![] bcast_S_S138x600 main_cst_24
  let main_v66 : IVec S138x600 1 := cmpf .olt main_v64 main_v65
  let main_c_25 : IVec S_ 1 := constantI S_ 1 1#1
  let main_v67 : IVec S_ 1 := (fun x v => Host.reduce IntOp.andi x v reducesTo_S138x600_S_d0_1 h_S_) main_v66 main_c_25
  fn_part4 (F := F) main_arg14 main_arg15 main_arg16 main_arg17 main_v63 main_v67

def fn_part2 {F : FTy → Type} [FloatOps F] (main_arg7 : FVec F S32768x300 .f32) (main_arg8 : FVec F S32768x411 .f32) (main_arg9 : FVec F S600x600 .f32) (main_arg10 : FVec F S600x600 .f32) (main_arg11 : FVec F S822x822 .f32) (main_arg12 : FVec F S822x600 .f32) (main_arg13 : FVec F S138x600 .f32) (main_arg14 : FVec F S600x600 .f32) (main_arg15 : FVec F S1x138 .f32) (main_arg16 : FVec F S1x138 .f32) (main_arg17 : FVec F S1x69 .f32) (main_v33 : IVec S_ 1) : IVec S_ 1 :=
  let main_v34 : FVec F S32768x300 .f32 := Host.absf main_arg7
  let main_cst_12 : FVec F S_ .f32 := constant S_ .f32 0x7F800000#32
  let main_v35 : FVec F S32768x300 .f32 := broadcastInDim S32768x300 ![] bcast_S_S32768x300 main_cst_12
  let main_v36 : IVec S32768x300 1 := cmpf .olt main_v34 main_v35
  let main_c_13 : IVec S_ 1 := constantI S_ 1 1#1
  let main_v37 : IVec S_ 1 := (fun x v => Host.reduce IntOp.andi x v reducesTo_S32768x300_S_d0_1 h_S_) main_v36 main_c_13
  let main_v38 : IVec S_ 1 := andi main_v33 main_v37
  let main_v39 : FVec F S32768x411 .f32 := Host.absf main_arg8
  let main_cst_14 : FVec F S_ .f32 := constant S_ .f32 0x7F800000#32
  let main_v40 : FVec F S32768x411 .f32 := broadcastInDim S32768x411 ![] bcast_S_S32768x411 main_cst_14
  let main_v41 : IVec S32768x411 1 := cmpf .olt main_v39 main_v40
  let main_c_15 : IVec S_ 1 := constantI S_ 1 1#1
  let main_v42 : IVec S_ 1 := (fun x v => Host.reduce IntOp.andi x v reducesTo_S32768x411_S_d0_1 h_S_) main_v41 main_c_15
  let main_v43 : IVec S_ 1 := andi main_v38 main_v42
  let main_v44 : FVec F S600x600 .f32 := Host.absf main_arg9
  let main_cst_16 : FVec F S_ .f32 := constant S_ .f32 0x7F800000#32
  let main_v45 : FVec F S600x600 .f32 := broadcastInDim S600x600 ![] bcast_S_S600x600 main_cst_16
  let main_v46 : IVec S600x600 1 := cmpf .olt main_v44 main_v45
  let main_c_17 : IVec S_ 1 := constantI S_ 1 1#1
  let main_v47 : IVec S_ 1 := (fun x v => Host.reduce IntOp.andi x v reducesTo_S600x600_S_d0_1 h_S_) main_v46 main_c_17
  let main_v48 : IVec S_ 1 := andi main_v43 main_v47
  let main_v49 : FVec F S600x600 .f32 := Host.absf main_arg10
  let main_cst_18 : FVec F S_ .f32 := constant S_ .f32 0x7F800000#32
  let main_v50 : FVec F S600x600 .f32 := broadcastInDim S600x600 ![] bcast_S_S600x600 main_cst_18
  fn_part3 (F := F) main_arg11 main_arg12 main_arg13 main_arg14 main_arg15 main_arg16 main_arg17 main_v48 main_v49 main_v50

def fn_part1 {F : FTy → Type} [FloatOps F] (main_arg4 : FVec F S32768x138 .f32) (main_arg5 : FVec F S32768x138 .f32) (main_arg6 : FVec F S32768x300 .f32) (main_arg7 : FVec F S32768x300 .f32) (main_arg8 : FVec F S32768x411 .f32) (main_arg9 : FVec F S600x600 .f32) (main_arg10 : FVec F S600x600 .f32) (main_arg11 : FVec F S822x822 .f32) (main_arg12 : FVec F S822x600 .f32) (main_arg13 : FVec F S138x600 .f32) (main_arg14 : FVec F S600x600 .f32) (main_arg15 : FVec F S1x138 .f32) (main_arg16 : FVec F S1x138 .f32) (main_arg17 : FVec F S1x69 .f32) (main_v13 : IVec S_ 1) (main_v16 : IVec S32768x600 1) : IVec S_ 1 :=
  let main_c_5 : IVec S_ 1 := constantI S_ 1 1#1
  let main_v17 : IVec S_ 1 := (fun x v => Host.reduce IntOp.andi x v reducesTo_S32768x600_S_d0_1 h_S_) main_v16 main_c_5
  let main_v18 : IVec S_ 1 := andi main_v13 main_v17
  let main_v19 : FVec F S32768x138 .f32 := Host.absf main_arg4
  let main_cst_6 : FVec F S_ .f32 := constant S_ .f32 0x7F800000#32
  let main_v20 : FVec F S32768x138 .f32 := broadcastInDim S32768x138 ![] bcast_S_S32768x138 main_cst_6
  let main_v21 : IVec S32768x138 1 := cmpf .olt main_v19 main_v20
  let main_c_7 : IVec S_ 1 := constantI S_ 1 1#1
  let main_v22 : IVec S_ 1 := (fun x v => Host.reduce IntOp.andi x v reducesTo_S32768x138_S_d0_1 h_S_) main_v21 main_c_7
  let main_v23 : IVec S_ 1 := andi main_v18 main_v22
  let main_v24 : FVec F S32768x138 .f32 := Host.absf main_arg5
  let main_cst_8 : FVec F S_ .f32 := constant S_ .f32 0x7F800000#32
  let main_v25 : FVec F S32768x138 .f32 := broadcastInDim S32768x138 ![] bcast_S_S32768x138 main_cst_8
  let main_v26 : IVec S32768x138 1 := cmpf .olt main_v24 main_v25
  let main_c_9 : IVec S_ 1 := constantI S_ 1 1#1
  let main_v27 : IVec S_ 1 := (fun x v => Host.reduce IntOp.andi x v reducesTo_S32768x138_S_d0_1 h_S_) main_v26 main_c_9
  let main_v28 : IVec S_ 1 := andi main_v23 main_v27
  let main_v29 : FVec F S32768x300 .f32 := Host.absf main_arg6
  let main_cst_10 : FVec F S_ .f32 := constant S_ .f32 0x7F800000#32
  let main_v30 : FVec F S32768x300 .f32 := broadcastInDim S32768x300 ![] bcast_S_S32768x300 main_cst_10
  let main_v31 : IVec S32768x300 1 := cmpf .olt main_v29 main_v30
  let main_c_11 : IVec S_ 1 := constantI S_ 1 1#1
  let main_v32 : IVec S_ 1 := (fun x v => Host.reduce IntOp.andi x v reducesTo_S32768x300_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32768x600 .f32) (main_arg1 : FVec F S32768x138 .f32) (main_arg2 : FVec F S32768x600 .f32) (main_arg3 : FVec F S32768x600 .f32) (main_arg4 : FVec F S32768x138 .f32) (main_arg5 : FVec F S32768x138 .f32) (main_arg6 : FVec F S32768x300 .f32) (main_arg7 : FVec F S32768x300 .f32) (main_arg8 : FVec F S32768x411 .f32) (main_arg9 : FVec F S600x600 .f32) (main_arg10 : FVec F S600x600 .f32) (main_arg11 : FVec F S822x822 .f32) (main_arg12 : FVec F S822x600 .f32) (main_arg13 : FVec F S138x600 .f32) (main_arg14 : FVec F S600x600 .f32) (main_arg15 : FVec F S1x138 .f32) (main_arg16 : FVec F S1x138 .f32) (main_arg17 : FVec F S1x69 .f32) : IVec S_ 1 :=
  let main_v0 : FVec F S32768x600 .f32 := Host.absf main_arg0
  let main_cst : FVec F S_ .f32 := constant S_ .f32 0x7F800000#32
  let main_v1 : FVec F S32768x600 .f32 := broadcastInDim S32768x600 ![] bcast_S_S32768x600 main_cst
  let main_v2 : IVec S32768x600 1 := cmpf .olt main_v0 main_v1
  let main_c : IVec S_ 1 := constantI S_ 1 1#1
  let main_v3 : IVec S_ 1 := (fun x v => Host.reduce IntOp.andi x v reducesTo_S32768x600_S_d0_1 h_S_) main_v2 main_c
  let main_v4 : FVec F S32768x138 .f32 := Host.absf main_arg1
  let main_cst_0 : FVec F S_ .f32 := constant S_ .f32 0x7F800000#32
  let main_v5 : FVec F S32768x138 .f32 := broadcastInDim S32768x138 ![] bcast_S_S32768x138 main_cst_0
  let main_v6 : IVec S32768x138 1 := cmpf .olt main_v4 main_v5
  let main_c_1 : IVec S_ 1 := constantI S_ 1 1#1
  let main_v7 : IVec S_ 1 := (fun x v => Host.reduce IntOp.andi x v reducesTo_S32768x138_S_d0_1 h_S_) main_v6 main_c_1
  let main_v8 : IVec S_ 1 := andi main_v3 main_v7
  let main_v9 : FVec F S32768x600 .f32 := Host.absf main_arg2
  let main_cst_2 : FVec F S_ .f32 := constant S_ .f32 0x7F800000#32
  let main_v10 : FVec F S32768x600 .f32 := broadcastInDim S32768x600 ![] bcast_S_S32768x600 main_cst_2
  let main_v11 : IVec S32768x600 1 := cmpf .olt main_v9 main_v10
  let main_c_3 : IVec S_ 1 := constantI S_ 1 1#1
  let main_v12 : IVec S_ 1 := (fun x v => Host.reduce IntOp.andi x v reducesTo_S32768x600_S_d0_1 h_S_) main_v11 main_c_3
  let main_v13 : IVec S_ 1 := andi main_v8 main_v12
  let main_v14 : FVec F S32768x600 .f32 := Host.absf main_arg3
  let main_cst_4 : FVec F S_ .f32 := constant S_ .f32 0x7F800000#32
  let main_v15 : FVec F S32768x600 .f32 := broadcastInDim S32768x600 ![] bcast_S_S32768x600 main_cst_4
  let main_v16 : IVec S32768x600 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32768x600 : Shape := ⟨2, ![32768, 600]⟩
abbrev S32768x138 : Shape := ⟨2, ![32768, 138]⟩
abbrev S32768x300 : Shape := ⟨2, ![32768, 300]⟩
abbrev S32768x411 : Shape := ⟨2, ![32768, 411]⟩
abbrev S600x600 : Shape := ⟨2, ![600, 600]⟩
abbrev S822x822 : Shape := ⟨2, ![822, 822]⟩
abbrev S822x600 : Shape := ⟨2, ![822, 600]⟩
abbrev S138x600 : Shape := ⟨2, ![138, 600]⟩
abbrev S1x138 : Shape := ⟨2, ![1, 138]⟩
abbrev S1x69 : Shape := ⟨2, ![1, 69]⟩
abbrev S1x600 : Shape := ⟨2, ![1, 600]⟩
abbrev S_ : Shape := ⟨0, ![]⟩
abbrev S1x1 : Shape := ⟨2, ![1, 1]⟩
abbrev S2048x600 : Shape := ⟨2, ![2048, 600]⟩
abbrev S2048 : Shape := ⟨1, ![2048]⟩
abbrev S2048x1 : Shape := ⟨2, ![2048, 1]⟩
abbrev S1 : Shape := ⟨1, ![1]⟩
abbrev S32768x1 : Shape := ⟨2, ![32768, 1]⟩
abbrev S256x600 : Shape := ⟨2, ![256, 600]⟩
abbrev S256x138 : Shape := ⟨2, ![256, 138]⟩
abbrev S256x300 : Shape := ⟨2, ![256, 300]⟩
abbrev S256x411 : Shape := ⟨2, ![256, 411]⟩
abbrev S256x1 : Shape := ⟨2, ![256, 1]⟩
abbrev S256 : Shape := ⟨1, ![256]⟩
abbrev S256x822 : Shape := ⟨2, ![256, 822]⟩
abbrev S32768 : Shape := ⟨1, ![32768]⟩

abbrev nBuf : Space → Nat
  | .hbm => 35
  | .vmem => 36
  | .smem => 0
  | _ => 0

abbrev bufTy : (tb : Table) → Fin (tcTables nBuf tb) → BufTy
  | .hbm, ⟨0, _⟩ => ⟨S32768x600, .f32⟩
  | .hbm, ⟨1, _⟩ => ⟨S32768x138, .f32⟩
  | .hbm, ⟨2, _⟩ => ⟨S32768x600, .f32⟩
  | .hbm, ⟨3, _⟩ => ⟨S32768x600, .f32⟩
  | .hbm, ⟨4, _⟩ => ⟨S32768x138, .f32⟩
  | .hbm, ⟨5, _⟩ => ⟨S32768x138, .f32⟩
  | .hbm, ⟨6, _⟩ => ⟨S32768x300, .f32⟩
  | .hbm, ⟨7, _⟩ => ⟨S32768x300, .f32⟩
  | .hbm, ⟨8, _⟩ => ⟨S32768x411, .f32⟩
  | .hbm, ⟨9, _⟩ => ⟨S600x600, .f32⟩
  | .hbm, ⟨10, _⟩ => ⟨S600x600, .f32⟩
  | .hbm, ⟨11, _⟩ => ⟨S822x822, .f32⟩
  | .hbm, ⟨12, _⟩ => ⟨S822x600, .f32⟩
  | .hbm, ⟨13, _⟩ => ⟨S138x600, .f32⟩
  | .hbm, ⟨14, _⟩ => ⟨S600x600, .f32⟩
  | .hbm, ⟨15, _⟩ => ⟨S1x138, .f32⟩
  | .hbm, ⟨16, _⟩ => ⟨S1x138, .f32⟩
  | .hbm, ⟨17, _⟩ => ⟨S1x69, .f32⟩
  | .hbm, ⟨18, _⟩ => ⟨S1x600, .f32⟩
  | .hbm, ⟨19, _⟩ => ⟨S1x600, .f32⟩
  | .hbm, ⟨20, _⟩ => ⟨S600x600, .bf16⟩
  | .hbm, ⟨21, _⟩ => ⟨S600x600, .bf16⟩
  | .hbm, ⟨22, _⟩ => ⟨S600x600, .bf16⟩
  | .hbm, ⟨23, _⟩ => ⟨S138x600, .bf16⟩
  | .hbm, ⟨24, _⟩ => ⟨S822x600, .bf16⟩
  | .hbm, ⟨25, _⟩ => ⟨S822x822, .bf16⟩
  | .hbm, ⟨26, _⟩ => ⟨S_, .f32⟩
  | .hbm, ⟨27, _⟩ => ⟨S1x69, .f32⟩
  | .hbm, ⟨28, _⟩ => ⟨S1x138, .f32⟩
  | .hbm, ⟨29, _⟩ => ⟨S1x1, .f32⟩
  | .hbm, ⟨30, _⟩ => ⟨S32768x1, .f32⟩
  | .hbm, ⟨31, _⟩ => ⟨S32768, .f32⟩
  | .hbm, ⟨32, _⟩ => ⟨S_, .f32⟩
  | .hbm, ⟨33, _⟩ => ⟨S32768, .f32⟩
  | .hbm, ⟨34, _⟩ => ⟨S32768, .f32⟩
  | .local _ .vmem, ⟨0, _⟩ => ⟨S2048x600, .f32⟩
  | .local _ .vmem, ⟨1, _⟩ => ⟨S2048x600, .f32⟩
  | .local _ .vmem, ⟨2, _⟩ => ⟨S600x600, .bf16⟩
  | .local _ .vmem, ⟨3, _⟩ => ⟨S600x600, .bf16⟩
  | .local _ .vmem, ⟨4, _⟩ => ⟨S1x600, .f32⟩
  | .local _ .vmem, ⟨5, _⟩ => ⟨S1x600, .f32⟩
  | .local _ .vmem, ⟨6, _⟩ => ⟨S1x1, .f32⟩
  | .local _ .vmem, ⟨7, _⟩ => ⟨S1x1, .f32⟩
  | .local _ .vmem, ⟨8, _⟩ => ⟨S256x600, .f32⟩
  | .local _ .vmem, ⟨9, _⟩ => ⟨S256x600, .f32⟩
  | .local _ .vmem, ⟨10, _⟩ => ⟨S256x138, .f32⟩
  | .local _ .vmem, ⟨11, _⟩ => ⟨S256x138, .f32⟩
  | .local _ .vmem, ⟨12, _⟩ => ⟨S256x600, .f32⟩
  | .local _ .vmem, ⟨13, _⟩ => ⟨S256x600, .f32⟩
  | .local _ .vmem, ⟨14, _⟩ => ⟨S256x600, .f32⟩
  | .local _ .vmem, ⟨15, _⟩ => ⟨S256x600, .f32⟩
  | .local _ .vmem, ⟨16, _⟩ => ⟨S256x138, .f32⟩
  | .local _ .vmem, ⟨17, _⟩ => ⟨S256x138, .f32⟩
  | .local _ .vmem, ⟨18, _⟩ => ⟨S256x138, .f32⟩
  | .local _ .vmem, ⟨19, _⟩ => ⟨S256x138, .f32⟩
  | .local _ .vmem, ⟨20, _⟩ => ⟨S256x300, .f32⟩
  | .local _ .vmem, ⟨21, _⟩ => ⟨S256x300, .f32⟩
  | .local _ .vmem, ⟨22, _⟩ => ⟨S256x300, .f32⟩
  | .local _ .vmem, ⟨23, _⟩ => ⟨S256x300, .f32⟩
  | .local _ .vmem, ⟨24, _⟩ => ⟨S256x411, .f32⟩
  | .local _ .vmem, ⟨25, _⟩ => ⟨S256x411, .f32⟩
  | .local _ .vmem, ⟨26, _⟩ => ⟨S600x600, .bf16⟩
  | .local _ .vmem, ⟨27, _⟩ => ⟨S138x600, .bf16⟩
  | .local _ .vmem, ⟨28, _⟩ => ⟨S822x600, .bf16⟩
  | .local _ .vmem, ⟨29, _⟩ => ⟨S822x822, .bf16⟩
  | .local _ .vmem, ⟨30, _⟩ => ⟨S1x138, .f32⟩
  | .local _ .vmem, ⟨31, _⟩ => ⟨S1x138, .f32⟩
  | .local _ .vmem, ⟨32, _⟩ => ⟨S1x138, .f32⟩
  | .local _ .vmem, ⟨33, _⟩ => ⟨S1x600, .f32⟩
  | .local _ .vmem, ⟨34, _⟩ => ⟨S256x1, .f32⟩
  | .local _ .vmem, ⟨35, _⟩ => ⟨S256x1, .f32⟩
  | _, _ => ⟨S32768x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg15_0 : Ref sig .tc := ⟨.vmem, 32, rfl⟩
abbrev cc1_stg16_0 : Ref sig .tc := ⟨.vmem, 33, rfl⟩
abbrev cc1_stg17_0 : Ref sig .tc := ⟨.vmem, 34, rfl⟩
abbrev cc1_stg17_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem16_0 : DmaSem sig := 32
abbrev cc1_sem17_0 : DmaSem sig := 33
abbrev cc1_sem17_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S600x600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S600x600 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x600 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x138 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x600 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x600 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x138 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x138 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x300 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x300 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x411 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S600x600 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S138x600 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S822x600 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S822x822 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x138 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x138 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x138 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x600 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S256x1 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  bitsLt_bf16_f32 : FTy.bits .bf16 < FTy.bits .f32
  bcast_S_S1x69 : S_.BroadcastsInDim S1x69 (![] : Fin 0 → Fin S1x69.rank)
  concatenates_S1x69_S1x69_S1x138_d1 : Shape.Concatenates [S1x69, S1x69] S1x138 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x600_S2048x600_0_0 : ∀ a, (![0, 0] : Fin 2 → Nat) a + S2048x600.size a ≤ S2048x600.size a
  h_S2048x600 : 0 < S2048x600.numel
  inb_S600x600_S600x600_0_0 : ∀ a, (![0, 0] : Fin 2 → Nat) a + S600x600.size a ≤ S600x600.size a
  h_S600x600 : 0 < S600x600.numel
  shapeCasts_S600x600_S600x600 : S600x600.ShapeCasts S600x600
  inb_S1x600_S1x600_0_0 : ∀ a, (![0, 0] : Fin 2 → Nat) a + S1x600.size a ≤ S1x600.size a
  h_S1x600 : 0 < S1x600.numel
  broadcasts_S1x600_S2048x600 : S1x600.Broadcasts S2048x600
  reduces_S2048x600_S2048 : S2048x600.Reduces [1] S2048
  shapeCasts_S2048_S2048x1 : S2048.ShapeCasts S2048x1
  reduces_S2048x1_S1 : S2048x1.Reduces [0] S1
  shapeCasts_S1_S1x1 : S1.ShapeCasts S1x1
  inb_S256x600_S256x600_0_0 : ∀ a, (![0, 0] : Fin 2 → Nat) a + S256x600.size a ≤ S256x600.size a
  h_S256x600 : 0 < S256x600.numel
  inb_S256x138_S256x138_0_0 : ∀ a, (![0, 0] : Fin 2 → Nat) a + S256x138.size a ≤ S256x138.size a
  h_S256x138 : 0 < S256x138.numel
  inb_S256x300_S256x300_0_0 : ∀ a, (![0, 0] : Fin 2 → Nat) a + S256x300.size a ≤ S256x300.size a
  h_S256x300 : 0 < S256x300.numel
  inb_S256x411_S256x411_0_0 : ∀ a, (![0, 0] : Fin 2 → Nat) a + S256x411.size a ≤ S256x411.size a
  h_S256x411 : 0 < S256x411.numel
  inb_S1x138_S1x138_0_0 : ∀ a, (![0, 0] : Fin 2 → Nat) a + S1x138.size a ≤ S1x138.size a
  h_S1x138 : 0 < S1x138.numel
  shapeCasts_S1x138_S1x138 : S1x138.ShapeCasts S1x138
  broadcasts_S1x138_S256x138 : S1x138.Broadcasts S256x138
  reduces_S256x138_S256 : S256x138.Reduces [1] S256
  shapeCasts_S256_S256x1 : S256.ShapeCasts S256x1
  slices_S256x600_o0_0_S256x300 : S256x600.Slices ![0, 0] S256x300
  slices_S256x600_o0_300_S256x300 : S256x600.Slices ![0, 300] S256x300
  reduces_S256x300_S256 : S256x300.Reduces [1] S256
  inb_S138x600_S138x600_0_0 : ∀ a, (![0, 0] : Fin 2 → Nat) a + S138x600.size a ≤ S138x600.size a
  h_S138x600 : 0 < S138x600.numel
  shapeCasts_S138x600_S138x600 : S138x600.ShapeCasts S138x600
  broadcasts_S1x600_S256x600 : S1x600.Broadcasts S256x600
  reduces_S256x600_S256 : S256x600.Reduces [1] S256
  inb_S822x600_S822x600_0_0 : ∀ a, (![0, 0] : Fin 2 → Nat) a + S822x600.size a ≤ S822x600.size a
  h_S822x600 : 0 < S822x600.numel
  shapeCasts_S822x600_S822x600 : S822x600.ShapeCasts S822x600
  inb_S822x822_S822x822_0_0 : ∀ a, (![0, 0] : Fin 2 → Nat) a + S822x822.size a ≤ S822x822.size a
  h_S822x822 : 0 < S822x822.numel
  shapeCasts_S822x822_S822x822 : S822x822.ShapeCasts S822x822
  slices_S256x822_o0_0_S256x411 : S256x822.Slices ![0, 0] S256x411
  slices_S256x822_o0_411_S256x411 : S256x822.Slices ![0, 411] S256x411
  reduces_S256x411_S256 : S256x411.Reduces [1] S256
  inb_S256x1_S256x1_0_0 : ∀ a, (![0, 0] : Fin 2 → Nat) a + S256x1.size a ≤ S256x1.size a
  h_S256x1 : 0 < S256x1.numel
  shapeCasts_S32768x1_S32768 : S32768x1.ShapeCasts S32768
  shapeCasts_S1x1_S_ : S1x1.ShapeCasts S_
  bcast_S_S32768 : S_.BroadcastsInDim S32768 (![] : Fin 0 → Fin S32768.rank)
  dot_S2048x600_S600x600_S2048x600_1_1_0_0_n_n_wf : DotDims.WF S2048x600 S600x600 S2048x600 [1] [1] [0] [0] [] []
  dot_S256x600_S600x600_S256x600_1_0_0_1_n_n_wf : DotDims.WF S256x600 S600x600 S256x600 [1] [0] [0] [1] [] []
  dot_S256x138_S138x600_S256x600_1_0_0_1_n_n_wf : DotDims.WF S256x138 S138x600 S256x600 [1] [0] [0] [1] [] []
  dot_S256x600_S822x600_S256x822_1_1_0_0_n_n_wf : DotDims.WF S256x600 S822x600 S256x822 [1] [1] [0] [0] [] []
  dot_S256x822_S822x822_S256x822_1_1_0_0_n_n_wf : DotDims.WF S256x822 S822x822 S256x822 [1] [1] [0] [0] [] []
  dot_S256x600_S138x600_S256x138_1_1_0_0_n_n_wf : DotDims.WF S256x600 S138x600 S256x138 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x600.size a ≤ S32768x600.size a
  hwx0_0 : ∀ i : grid0.Coords, EltTy.bits .f32 = 32 ∨ (Rect.block (s := S32768x600) S2048x600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S600x600.size a ≤ S600x600.size a
  hwx0_1 : ∀ i : grid0.Coords, EltTy.bits .bf16 = 32 ∨ (Rect.block (s := S600x600) S600x600.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S600x600.size a ≤ S600x600.size a
  hwx0_2 : ∀ i : grid0.Coords, EltTy.bits .bf16 = 32 ∨ (Rect.block (s := S600x600) S600x600.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x600.size a ≤ S1x600.size a
  hwx0_3 : ∀ i : grid0.Coords, EltTy.bits .f32 = 32 ∨ (Rect.block (s := S1x600) S1x600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x600.size a ≤ S1x600.size a
  hwx0_4 : ∀ i : grid0.Coords, EltTy.bits .f32 = 32 ∨ (Rect.block (s := S1x600) S1x600.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x600.size a ≤ S32768x600.size a
  hwx1_0 : ∀ i : grid1.Coords, EltTy.bits .f32 = 32 ∨ (Rect.block (s := S32768x600) S256x600.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x138.size a ≤ S32768x138.size a
  hwx1_1 : ∀ i : grid1.Coords, EltTy.bits .f32 = 32 ∨ (Rect.block (s := S32768x138) S256x138.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x600.size a ≤ S32768x600.size a
  hwx1_2 : ∀ i : grid1.Coords, EltTy.bits .f32 = 32 ∨ (Rect.block (s := S32768x600) S256x600.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x600.size a ≤ S32768x600.size a
  hwx1_3 : ∀ i : grid1.Coords, EltTy.bits .f32 = 32 ∨ (Rect.block (s := S32768x600) S256x600.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x138.size a ≤ S32768x138.size a
  hwx1_4 : ∀ i : grid1.Coords, EltTy.bits .f32 = 32 ∨ (Rect.block (s := S32768x138) S256x138.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x138.size a ≤ S32768x138.size a
  hwx1_5 : ∀ i : grid1.Coords, EltTy.bits .f32 = 32 ∨ (Rect.block (s := S32768x138) S256x138.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x300.size a ≤ S32768x300.size a
  hwx1_6 : ∀ i : grid1.Coords, EltTy.bits .f32 = 32 ∨ (Rect.block (s := S32768x300) S256x300.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x300.size a ≤ S32768x300.size a
  hwx1_7 : ∀ i : grid1.Coords, EltTy.bits .f32 = 32 ∨ (Rect.block (s := S32768x300) S256x300.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x411.size a ≤ S32768x411.size a
  hwx1_8 : ∀ i : grid1.Coords, EltTy.bits .f32 = 32 ∨ (Rect.block (s := S32768x411) S256x411.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S600x600.size a ≤ S600x600.size a
  hwx1_9 : ∀ i : grid1.Coords, EltTy.bits .bf16 = 32 ∨ (Rect.block (s := S600x600) S600x600.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S138x600.size a ≤ S138x600.size a
  hwx1_10 : ∀ i : grid1.Coords, EltTy.bits .bf16 = 32 ∨ (Rect.block (s := S138x600) S138x600.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S822x600.size a ≤ S822x600.size a
  hwx1_11 : ∀ i : grid1.Coords, EltTy.bits .bf16 = 32 ∨ (Rect.block (s := S822x600) S822x600.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S822x822.size a ≤ S822x822.size a
  hwx1_12 : ∀ i : grid1.Coords, EltTy.bits .bf16 = 32 ∨ (Rect.block (s := S822x822) S822x822.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x138.size a ≤ S1x138.size a
  hwx1_13 : ∀ i : grid1.Coords, EltTy.bits .f32 = 32 ∨ (Rect.block (s := S1x138) S1x138.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x138.size a ≤ S1x138.size a
  hwx1_14 : ∀ i : grid1.Coords, EltTy.bits .f32 = 32 ∨ (Rect.block (s := S1x138) S1x138.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x138.size a ≤ S1x138.size a
  hwx1_15 : ∀ i : grid1.Coords, EltTy.bits .f32 = 32 ∨ (Rect.block (s := S1x138) S1x138.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x600.size a ≤ S1x600.size a
  hwx1_16 : ∀ i : grid1.Coords, EltTy.bits .f32 = 32 ∨ (Rect.block (s := S1x600) S1x600.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S256x1.size a ≤ S32768x1.size a
  hwx1_17 : ∀ i : grid1.Coords, EltTy.bits .f32 = 32 ∨ (Rect.block (s := S32768x1) S256x1.size (cc1_transform_17 i) (hinb1_17 i)).WholeWords (EltTy.packing .f32)

variable [Facts₀]

def dot_S2048x600_S600x600_S2048x600_1_1_0_0_n_n : DotDims S2048x600 S600x600 S2048x600 where
  lhsContracting := [1]
  rhsContracting := [1]
  lhsNonContracting := [0]
  rhsNonContracting := [0]
  lhsBatch := []
  rhsBatch := []
  wf := dot_S2048x600_S600x600_S2048x600_1_1_0_0_n_n_wf
def dot_S256x600_S600x600_S256x600_1_0_0_1_n_n : DotDims S256x600 S600x600 S256x600 where
  lhsContracting := [1]
  rhsContracting := [0]
  lhsNonContracting := [0]
  rhsNonContracting := [1]
  lhsBatch := []
  rhsBatch := []
  wf := dot_S256x600_S600x600_S256x600_1_0_0_1_n_n_wf
def dot_S256x138_S138x600_S256x600_1_0_0_1_n_n : DotDims S256x138 S138x600 S256x600 where
  lhsContracting := [1]
  rhsContracting := [0]
  lhsNonContracting := [0]
  rhsNonContracting := [1]
  lhsBatch := []
  rhsBatch := []
  wf := dot_S256x138_S138x600_S256x600_1_0_0_1_n_n_wf
def dot_S256x600_S822x600_S256x822_1_1_0_0_n_n : DotDims S256x600 S822x600 S256x822 where
  lhsContracting := [1]
  rhsContracting := [1]
  lhsNonContracting := [0]
  rhsNonContracting := [0]
  lhsBatch := []
  rhsBatch := []
  wf := dot_S256x600_S822x600_S256x822_1_1_0_0_n_n_wf
def dot_S256x822_S822x822_S256x822_1_1_0_0_n_n : DotDims S256x822 S822x822 S256x822 where
  lhsContracting := [1]
  rhsContracting := [1]
  lhsNonContracting := [0]
  rhsNonContracting := [0]
  lhsBatch := []
  rhsBatch := []
  wf := dot_S256x822_S822x822_S256x822_1_1_0_0_n_n_wf
def dot_S256x600_S138x600_S256x138_1_1_0_0_n_n : DotDims S256x600 S138x600 S256x138 where
  lhsContracting := [1]
  rhsContracting := [1]
  lhsNonContracting := [0]
  rhsNonContracting := [0]
  lhsBatch := []
  rhsBatch := []
  wf := dot_S256x600_S138x600_S256x138_1_1_0_0_n_n_wf

abbrev win0_0 : Pipeline.Window sig grid0 :=
  Pipeline.Window.ofSpec (Memref.whole main_arg0) S2048x600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S600x600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S600x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_cst) S1x600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_cst_0) S1x600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S256x600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x138.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x600.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x600.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256x138.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x138.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S256x300.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S256x300.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S256x411.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v2) S600x600.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v3) S138x600.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v4) S822x600.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v5) S822x822.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg15) S1x138.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg16) S1x138.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v7) S1x138.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_cst) S1x600.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v9) S256x1.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S32768x600 : Shape := ⟨2, ![32768, 600]⟩
abbrev S32768x138 : Shape := ⟨2, ![32768, 138]⟩
abbrev S32768x300 : Shape := ⟨2, ![32768, 300]⟩
abbrev S32768x411 : Shape := ⟨2, ![32768, 411]⟩
abbrev S600x600 : Shape := ⟨2, ![600, 600]⟩
abbrev S822x822 : Shape := ⟨2, ![822, 822]⟩
abbrev S822x600 : Shape := ⟨2, ![822, 600]⟩
abbrev S138x600 : Shape := ⟨2, ![138, 600]⟩
abbrev S1x138 : Shape := ⟨2, ![1, 138]⟩
abbrev S1x69 : Shape := ⟨2, ![1, 69]⟩
abbrev S32768x299 : Shape := ⟨2, ![32768, 299]⟩
abbrev S_ : Shape := ⟨0, ![]⟩
abbrev S32768 : Shape := ⟨1, ![32768]⟩
abbrev S32768x1 : Shape := ⟨2, ![32768, 1]⟩
abbrev S600x822 : Shape := ⟨2, ![600, 822]⟩
abbrev S32768x822 : Shape := ⟨2, ![32768, 822]⟩
abbrev S600x138 : Shape := ⟨2, ![600, 138]⟩

abbrev nBuf : Space → Nat
  | .hbm => 212
  | .vmem => 0
  | .smem => 0
  | _ => 0

abbrev hbmTy0_0 (i : Nat) : BufTy := match i % 128 with
  | 0 => ⟨S32768x600, .f32⟩
  | 1 => ⟨S32768x138, .f32⟩
  | 2 => ⟨S32768x600, .f32⟩
  | 3 => ⟨S32768x600, .f32⟩
  | 4 => ⟨S32768x138, .f32⟩
  | 5 => ⟨S32768x138, .f32⟩
  | 6 => ⟨S32768x300, .f32⟩
  | 7 => ⟨S32768x300, .f32⟩
  | 8 => ⟨S32768x411, .f32⟩
  | 9 => ⟨S600x600, .f32⟩
  | 10 => ⟨S600x600, .f32⟩
  | 11 => ⟨S822x822, .f32⟩
  | 12 => ⟨S822x600, .f32⟩
  | 13 => ⟨S138x600, .f32⟩
  | 14 => ⟨S600x600, .f32⟩
  | 15 => ⟨S1x138, .f32⟩
  | 16 => ⟨S1x138, .f32⟩
  | 17 => ⟨S1x69, .f32⟩
  | 18 => ⟨S32768x300, .f32⟩
  | 19 => ⟨S32768x300, .f32⟩
  | 20 => ⟨S600x600, .f32⟩
  | 21 => ⟨S32768x600, .f32⟩
  | 22 => ⟨S32768x600, .f32⟩
  | 23 => ⟨S600x600, .f32⟩
  | 24 => ⟨S32768x600, .f32⟩
  | 25 => ⟨S32768x600, .f32⟩
  | 26 => ⟨S32768x299, .f32⟩
  | 27 => ⟨S_, .f32⟩
  | 28 => ⟨S_, .f32⟩
  | 29 => ⟨S32768x299, .f32⟩
  | 30 => ⟨S_, .f32⟩
  | 31 => ⟨S_, .f32⟩
  | 32 => ⟨S_, .f32⟩
  | 33 => ⟨S32768x299, .f32⟩
  | 34 => ⟨S_, .f32⟩
  | 35 => ⟨S_, .f32⟩
  | 36 => ⟨S_, .f32⟩
  | 37 => ⟨S32768x299, .f32⟩
  | 38 => ⟨S_, .f32⟩
  | 39 => ⟨S_, .f32⟩
  | 40 => ⟨S_, .f32⟩
  | 41 => ⟨S32768x600, .f32⟩
  | 42 => ⟨S32768x600, .f32⟩
  | 43 => ⟨S32768x600, .f32⟩
  | 44 => ⟨S32768x299, .f32⟩
  | 45 => ⟨S_, .f32⟩
  | 46 => ⟨S32768, .f32⟩
  | 47 => ⟨S32768x299, .f32⟩
  | 48 => ⟨S_, .f32⟩
  | 49 => ⟨S32768, .f32⟩
  | 50 => ⟨S32768, .f32⟩
  | 51 => ⟨S32768x1, .f32⟩
  | 52 => ⟨S32768, .f32⟩
  | 53 => ⟨S32768, .f32⟩
  | 54 => ⟨S_, .f32⟩
  | 55 => ⟨S_, .f32⟩
  | 56 => ⟨S_, .f32⟩
  | 57 => ⟨S_, .f32⟩
  | 58 => ⟨S32768, .f32⟩
  | 59 => ⟨S32768, .f32⟩
  | 60 => ⟨S32768, .f32⟩
  | 61 => ⟨S32768, .f32⟩
  | 62 => ⟨S32768x138, .f32⟩
  | 63 => ⟨S32768x138, .f32⟩
  | 64 => ⟨S_, .f32⟩
  | 65 => ⟨S32768x138, .f32⟩
  | 66 => ⟨S32768x138, .f32⟩
  | 67 => ⟨S_, .f32⟩
  | 68 => ⟨S32768, .f32⟩
  | 69 => ⟨S32768, .f32⟩
  | 70 => ⟨S32768x138, .f32⟩
  | 71 => ⟨S32768x138, .f32⟩
  | 72 => ⟨S_, .f32⟩
  | 73 => ⟨S32768x138, .f32⟩
  | 74 => ⟨S32768x138, .f32⟩
  | 75 => ⟨S_, .f32⟩
  | 76 => ⟨S32768, .f32⟩
  | 77 => ⟨S32768, .f32⟩
  | 78 => ⟨S32768x300, .f32⟩
  | 79 => ⟨S32768x300, .f32⟩
  | 80 => ⟨S32768x300, .f32⟩
  | 81 => ⟨S_, .f32⟩
  | 82 => ⟨S32768x300, .f32⟩
  | 83 => ⟨S32768x300, .f32⟩
  | 84 => ⟨S32768x300, .f32⟩
  | 85 => ⟨S_, .f32⟩
  | 86 => ⟨S32768x300, .f32⟩
  | 87 => ⟨S32768x300, .f32⟩
  | 88 => ⟨S32768x300, .f32⟩
  | 89 => ⟨S32768x300, .f32⟩
  | 90 => ⟨S_, .f32⟩
  | 91 => ⟨S32768x300, .f32⟩
  | 92 => ⟨S32768x300, .f32⟩
  | 93 => ⟨S_, .f32⟩
  | 94 => ⟨S32768, .f32⟩
  | 95 => ⟨S32768, .f32⟩
  | 96 => ⟨S_, .f32⟩
  | 97 => ⟨S32768x300, .f32⟩
  | 98 => ⟨S32768x300, .f32⟩
  | 99 => ⟨S_, .f32⟩
  | 100 => ⟨S32768, .f32⟩
  | 101 => ⟨S32768, .f32⟩
  | 102 => ⟨S600x822, .f32⟩
  | 103 => ⟨S32768x822, .f32⟩
  | 104 => ⟨S822x822, .f32⟩
  | 105 => ⟨S32768x822, .f32⟩
  | 106 => ⟨S32768x411, .f32⟩
  | 107 => ⟨S32768x411, .f32⟩
  | 108 => ⟨S32768x411, .f32⟩
  | 109 => ⟨S32768x411, .f32⟩
  | 110 => ⟨S32768x411, .f32⟩
  | 111 => ⟨S_, .f32⟩
  | 112 => ⟨S32768x411, .f32⟩
  | 113 => ⟨S32768x411, .f32⟩
  | 114 => ⟨S_, .f32⟩
  | 115 => ⟨S32768x411, .f32⟩
  | 116 => ⟨S32768x411, .f32⟩
  | 117 => ⟨S_, .f32⟩
  | 118 => ⟨S32768, .f32⟩
  | 119 => ⟨S32768, .f32⟩
  | 120 => ⟨S32768x138, .f32⟩
  | 121 => ⟨S32768x138, .f32⟩
  | 122 => ⟨S32768x138, .f32⟩
  | 123 => ⟨S32768x138, .f32⟩
  | 124 => ⟨S_, .f32⟩
  | 125 => ⟨S32768, .f32⟩
  | 126 => ⟨S_, .f32⟩
  | 127 => ⟨S32768, .f32⟩
  | _ => ⟨S32768x600, .f32⟩

abbrev hbmTy0_1 (i : Nat) : BufTy := match i % 128 with
  | 0 => ⟨S32768, .f32⟩
  | 1 => ⟨S32768, .f32⟩
  | 2 => ⟨S32768x138, .f32⟩
  | 3 => ⟨S32768x138, .f32⟩
  | 4 => ⟨S32768x138, .f32⟩
  | 5 => ⟨S32768x138, .f32⟩
  | 6 => ⟨S_, .f32⟩
  | 7 => ⟨S32768, .f32⟩
  | 8 => ⟨S_, .f32⟩
  | 9 => ⟨S32768, .f32⟩
  | 10 => ⟨S32768, .f32⟩
  | 11 => ⟨S32768, .f32⟩
  | 12 => ⟨S32768x300, .f32⟩
  | 13 => ⟨S32768x300, .f32⟩
  | 14 => ⟨S_, .f32⟩
  | 15 => ⟨S32768, .f32⟩
  | 16 => ⟨S32768, .f32⟩
  | 17 => ⟨S32768x300, .f32⟩
  | 18 => ⟨S32768x300, .f32⟩
  | 19 => ⟨S_, .f32⟩
  | 20 => ⟨S32768, .f32⟩
  | 21 => ⟨S32768, .f32⟩
  | 22 => ⟨S32768x411, .f32⟩
  | 23 => ⟨S32768x411, .f32⟩
  | 24 => ⟨S_, .f32⟩
  | 25 => ⟨S32768, .f32⟩
  | 26 => ⟨S32768, .f32⟩
  | 27 => ⟨S_, .f32⟩
  | 28 => ⟨S1x69, .f32⟩
  | 29 => ⟨S1x138, .f32⟩
  | 30 => ⟨S_, .f32⟩
  | 31 => ⟨S32768x138, .f32⟩
  | 32 => ⟨S32768x138, .f32⟩
  | 33 => ⟨S_, .f32⟩
  | 34 => ⟨S32768x138, .f32⟩
  | 35 => ⟨S32768x138, .f32⟩
  | 36 => ⟨S32768x138, .f32⟩
  | 37 => ⟨S_, .f32⟩
  | 38 => ⟨S32768x600, .f32⟩
  | 39 => ⟨S32768x600, .f32⟩
  | 40 => ⟨S600x138, .f32⟩
  | 41 => ⟨S32768x138, .f32⟩
  | 42 => ⟨S32768x138, .f32⟩
  | 43 => ⟨S32768x138, .f32⟩
  | 44 => ⟨S32768x138, .f32⟩
  | 45 => ⟨S32768x138, .f32⟩
  | 46 => ⟨S_, .f32⟩
  | 47 => ⟨S32768, .f32⟩
  | 48 => ⟨S32768, .f32⟩
  | 49 => ⟨S32768x138, .f32⟩
  | 50 => ⟨S_, .f32⟩
  | 51 => ⟨S32768x138, .f32⟩
  | 52 => ⟨S32768x138, .f32⟩
  | 53 => ⟨S_, .f32⟩
  | 54 => ⟨S32768, .f32⟩
  | 55 => ⟨S32768, .f32⟩
  | 56 => ⟨S32768x138, .f32⟩
  | 57 => ⟨S_, .f32⟩
  | 58 => ⟨S32768x138, .f32⟩
  | 59 => ⟨S32768x138, .f32⟩
  | 60 => ⟨S_, .f32⟩
  | 61 => ⟨S32768, .f32⟩
  | 62 => ⟨S32768, .f32⟩
  | 63 => ⟨S32768x300, .f32⟩
  | 64 => ⟨S_, .f32⟩
  | 65 => ⟨S32768x300, .f32⟩
  | 66 => ⟨S32768x300, .f32⟩
  | 67 => ⟨S_, .f32⟩
  | 68 => ⟨S32768, .f32⟩
  | 69 => ⟨S32768, .f32⟩
  | 70 => ⟨S32768x300, .f32⟩
  | 71 => ⟨S_, .f32⟩
  | 72 => ⟨S32768x300, .f32⟩
  | 73 => ⟨S32768x300, .f32⟩
  | 74 => ⟨S_, .f32⟩
  | 75 => ⟨S32768, .f32⟩
  | 76 => ⟨S32768, .f32⟩
  | 77 => ⟨S32768x411, .f32⟩
  | 78 => ⟨S_, .f32⟩
  | 79 => ⟨S32768x411, .f32⟩
  | 80 => ⟨S32768x411, .f32⟩
  | 81 => ⟨S_, .f32⟩
  | 82 => ⟨S32768, .f32⟩
  | 83 => ⟨S32768, .f32⟩
  | _ => ⟨S32768x600, .f32⟩

abbrev hbmTy (i : Nat) : BufTy := match i / 128 with
  | 0 => hbmTy0_0 i
  | 1 => hbmTy0_1 i
  | _ => ⟨S32768x600, .f32⟩

abbrev bufTy : (tb : Table) → Fin (tcTables nBuf tb) → BufTy
  | .hbm, ⟨i, _⟩ => hbmTy i
  | _, _ => ⟨S32768x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call0_cst : Ref sig .tc := ⟨.hbm, 64, rfl⟩
abbrev main_call0_v0 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call1_cst : Ref sig .tc := ⟨.hbm, 72, rfl⟩
abbrev main_call1_v0 : Ref sig .tc := ⟨.hbm, 73, rfl⟩
abbrev main_v43 : Ref sig .tc := ⟨.hbm, 74, rfl⟩
abbrev main_cst_8 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_call2_cst : Ref sig .tc := ⟨.hbm, 90, rfl⟩
abbrev main_call2_v0 : Ref sig .tc := ⟨.hbm, 91, rfl⟩
abbrev main_v56 : Ref sig .tc := ⟨.hbm, 92, rfl⟩
abbrev main_cst_11 : Ref sig .tc := ⟨.hbm, 93, rfl⟩
abbrev main_v57 : Ref sig .tc := ⟨.hbm, 94, rfl⟩
abbrev main_v58 : Ref sig .tc := ⟨.hbm, 95, rfl⟩
abbrev main_call3_cst : Ref sig .tc := ⟨.hbm, 96, rfl⟩
abbrev main_call3_v0 : Ref sig .tc := ⟨.hbm, 97, rfl⟩
abbrev main_v59 : Ref sig .tc := ⟨.hbm, 98, rfl⟩
abbrev main_cst_12 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_13 : Ref sig .tc := ⟨.hbm, 111, rfl⟩
abbrev main_v71 : Ref sig .tc := ⟨.hbm, 112, rfl⟩
abbrev main_v72 : Ref sig .tc := ⟨.hbm, 113, rfl⟩
abbrev main_call4_cst : Ref sig .tc := ⟨.hbm, 114, rfl⟩
abbrev main_call4_v0 : Ref sig .tc := ⟨.hbm, 115, rfl⟩
abbrev main_v73 : Ref sig .tc := ⟨.hbm, 116, rfl⟩
abbrev main_cst_14 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_15 : Ref sig .tc := ⟨.hbm, 124, rfl⟩
abbrev main_v80 : Ref sig .tc := ⟨.hbm, 125, rfl⟩
abbrev main_cst_16 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_17 : Ref sig .tc := ⟨.hbm, 134, rfl⟩
abbrev main_v88 : Ref sig .tc := ⟨.hbm, 135, rfl⟩
abbrev main_cst_18 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_19 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_20 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_21 : Ref sig .tc := ⟨.hbm, 152, rfl⟩
abbrev main_v102 : Ref sig .tc := ⟨.hbm, 153, rfl⟩
abbrev main_v103 : Ref sig .tc := ⟨.hbm, 154, rfl⟩
abbrev main_cst_22 : Ref sig .tc := ⟨.hbm, 155, rfl⟩
abbrev main_v104 : Ref sig .tc := ⟨.hbm, 156, rfl⟩
abbrev main_v105 : Ref sig .tc := ⟨.hbm, 157, rfl⟩
abbrev main_cst_23 : Ref sig .tc := ⟨.hbm, 158, rfl⟩
abbrev main_v106 : Ref sig .tc := ⟨.hbm, 159, rfl⟩
abbrev main_v107 : Ref sig .tc := ⟨.hbm, 160, rfl⟩
abbrev main_cst_24 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_25 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_26 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_call5_cst : Ref sig .tc := ⟨.hbm, 178, rfl⟩
abbrev main_call5_v0 : Ref sig .tc := ⟨.hbm, 179, rfl⟩
abbrev main_v122 : Ref sig .tc := ⟨.hbm, 180, rfl⟩
abbrev main_cst_27 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_call6_cst : Ref sig .tc := ⟨.hbm, 185, rfl⟩
abbrev main_call6_v0 : Ref sig .tc := ⟨.hbm, 186, rfl⟩
abbrev main_v126 : Ref sig .tc := ⟨.hbm, 187, rfl⟩
abbrev main_cst_28 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_call7_cst : Ref sig .tc := ⟨.hbm, 192, rfl⟩
abbrev main_call7_v0 : Ref sig .tc := ⟨.hbm, 193, rfl⟩
abbrev main_v130 : Ref sig .tc := ⟨.hbm, 194, rfl⟩
abbrev main_cst_29 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_call8_cst : Ref sig .tc := ⟨.hbm, 199, rfl⟩
abbrev main_call8_v0 : Ref sig .tc := ⟨.hbm, 200, rfl⟩
abbrev main_v134 : Ref sig .tc := ⟨.hbm, 201, rfl⟩
abbrev main_cst_30 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_call9_cst : Ref sig .tc := ⟨.hbm, 206, rfl⟩
abbrev main_call9_v0 : Ref sig .tc := ⟨.hbm, 207, rfl⟩
abbrev main_v138 : Ref sig .tc := ⟨.hbm, 208, rfl⟩
abbrev main_cst_31 : Ref sig .tc := ⟨.hbm, 209, rfl⟩
abbrev main_v139 : Ref sig .tc := ⟨.hbm, 210, rfl⟩
abbrev main_v140 : Ref sig .tc := ⟨.hbm, 211, rfl⟩

abbrev nD : Nat := 1
abbrev τ : Topo := Topo.v7x

variable {F : FTy → Type} [FloatOps F]

class Facts₀ : Prop where
  slices_S32768x600_S32768x300_0_0 : S32768x600.Slices ![0, 0] S32768x300
  slices_S32768x600_S32768x300_0_300 : S32768x600.Slices ![0, 300] S32768x300
  transposes_S600x600_S600x600_1_0 : S600x600.Transposes [1, 0] S600x600
  slices_S32768x600_S32768x299_0_0 : S32768x600.Slices ![0, 0] S32768x299
  reducesTo_S32768x299_S_d0_1 : S32768x299.ReducesTo [0, 1] S_
  h_S_ : 0 < S_.numel
  slices_S32768x600_S32768x299_0_300 : S32768x600.Slices ![0, 300] S32768x299
  reducesTo_S32768x299_S32768_d1 : S32768x299.ReducesTo [1] S32768
  slices_S32768x600_S32768x1_0_300 : S32768x600.Slices ![0, 300] S32768x1
  shapeCasts_S32768x1_S32768 : S32768x1.ShapeCasts S32768
  reducesTo_S32768_S_d0 : S32768.ReducesTo [0] S_
  bcast_S_S32768 : S_.BroadcastsInDim S32768 (![] : Fin 0 → Fin S32768.rank)
  bcast_S1x138_S32768x138_0_1 : S1x138.BroadcastsInDim S32768x138 (![0, 1] : Fin 2 → Fin S32768x138.rank)
  bcast_S_S32768x138 : S_.BroadcastsInDim S32768x138 (![] : Fin 0 → Fin S32768x138.rank)
  reducesTo_S32768x138_S32768_d1 : S32768x138.ReducesTo [1] S32768
  bcast_S_S32768x300 : S_.BroadcastsInDim S32768x300 (![] : Fin 0 → Fin S32768x300.rank)
  reducesTo_S32768x300_S32768_d1 : S32768x300.ReducesTo [1] S32768
  transposes_S822x600_S600x822_1_0 : S822x600.Transposes [1, 0] S600x822
  transposes_S822x822_S822x822_1_0 : S822x822.Transposes [1, 0] S822x822
  slices_S32768x822_S32768x411_0_0 : S32768x822.Slices ![0, 0] S32768x411
  slices_S32768x822_S32768x411_0_411 : S32768x822.Slices ![0, 411] S32768x411
  bcast_S_S32768x411 : S_.BroadcastsInDim S32768x411 (![] : Fin 0 → Fin S32768x411.rank)
  reducesTo_S32768x411_S32768_d1 : S32768x411.ReducesTo [1] S32768
  bcast_S_S1x69 : S_.BroadcastsInDim S1x69 (![] : Fin 0 → Fin S1x69.rank)
  concatenates_S1x69_S1x69_S1x138_d1 : Shape.Concatenates [S1x69, S1x69] S1x138 1
  bcast_S_S32768x600 : S_.BroadcastsInDim S32768x600 (![] : Fin 0 → Fin S32768x600.rank)
  transposes_S138x600_S600x138_1_0 : S138x600.Transposes [1, 0] S600x138
  dot_S32768x600_S600x600_S32768x600_1_0_0_1_n_n_wf : DotDims.WF S32768x600 S600x600 S32768x600 [1] [0] [0] [1] [] []
  dot_S32768x138_S138x600_S32768x600_1_0_0_1_n_n_wf : DotDims.WF S32768x138 S138x600 S32768x600 [1] [0] [0] [1] [] []
  dot_S32768x600_S600x822_S32768x822_1_0_0_1_n_n_wf : DotDims.WF S32768x600 S600x822 S32768x822 [1] [0] [0] [1] [] []
  dot_S32768x822_S822x822_S32768x822_1_0_0_1_n_n_wf : DotDims.WF S32768x822 S822x822 S32768x822 [1] [0] [0] [1] [] []
  dot_S32768x600_S600x138_S32768x138_1_0_0_1_n_n_wf : DotDims.WF S32768x600 S600x138 S32768x138 [1] [0] [0] [1] [] []

variable [Facts₀]

def dot_S32768x600_S600x600_S32768x600_1_0_0_1_n_n : DotDims S32768x600 S600x600 S32768x600 where
  lhsContracting := [1]
  rhsContracting := [0]
  lhsNonContracting := [0]
  rhsNonContracting := [1]
  lhsBatch := []
  rhsBatch := []
  wf := dot_S32768x600_S600x600_S32768x600_1_0_0_1_n_n_wf
def dot_S32768x138_S138x600_S32768x600_1_0_0_1_n_n : DotDims S32768x138 S138x600 S32768x600 where
  lhsContracting := [1]
  rhsContracting := [0]
  lhsNonContracting := [0]
  rhsNonContracting := [1]
  lhsBatch := []
  rhsBatch := []
  wf := dot_S32768x138_S138x600_S32768x600_1_0_0_1_n_n_wf
def dot_S32768x600_S600x822_S32768x822_1_0_0_1_n_n : DotDims S32768x600 S600x822 S32768x822 where
  lhsContracting := [1]
  rhsContracting := [0]
  lhsNonContracting := [0]
  rhsNonContracting := [1]
  lhsBatch := []
  rhsBatch := []
  wf := dot_S32768x600_S600x822_S32768x822_1_0_0_1_n_n_wf
def dot_S32768x822_S822x822_S32768x822_1_0_0_1_n_n : DotDims S32768x822 S822x822 S32768x822 where
  lhsContracting := [1]
  rhsContracting := [0]
  lhsNonContracting := [0]
  rhsNonContracting := [1]
  lhsBatch := []
  rhsBatch := []
  wf := dot_S32768x822_S822x822_S32768x822_1_0_0_1_n_n_wf
def dot_S32768x600_S600x138_S32768x138_1_0_0_1_n_n : DotDims S32768x600 S600x138 S32768x138 where
  lhsContracting := [1]
  rhsContracting := [0]
  lhsNonContracting := [0]
  rhsNonContracting := [1]
  lhsBatch := []
  rhsBatch := []
  wf := dot_S32768x600_S600x138_S32768x138_1_0_0_1_n_n_wf

class Facts : Prop extends Facts₀ where

variable [Facts]
-- ==== Proof.FrameGlobRunB.lean ====
/-
  The global-scalar kernel (the first launch) as one segment of the program's run, at any float instance.
  Its 16 grid points each read a block of 2048 rows of the voltage array and the whole of two matrices and two
  0/1 rows, and add the block's partial sum into a one-element scratch cell that is carried from point to point:
  the cell is zeroed at the first point (the one control case that differs), and after every point its value is
  also copied into the one-element output block, which is written back only after the last point.  What the cell
  and the output block hold after each point is therefore a recursion over the points (`outsAt0`), each step the
  body's own stores read back.
-/
import proofs.«141359_j50938312131078_1_alg».proof.Proof.Gen.Kernel.Launch
import proofs.«141359_j50938312131078_1_alg».proof.Proof.Gen.Kernel.Skeleton
import proofs.«141359_j50938312131078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: "is this the first grid point?" -/

/-- The branch condition as the body computes it from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is idle at any point: the inputs are read and the output is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The buffers the body is called with -/

abbrev VO0_5 : View sig .tc .vmem S1x1 .f32 := (Memref.whole cc0_stg5_0 : Memref sig .tc .vmem S1x1 .f32).view
abbrev ms0_0 (t : Fin cfg0.N) : Memref sig .tc .vmem S2048x600 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S600x600 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S600x600 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x600 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x600 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The scratch cell: a whole one-element buffer of the kernel's own, passed beside the windows. -/
abbrev scM0_0 : Memref sig .tc .vmem S1x1 .f32 := Memref.whole cc0_scratch0
abbrev VS0_0 : View sig .tc .vmem S1x1 .f32 := scM0_0.view

/-- What the launch lends the body besides the windows: the scratch cell at some contents, the other buffers of
    the core untouched, the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's run, per control case: the stores each buffer ends with are found by the run itself -/

set_option maxHeartbeats 4000000 in
/-- FIRST POINT (the branch taken: the cell is zeroed first). Inputs at their contents, the output block and the
    cell at anything; the body runs to the continuation holding the inputs as they were and the output block and
    the cell with their stores written. -/
noncomputable def kernelRun0_A (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S2048x600 .f32) (x1 : Vec F S600x600 .bf16) (x2 : Vec F S600x600 .bf16) (x3 : Vec F S1x600 .f32) (x4 : Vec F S1x600 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg1 harg1 arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- EVERY LATER POINT (the branch not taken): the cell comes in at what the point before left, `xs0`. -/
noncomputable def kernelRun0_B (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S2048x600 .f32) (x1 : Vec F S600x600 .bf16) (x2 : Vec F S600x600 .bf16) (x3 : Vec F S1x600 .f32) (x4 : Vec F S1x600 .f32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg1 harg1 arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Region0

end Cert.Kernel.Hand

end
-- ==== Proof.FrameGlobB.lean ====
/-
  The global-scalar kernel, continued: what its scratch cell and its output block hold after each grid point (a
  recursion over the points whose step is the body's stores read back), the launch's proof data over that
  recursion, and the body's obligation at every point.
-/
import proofs.«141359_j50938312131078_1_alg».proof.Proof.FrameGlobRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The stores cover the one-element buffers, so reading them back forgets what was there before -/

theorem cover0_A_5 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) (y : S1x1.Idx) : ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S1x1.size (by sl_kernel_rfl) y
theorem scover0_A_0 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) (y : S1x1.Idx) : ∃ pc ∈ (kernelRun0_A c i arg1 harg1 arg2 harg2 arg3 harg3 arg4 harg4 arg5 harg5 arg6 harg6 arg7 harg7 hc0 x0 x1 x2 x3 x4).2.1, y ∈ pc.1.set :=
  View.cover_of_tiledL (kernelRun0_A c i arg1 harg1 arg2 harg2 arg3 harg3 arg4 harg4 arg5 harg5 arg6 harg6 arg7 harg7 hc0 x0 x1 x2 x3 x4).2.1 S1x1.size (by sl_kernel_rfl) y
theorem cover0_B_5 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) (y : S1x1.Idx) : ∃ pc ∈ (kernelRun0_B c i arg1 harg1 arg2 harg2 arg3 harg3 arg4 harg4 arg5 harg5 arg6 harg6 arg7 harg7 hc0 x0 x1 x2 x3 x4 xs0).1, y ∈ pc.1.set :=
  View.cover_of_tiledL (kernelRun0_B c i arg1 harg1 arg2 harg2 arg3 harg3 arg4 harg4 arg5 harg5 arg6 harg6 arg7 harg7 hc0 x0 x1 x2 x3 x4 xs0).1 S1x1.size (by sl_kernel_rfl) y
theorem scover0_B_0 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) (y : S1x1.Idx) : ∃ pc ∈ (kernelRun0_B c i arg1 harg1 arg2 harg2 arg3 harg3 arg4 harg4 arg5 harg5 arg6 harg6 arg7 harg7 hc0 x0 x1 x2 x3 x4 xs0).2.1, y ∈ pc.1.set :=
  View.cover_of_tiledL (kernelRun0_B c i arg1 harg1 arg2 harg2 arg3 harg3 arg4 harg4 arg5 harg5 arg6 harg6 arg7 harg7 hc0 x0 x1 x2 x3 x4 xs0).2.1 S1x1.size (by sl_kernel_rfl) y

/-- What the first point leaves in the output block, and in the scratch cell. -/
def out0_A_5 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)
def sout0_A_0 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) : Vec F S1x1 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3 x4).2.1)
/-- What a later point leaves in the output block, and in the scratch cell, from what the cell held. -/
def out0_B_5 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4 xs0).1)
def sout0_B_0 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 arg6 harg6 arg7 harg7 hc0 x0 x1 x2 x3 x4 xs0).2.1)

/-! ## The accumulation, point by point -/

/-- After the body at position `n`: (the output block, the scratch cell). The first point starts the cell afresh;
    every later point continues from the cell as the point before left it. -/
def outsAt0 (c : Dev nD) : (n : ℕ) → n < cfg0.N → Vec F S1x1 .f32 × Vec F S1x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
                  sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem outsAt0_B (c : Dev nD) (t : Fin cfg0.N) (h0 : ¬ t.val = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd rfl h0
  | succ n => exact rfl

/-- What the body may use besides the windows, before position `n`: before the first point what the launch lends;
    afterwards the scratch cell at what the point before left in it, the rest as lent. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The launch's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem leaves0_0 (c : Dev nD) (t : Fin cfg0.N) : (dat0 V c).leavesExact 0 t = owns (c : Thread nD τ) (ms0_0 t) fullShare ((dat0 V c).after 0 t) := by
  unfold Dat.leavesExact; rw [liveAt0_0 t]
theorem leaves0_1 (c : Dev nD) (t : Fin cfg0.N) : (dat0 V c).leavesExact 1 t = owns (c : Thread nD τ) (ms0_1 t) fullShare ((dat0 V c).after 1 t) := by
  unfold Dat.leavesExact; rw [liveAt0_1 t]
theorem leaves0_2 (c : Dev nD) (t : Fin cfg0.N) : (dat0 V c).leavesExact 2 t = owns (c : Thread nD τ) (ms0_2 t) fullShare ((dat0 V c).after 2 t) := by
  unfold Dat.leavesExact; rw [liveAt0_2 t]
theorem leaves0_3 (c : Dev nD) (t : Fin cfg0.N) : (dat0 V c).leavesExact 3 t = owns (c : Thread nD τ) (ms0_3 t) fullShare ((dat0 V c).after 3 t) := by
  unfold Dat.leavesExact; rw [liveAt0_3 t]
theorem leaves0_4 (c : Dev nD) (t : Fin cfg0.N) : (dat0 V c).leavesExact 4 t = owns (c : Thread nD τ) (ms0_4 t) fullShare ((dat0 V c).after 4 t) := by
  unfold Dat.leavesExact; rw [liveAt0_4 t]
theorem leaves0_5 (c : Dev nD) (t : Fin cfg0.N) : (dat0 V c).leavesExact 5 t = owns (c : Thread nD τ) (ms0_5 t) fullShare ((dat0 V c).after 5 t) := by
  unfold Dat.leavesExact; rw [liveAt0_5 t]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; at the first point the cell comes in at anything
    and the first case's run applies, at a later point it comes in at what the point before left and the other
    case's run applies; either way the cell goes back at this point's contents (its stores cover it) and the
    output block at its. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5, after0_0, after0_1, after0_2, after0_3, after0_4, after0_5]
  by_cases h0 : t.val = 0
  · rw [outsAt0_A V c t h0]
    unfold out0_A_5 sout0_A_0; (try dsimp only)
    rw [PhiS_castSucc V c t, PhiS_zero V c _ _ h0, PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _)
  · rw [outsAt0_B V c t h0]
    unfold out0_B_5 sout0_B_0; (try dsimp only)
    rw [PhiS_castSucc V c t, PhiS_pos V c _ _ h0]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch lends is what the body may use before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first it is given back: the cell's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Region0

end Cert.Kernel.Hand

end
-- ==== Proof.FrameRowB.lean ====
/-
  The per-row kernel (the second launch) as one segment of the program's run, at any float instance.
  Each of the 128 grid points reads a block of 256 rows of the nine batch arrays and the whole of the eight
  parameter arrays, and stores one 256-by-1 column: the row sums of the constraint-violation terms.  The body has
  one control case, loads whole blocks and stores the output block whole, so what a point leaves in the output
  block is one pure function (`rowOut`) of the input blocks; the inputs' blocks are left as found.
-/
import proofs.«141359_j50938312131078_1_alg».proof.Proof.Gen.Kernel.Launch
import proofs.«141359_j50938312131078_1_alg».proof.Proof.Gen.Kernel.Skeleton
import proofs.«141359_j50938312131078_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current buffer holds its block at every point, fetched there or not. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current buffer holds its block at every point, fetched there or not. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's current buffer holds its block at every point, fetched there or not. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14's current buffer holds its block at every point, fetched there or not. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Input window 15's current buffer holds its block at every point, fetched there or not. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- Input window 16's current buffer holds its block at every point, fetched there or not. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body loads and stores through -/

abbrev rc_S256x600 : Rect S256x600 := Rect.unit (s := S256x600) ![0, 0] S256x600.size inb_S256x600_S256x600_0_0
abbrev rc_S256x138 : Rect S256x138 := Rect.unit (s := S256x138) ![0, 0] S256x138.size inb_S256x138_S256x138_0_0
abbrev rc_S256x300 : Rect S256x300 := Rect.unit (s := S256x300) ![0, 0] S256x300.size inb_S256x300_S256x300_0_0
abbrev rc_S256x411 : Rect S256x411 := Rect.unit (s := S256x411) ![0, 0] S256x411.size inb_S256x411_S256x411_0_0
abbrev rc_S600x600 : Rect S600x600 := Rect.unit (s := S600x600) ![0, 0] S600x600.size inb_S600x600_S600x600_0_0
abbrev rc_S138x600 : Rect S138x600 := Rect.unit (s := S138x600) ![0, 0] S138x600.size inb_S138x600_S138x600_0_0
abbrev rc_S822x600 : Rect S822x600 := Rect.unit (s := S822x600) ![0, 0] S822x600.size inb_S822x600_S822x600_0_0
abbrev rc_S822x822 : Rect S822x822 := Rect.unit (s := S822x822) ![0, 0] S822x822.size inb_S822x822_S822x822_0_0
abbrev rc_S1x138 : Rect S1x138 := Rect.unit (s := S1x138) ![0, 0] S1x138.size inb_S1x138_S1x138_0_0
abbrev rc_S1x600 : Rect S1x600 := Rect.unit (s := S1x600) ![0, 0] S1x600.size inb_S1x600_S1x600_0_0
abbrev rc_S256x1 : Rect S256x1 := Rect.unit (s := S256x1) ![0, 0] S256x1.size inb_S256x1_S256x1_0_0

/-- The value the body stores, from the blocks it loaded: the body's arithmetic as the skeleton names it, the
    named pieces nested as the body threads them. -/
def rowPay (x0 : Vec F S256x600 .f32) (x1 : Vec F S256x138 .f32) (x2 : Vec F S256x600 .f32) (x3 : Vec F S256x600 .f32) (x4 : Vec F S256x138 .f32) (x5 : Vec F S256x138 .f32) (x6 : Vec F S256x300 .f32) (x7 : Vec F S256x300 .f32) (x8 : Vec F S256x411 .f32) (x9 : Vec F S600x600 .bf16) (x10 : Vec F S138x600 .bf16) (x11 : Vec F S822x600 .bf16) (x12 : Vec F S822x822 .bf16) (x13 : Vec F S1x138 .f32) (x14 : Vec F S1x138 .f32) (x15 : Vec F S1x138 .f32) (x16 : Vec F S1x600 .f32) : FVec F S256x1 .f32 :=
  k1_pay1 (View.ld x8 rc_S256x411)
    (k1_pay15 (View.ld x4 rc_S256x138) (View.ld x5 rc_S256x138) (View.ld x6 rc_S256x300) (View.ld x7 rc_S256x300) (k1_pay2 (View.ld x15 rc_S1x138))
      (k1_pay12 (View.ld x4 rc_S256x138) (View.ld x5 rc_S256x138) (View.ld x6 rc_S256x300) (View.ld x7 rc_S256x300) (View.ld x8 rc_S256x411) (k1_pay3 (View.ld x1 rc_S256x138) (View.ld x13 rc_S1x138)) (k1_pay4 (View.ld x1 rc_S256x138) (View.ld x14 rc_S1x138))
        (k1_pay8 (k1_pay6 (View.ld x0 rc_S256x600)) (k1_pay7 (View.ld x0 rc_S256x600))) (k1_pay9 (k1_pay6 (View.ld x0 rc_S256x600)) (k1_pay7 (View.ld x0 rc_S256x600)))
        (k1_pay10 (View.ld x1 rc_S256x138) (View.ld x2 rc_S256x600) (View.ld x16 rc_S1x600) (k1_pay5 (View.ld x1 rc_S256x138) (View.ld x13 rc_S1x138) (View.ld x14 rc_S1x138)) (k1_pay6 (View.ld x0 rc_S256x600)) (k1_pay7 (View.ld x0 rc_S256x600)) (View.ld x9 rc_S600x600) (View.ld x10 rc_S138x600))
        (k1_pay11 (View.ld x0 rc_S256x600) (View.ld x11 rc_S822x600)) (View.ld x12 rc_S822x822))
      (k1_pay13 (View.ld x3 rc_S256x600)) (k1_pay14 (View.ld x10 rc_S138x600)))

/-- What a point leaves in the output block: its one whole-block store. -/
def rowOut (x0 : Vec F S256x600 .f32) (x1 : Vec F S256x138 .f32) (x2 : Vec F S256x600 .f32) (x3 : Vec F S256x600 .f32) (x4 : Vec F S256x138 .f32) (x5 : Vec F S256x138 .f32) (x6 : Vec F S256x300 .f32) (x7 : Vec F S256x300 .f32) (x8 : Vec F S256x411 .f32) (x9 : Vec F S600x600 .bf16) (x10 : Vec F S138x600 .bf16) (x11 : Vec F S822x600 .bf16) (x12 : Vec F S822x822 .bf16) (x13 : Vec F S1x138 .f32) (x14 : Vec F S1x138 .f32) (x15 : Vec F S1x138 .f32) (x16 : Vec F S1x600 .f32) : Vec F S256x1 .f32 :=
  View.canon [⟨rc_S256x1, rowPay x0 x1 x2 x3 x4 x5 x6 x7 x8 x9 x10 x11 x12 x13 x14 x15 x16⟩]

/-- The one store tiles the block, so it covers it. -/
theorem cover1_17 (p0 : Vec F S256x1 .f32) (y : S256x1.Idx) :
    ∃ pc ∈ ([⟨rc_S256x1, p0⟩] : List (View.Piece (Elt F) S256x1 .f32)), y ∈ pc.1.set :=
  View.cover_of_tiled [⟨rc_S256x1, p0⟩] S256x1.size (by rfl) y

set_option maxHeartbeats 8000000 in
/-- The body on whole buffers: the inputs' at contents `xW`, the output's at anything; it runs to the continuation
    holding the inputs' as they were and the output's at `rowOut` of them. -/
theorem sound_kernel1 (c : Dev nD) (E : Set ℕ) (i : grid1.Coords) (arg1 : Memref sig .tc .vmem S256x600 .f32) (harg1 : arg1.IsWhole) (arg2 : Memref sig .tc .vmem S256x138 .f32) (harg2 : arg2.IsWhole) (arg3 : Memref sig .tc .vmem S256x600 .f32) (harg3 : arg3.IsWhole) (arg4 : Memref sig .tc .vmem S256x600 .f32) (harg4 : arg4.IsWhole) (arg5 : Memref sig .tc .vmem S256x138 .f32) (harg5 : arg5.IsWhole) (arg6 : Memref sig .tc .vmem S256x138 .f32) (harg6 : arg6.IsWhole) (arg7 : Memref sig .tc .vmem S256x300 .f32) (harg7 : arg7.IsWhole) (arg8 : Memref sig .tc .vmem S256x300 .f32) (harg8 : arg8.IsWhole) (arg9 : Memref sig .tc .vmem S256x411 .f32) (harg9 : arg9.IsWhole) (arg10 : Memref sig .tc .vmem S600x600 .bf16) (harg10 : arg10.IsWhole) (arg11 : Memref sig .tc .vmem S138x600 .bf16) (harg11 : arg11.IsWhole) (arg12 : Memref sig .tc .vmem S822x600 .bf16) (harg12 : arg12.IsWhole) (arg13 : Memref sig .tc .vmem S822x822 .bf16) (harg13 : arg13.IsWhole) (arg14 : Memref sig .tc .vmem S1x138 .f32) (harg14 : arg14.IsWhole) (arg15 : Memref sig .tc .vmem S1x138 .f32) (harg15 : arg15.IsWhole) (arg16 : Memref sig .tc .vmem S1x138 .f32) (harg16 : arg16.IsWhole) (arg17 : Memref sig .tc .vmem S1x600 .f32) (harg17 : arg17.IsWhole) (arg18 : Memref sig .tc .vmem S256x1 .f32) (harg18 : arg18.IsWhole)
    (x0 : Vec F S256x600 .f32) (x1 : Vec F S256x138 .f32) (x2 : Vec F S256x600 .f32) (x3 : Vec F S256x600 .f32) (x4 : Vec F S256x138 .f32) (x5 : Vec F S256x138 .f32) (x6 : Vec F S256x300 .f32) (x7 : Vec F S256x300 .f32) (x8 : Vec F S256x411 .f32) (x9 : Vec F S600x600 .bf16) (x10 : Vec F S138x600 .bf16) (x11 : Vec F S822x600 .bf16) (x12 : Vec F S822x822 .bf16) (x13 : Vec F S1x138 .f32) (x14 : Vec F S1x138 .f32) (x15 : Vec F S1x138 .f32) (x16 : Vec F S1x600 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (rowOut x0 x1 x2 x3 x4 x5 x6 x7 x8 x9 x10 x11 x12 x13 x14 x15 x16)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover1_17 _)

/-! ## The launch's proof data -/

/-- The arrays as the launch finds them; after the body at point `t` each input's buffer at its block and the
    output's at `rowOut` of the input blocks; nothing carried between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => rowOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨_ + 18, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = rowOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ (grid1.coords t) _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.FrameRunB.lean ====
/-
  The program's run from the launch to the return, at any float instance: the host operations before the two
  kernel launches, the global-scalar launch, the per-row launch, the host operations after them.  The contents of
  every buffer of the core are followed through the four stretches as a fold from the launch memory (`W0` … `W4`):
  a stretch of host operations applies them; a launch leaves each of its arrays at what its write-backs leave and
  every other buffer as it found it.  The run ends with every buffer at the last fold's contents, from which both
  the frame (no argument array changes) and the result's value are read.
-/
import proofs.«141359_j50938312131078_1_alg».proof.Proof.FrameGlobB
import proofs.«141359_j50938312131078_1_alg».proof.Proof.FrameRowB
import proofs.«141359_j50938312131078_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the launches. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After the global-scalar launch: its arrays at what its write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)
/-- After the per-row launch. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)
/-- After the host operations that follow the launches. -/
abbrev W4 : Dev nD → Valuation τ sig (Elt F) := fun c => StableHlo.after hostOps2 (W3 m ρ c)

/-! ## No stretch writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := (W3_arr m ρ c 0).trans (((dat1 (E2 m ρ) c).arrAt_in 0 rfl _).trans (A_eq1 (E2 m ρ) c 0))
    _ = W1 m ρ c (Proc.devRef .tc main_arg0) := (W2_arr m ρ c 0).trans (((dat0 (E1 m ρ) c).arrAt_in 0 rfl _).trans (A_eq0 (E1 m ρ) c 0))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := (W3_arr m ρ c 1).trans (((dat1 (E2 m ρ) c).arrAt_in 1 rfl _).trans (A_eq1 (E2 m ρ) c 1))
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := (W3_arr m ρ c 2).trans (((dat1 (E2 m ρ) c).arrAt_in 2 rfl _).trans (A_eq1 (E2 m ρ) c 2))
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := (W3_arr m ρ c 3).trans (((dat1 (E2 m ρ) c).arrAt_in 3 rfl _).trans (A_eq1 (E2 m ρ) c 3))
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (r := main_arg4) (by decide)
    _ = W2 m ρ c (Proc.devRef .tc main_arg4) := (W3_arr m ρ c 4).trans (((dat1 (E2 m ρ) c).arrAt_in 4 rfl _).trans (A_eq1 (E2 m ρ) c 4))
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (r := main_arg5) (by decide)
    _ = W2 m ρ c (Proc.devRef .tc main_arg5) := (W3_arr m ρ c 5).trans (((dat1 (E2 m ρ) c).arrAt_in 5 rfl _).trans (A_eq1 (E2 m ρ) c 5))
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (r := main_arg6) (by decide)
    _ = W2 m ρ c (Proc.devRef .tc main_arg6) := (W3_arr m ρ c 6).trans (((dat1 (E2 m ρ) c).arrAt_in 6 rfl _).trans (A_eq1 (E2 m ρ) c 6))
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (r := main_arg7) (by decide)
    _ = W2 m ρ c (Proc.devRef .tc main_arg7) := (W3_arr m ρ c 7).trans (((dat1 (E2 m ρ) c).arrAt_in 7 rfl _).trans (A_eq1 (E2 m ρ) c 7))
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (r := main_arg8) (by decide)
    _ = W2 m ρ c (Proc.devRef .tc main_arg8) := (W3_arr m ρ c 8).trans (((dat1 (E2 m ρ) c).arrAt_in 8 rfl _).trans (A_eq1 (E2 m ρ) c 8))
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_writes_sub hostOps2 _ hostOps2_writes (r := main_arg9) (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_writes_sub hostOps2 _ hostOps2_writes (r := main_arg10) (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (r := main_arg10) (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_writes_sub hostOps2 _ hostOps2_writes (r := main_arg11) (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (r := main_arg11) (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_writes_sub hostOps2 _ hostOps2_writes (r := main_arg12) (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (r := main_arg12) (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := StableHlo.after_of_writes_sub hostOps2 _ hostOps2_writes (r := main_arg13) (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub hostOps0 _ hostOps0_writes (r := main_arg13) (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := StableHlo.after_of_writes_sub hostOps2 _ hostOps2_writes (r := main_arg14) (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_writes_sub hostOps0 _ hostOps0_writes (r := main_arg14) (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := StableHlo.after_of_writes_sub hostOps2 _ hostOps2_writes (r := main_arg15) (by decide)
    _ = W2 m ρ c (Proc.devRef .tc main_arg15) := (W3_arr m ρ c 13).trans (((dat1 (E2 m ρ) c).arrAt_in 13 rfl _).trans (A_eq1 (E2 m ρ) c 13))
    _ = W1 m ρ c (Proc.devRef .tc main_arg15) := W2_of_ne m ρ c main_arg15 (by decide)
    _ = W0 m ρ c (Proc.devRef .tc main_arg15) := StableHlo.after_of_writes_sub hostOps0 _ hostOps0_writes (r := main_arg15) (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := StableHlo.after_of_writes_sub hostOps2 _ hostOps2_writes (r := main_arg16) (by decide)
    _ = W2 m ρ c (Proc.devRef .tc main_arg16) := (W3_arr m ρ c 14).trans (((dat1 (E2 m ρ) c).arrAt_in 14 rfl _).trans (A_eq1 (E2 m ρ) c 14))
    _ = W1 m ρ c (Proc.devRef .tc main_arg16) := W2_of_ne m ρ c main_arg16 (by decide)
    _ = W0 m ρ c (Proc.devRef .tc main_arg16) := StableHlo.after_of_writes_sub hostOps0 _ hostOps0_writes (r := main_arg16) (by decide)
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := StableHlo.after_of_writes_sub hostOps2 _ hostOps2_writes (r := main_arg17) (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub hostOps0 _ hostOps0_writes (r := main_arg17) (by decide)
    _ = m ((c : Thread nD τ).loc main_arg17) := rfl

/-! ## The proof data family and the thread state -/

abbrev hadm : (p : Fin 2) → (pcfgs (F := F) p).Adm := fun p => (cfgs p).toPCfg_adm
def hdats : (p : Fin 2) → (c : Dev nD) → Dat τ (Elt F) Unit ℕ (UR sig nD τ) ℕ (Pipeline.pin (pcfgs (F := F)) hadm p) c
  | ⟨0, _⟩ => fun c => dat0 (E1 m ρ) c
  | ⟨1, _⟩ => fun c => dat1 (E2 m ρ) c
abbrev h𝒱₀ : Variants := Variants.none
abbrev hL : GSem nD τ sig → Finset Unit := fun _ => ∅
abbrev hlv : GSem nD τ sig → Unit → ℕ := fun _ _ => 0
/-- What rides beside the buffers through every stretch: the generator register at some state, nothing owed. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱₀ hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The global-scalar launch: entered from every buffer at `W1`, left at `W2`. -/
def reg0 : Pipeline.RegionSeg (pcfgs (F := F)) hadm (hdats m ρ) () defs₀ h𝒱₀ hL hlv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ hL hlv 0 fun _ _ => rfl
  pre c := iprop(StableHlo.held (c : Thread nD τ) (Pipeline.ucRefs τ sig) (W1 m ρ c) ∗ hR c)
  post c := iprop(StableHlo.held (c : Thread nD τ) (Pipeline.ucRefs τ sig) (W2 m ρ c) ∗ hR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) hadm (hdats m ρ) launch0.win launch0.arr_whole c
      ((hdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 0 c).Φ 0 = Pipeline.ΦA spec0 c from rfl]; unfold Pipeline.ΦA
    iintro ⟨Hp, -, Hr⟩
    isplitl [Hr]; · iexact Hr
    iexact Hp
  hout c := by
    refine (hout0 (E1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hdats m ρ) ((hdats m ρ 0 c).share_full fun _ => rfl)
      (E1 m ρ c) (E2 m ρ c) ((hdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The per-row launch: entered from every buffer at `W2`, left at `W3`. -/
def reg1 : Pipeline.RegionSeg (pcfgs (F := F)) hadm (hdats m ρ) () defs₀ h𝒱₀ hL hlv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ hL hlv 1 fun _ _ => rfl
  pre c := iprop(StableHlo.held (c : Thread nD τ) (Pipeline.ucRefs τ sig) (W2 m ρ c) ∗ hR c)
  post c := iprop(StableHlo.held (c : Thread nD τ) (Pipeline.ucRefs τ sig) (W3 m ρ c) ∗ hR c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) hadm (hdats m ρ) launch1.win launch1.arr_whole c
      ((hdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hdats m ρ) ((hdats m ρ 1 c).share_full fun _ => rfl)
      (E2 m ρ c) (E3 m ρ c) ((hdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev hsegs : List (Pipeline.Seg (pcfgs (F := F)) hadm (hdats m ρ) () defs₀ h𝒱₀ hL hlv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (hsegs m ρ) := (main_chain c).trans (by chain_rfl)

set_option backward.isDefEq.respectTransparency.types false in
/-- THE RUN. From any memory with zero counters every weakly fair execution of the program terminates, nothing
    faulting, and in every final state every buffer of the core that outlives the launches holds the last fold's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) hadm (hdats m ρ) () cellOf_inj emb₁ defs₀ h𝒱₀ hL hlv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTₙ m ρ)
    (hch := ⟨fun _ => .rfl, fun _ => .rfl, fun _ => .rfl, fun _ => .rfl, fun c => by
      show iprop(StableHlo.held (c : Thread nD τ) (Pipeline.ucRefs τ sig) (W4 m ρ c) ∗ hR c) ⊢ _
      iintro ⟨Hh, Hp, Ho⟩
      isplitl [Hh Hp]
      · isplitl [Hh]; · iexact Hh
        iexact Hp
      iexact Ho⟩)
    (hinit := by
      refine Pipeline.initEach hL hlv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c)⟩) (run_all m ρ)

end Cert.Kernel.Hand

end
-- ==== Proof.FrameGlobRun.lean ====
/-
  The global-scalar kernel (the first launch) as one segment of the program's run, at any float instance.
  Its 16 grid points each read a block of 2048 rows of the voltage array and the whole of two matrices and two
  0/1 rows, and add the block's partial sum into a one-element scratch cell that is carried from point to point:
  the cell is zeroed at the first point (the one control case that differs), and after every point its value is
  also copied into the one-element output block, which is written back only after the last point.  What the cell
  and the output block hold after each point is therefore a recursion over the points (`outsAt0`), each step the
  body's own stores read back.
-/
import proofs.«141359_j50938312131078_1_alg».proof.Proof.Gen.KernelIdeal.Launch
import proofs.«141359_j50938312131078_1_alg».proof.Proof.Gen.KernelIdeal.Skeleton
import proofs.«141359_j50938312131078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's one branch: "is this the first grid point?" -/

/-- The branch condition as the body computes it from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is idle at any point: the inputs are read and the output is stored at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The buffers the body is called with -/

abbrev VO0_5 : View sig .tc .vmem S1x1 .f32 := (Memref.whole cc0_stg5_0 : Memref sig .tc .vmem S1x1 .f32).view
abbrev ms0_0 (t : Fin cfg0.N) : Memref sig .tc .vmem S2048x600 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S600x600 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S600x600 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x600 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x600 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- The scratch cell: a whole one-element buffer of the kernel's own, passed beside the windows. -/
abbrev scM0_0 : Memref sig .tc .vmem S1x1 .f32 := Memref.whole cc0_scratch0
abbrev VS0_0 : View sig .tc .vmem S1x1 .f32 := scM0_0.view

/-- What the launch lends the body besides the windows: the scratch cell at some contents, the other buffers of
    the core untouched, the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The body's run, per control case: the stores each buffer ends with are found by the run itself -/

set_option maxHeartbeats 4000000 in
/-- FIRST POINT (the branch taken: the cell is zeroed first). Inputs at their contents, the output block and the
    cell at anything; the body runs to the continuation holding the inputs as they were and the output block and
    the cell with their stores written. -/
noncomputable def kernelRun0_A (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S2048x600 .f32) (x1 : Vec F S600x600 .bf16) (x2 : Vec F S600x600 .bf16) (x3 : Vec F S1x600 .f32) (x4 : Vec F S1x600 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg1 harg1 arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- EVERY LATER POINT (the branch not taken): the cell comes in at what the point before left, `xs0`. -/
noncomputable def kernelRun0_B (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S2048x600 .f32) (x1 : Vec F S600x600 .bf16) (x2 : Vec F S600x600 .bf16) (x3 : Vec F S1x600 .f32) (x4 : Vec F S1x600 .f32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_kernel i arg1 harg1 arg2 harg2 arg3 harg3 arg4 harg4 arg5 harg5 arg6 harg6 arg7 harg7) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Region0

end Cert.KernelIdeal.Hand

end
-- ==== Proof.FrameGlob.lean ====
/-
  The global-scalar kernel, continued: what its scratch cell and its output block hold after each grid point (a
  recursion over the points whose step is the body's stores read back), the launch's proof data over that
  recursion, and the body's obligation at every point.
-/
import proofs.«141359_j50938312131078_1_alg».proof.Proof.FrameGlobRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The stores cover the one-element buffers, so reading them back forgets what was there before -/

theorem cover0_A_5 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) (y : S1x1.Idx) : ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S1x1.size (by sl_kernel_rfl) y
theorem scover0_A_0 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) (y : S1x1.Idx) : ∃ pc ∈ (kernelRun0_A c i arg1 harg1 arg2 harg2 arg3 harg3 arg4 harg4 arg5 harg5 arg6 harg6 arg7 harg7 hc0 x0 x1 x2 x3 x4).2.1, y ∈ pc.1.set :=
  View.cover_of_tiledL (kernelRun0_A c i arg1 harg1 arg2 harg2 arg3 harg3 arg4 harg4 arg5 harg5 arg6 harg6 arg7 harg7 hc0 x0 x1 x2 x3 x4).2.1 S1x1.size (by sl_kernel_rfl) y
theorem cover0_B_5 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) (y : S1x1.Idx) : ∃ pc ∈ (kernelRun0_B c i arg1 harg1 arg2 harg2 arg3 harg3 arg4 harg4 arg5 harg5 arg6 harg6 arg7 harg7 hc0 x0 x1 x2 x3 x4 xs0).1, y ∈ pc.1.set :=
  View.cover_of_tiledL (kernelRun0_B c i arg1 harg1 arg2 harg2 arg3 harg3 arg4 harg4 arg5 harg5 arg6 harg6 arg7 harg7 hc0 x0 x1 x2 x3 x4 xs0).1 S1x1.size (by sl_kernel_rfl) y
theorem scover0_B_0 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) (y : S1x1.Idx) : ∃ pc ∈ (kernelRun0_B c i arg1 harg1 arg2 harg2 arg3 harg3 arg4 harg4 arg5 harg5 arg6 harg6 arg7 harg7 hc0 x0 x1 x2 x3 x4 xs0).2.1, y ∈ pc.1.set :=
  View.cover_of_tiledL (kernelRun0_B c i arg1 harg1 arg2 harg2 arg3 harg3 arg4 harg4 arg5 harg5 arg6 harg6 arg7 harg7 hc0 x0 x1 x2 x3 x4 xs0).2.1 S1x1.size (by sl_kernel_rfl) y

/-- What the first point leaves in the output block, and in the scratch cell. -/
def out0_A_5 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) : Vec F S1x1 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)
def sout0_A_0 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) : Vec F S1x1 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3 x4).2.1)
/-- What a later point leaves in the output block, and in the scratch cell, from what the cell held. -/
def out0_B_5 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) : Vec F S1x1 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4 xs0).1)
def sout0_B_0 (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 arg6 harg6 arg7 harg7 hc0 x0 x1 x2 x3 x4 xs0).2.1)

/-! ## The accumulation, point by point -/

/-- After the body at position `n`: (the output block, the scratch cell). The first point starts the cell afresh;
    every later point continues from the cell as the point before left it. -/
def outsAt0 (c : Dev nD) : (n : ℕ) → n < cfg0.N → Vec F S1x1 .f32 × Vec F S1x1 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2,
                  sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

theorem outsAt0_A (c : Dev nD) (t : Fin cfg0.N) (h0 : t.val = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

theorem outsAt0_B (c : Dev nD) (t : Fin cfg0.N) (h0 : ¬ t.val = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact absurd rfl h0
  | succ n => exact rfl

/-- What the body may use besides the windows, before position `n`: before the first point what the launch lends;
    afterwards the scratch cell at what the point before left in it, the rest as lent. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The launch's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem leaves0_0 (c : Dev nD) (t : Fin cfg0.N) : (dat0 V c).leavesExact 0 t = owns (c : Thread nD τ) (ms0_0 t) fullShare ((dat0 V c).after 0 t) := by
  unfold Dat.leavesExact; rw [liveAt0_0 t]
theorem leaves0_1 (c : Dev nD) (t : Fin cfg0.N) : (dat0 V c).leavesExact 1 t = owns (c : Thread nD τ) (ms0_1 t) fullShare ((dat0 V c).after 1 t) := by
  unfold Dat.leavesExact; rw [liveAt0_1 t]
theorem leaves0_2 (c : Dev nD) (t : Fin cfg0.N) : (dat0 V c).leavesExact 2 t = owns (c : Thread nD τ) (ms0_2 t) fullShare ((dat0 V c).after 2 t) := by
  unfold Dat.leavesExact; rw [liveAt0_2 t]
theorem leaves0_3 (c : Dev nD) (t : Fin cfg0.N) : (dat0 V c).leavesExact 3 t = owns (c : Thread nD τ) (ms0_3 t) fullShare ((dat0 V c).after 3 t) := by
  unfold Dat.leavesExact; rw [liveAt0_3 t]
theorem leaves0_4 (c : Dev nD) (t : Fin cfg0.N) : (dat0 V c).leavesExact 4 t = owns (c : Thread nD τ) (ms0_4 t) fullShare ((dat0 V c).after 4 t) := by
  unfold Dat.leavesExact; rw [liveAt0_4 t]
theorem leaves0_5 (c : Dev nD) (t : Fin cfg0.N) : (dat0 V c).leavesExact 5 t = owns (c : Thread nD τ) (ms0_5 t) fullShare ((dat0 V c).after 5 t) := by
  unfold Dat.leavesExact; rw [liveAt0_5 t]

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' buffers hold their blocks; at the first point the cell comes in at anything
    and the first case's run applies, at a later point it comes in at what the point before left and the other
    case's run applies; either way the cell goes back at this point's contents (its stores cover it) and the
    output block at its. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5, after0_0, after0_1, after0_2, after0_3, after0_4, after0_5]
  by_cases h0 : t.val = 0
  · rw [outsAt0_A V c t h0]
    unfold out0_A_5 sout0_A_0; (try dsimp only)
    rw [PhiS_castSucc V c t, PhiS_zero V c _ _ h0, PhiA0_eq]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c _ _ _ _ _ _ _ _ _ _ _ _ _ _ _ _ _ _ _ _ _)
  · rw [outsAt0_B V c t h0]
    unfold out0_B_5 sout0_B_0; (try dsimp only)
    rw [PhiS_castSucc V c t, PhiS_pos V c _ _ h0]
    iintro ⟨⟨⟨HS0, Hrest⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk0 V c 0 t) (iblk0 V c 1 t) (iblk0 V c 2 t) (iblk0 V c 3 t) (iblk0 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch lends is what the body may use before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first it is given back: the cell's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Region0

end Cert.KernelIdeal.Hand

end
-- ==== Proof.FrameRow.lean ====
/-
  The per-row kernel (the second launch) as one segment of the program's run, at any float instance.
  Each of the 128 grid points reads a block of 256 rows of the nine batch arrays and the whole of the eight
  parameter arrays, and stores one 256-by-1 column: the row sums of the constraint-violation terms.  The body has
  one control case, loads whole blocks and stores the output block whole, so what a point leaves in the output
  block is one pure function (`rowOut`) of the input blocks; the inputs' blocks are left as found.
-/
import proofs.«141359_j50938312131078_1_alg».proof.Proof.Gen.KernelIdeal.Launch
import proofs.«141359_j50938312131078_1_alg».proof.Proof.Gen.KernelIdeal.Skeleton
import proofs.«141359_j50938312131078_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current buffer holds its block at every point, fetched there or not. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current buffer holds its block at every point, fetched there or not. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current buffer holds its block at every point, fetched there or not. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's current buffer holds its block at every point, fetched there or not. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's current buffer holds its block at every point, fetched there or not. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's current buffer holds its block at every point, fetched there or not. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's current buffer holds its block at every point, fetched there or not. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-- Input window 14's current buffer holds its block at every point, fetched there or not. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)

/-- Input window 15's current buffer holds its block at every point, fetched there or not. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- Input window 16's current buffer holds its block at every point, fetched there or not. -/
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)

/-! ## The whole-block rectangles the body loads and stores through -/

abbrev rc_S256x600 : Rect S256x600 := Rect.unit (s := S256x600) ![0, 0] S256x600.size inb_S256x600_S256x600_0_0
abbrev rc_S256x138 : Rect S256x138 := Rect.unit (s := S256x138) ![0, 0] S256x138.size inb_S256x138_S256x138_0_0
abbrev rc_S256x300 : Rect S256x300 := Rect.unit (s := S256x300) ![0, 0] S256x300.size inb_S256x300_S256x300_0_0
abbrev rc_S256x411 : Rect S256x411 := Rect.unit (s := S256x411) ![0, 0] S256x411.size inb_S256x411_S256x411_0_0
abbrev rc_S600x600 : Rect S600x600 := Rect.unit (s := S600x600) ![0, 0] S600x600.size inb_S600x600_S600x600_0_0
abbrev rc_S138x600 : Rect S138x600 := Rect.unit (s := S138x600) ![0, 0] S138x600.size inb_S138x600_S138x600_0_0
abbrev rc_S822x600 : Rect S822x600 := Rect.unit (s := S822x600) ![0, 0] S822x600.size inb_S822x600_S822x600_0_0
abbrev rc_S822x822 : Rect S822x822 := Rect.unit (s := S822x822) ![0, 0] S822x822.size inb_S822x822_S822x822_0_0
abbrev rc_S1x138 : Rect S1x138 := Rect.unit (s := S1x138) ![0, 0] S1x138.size inb_S1x138_S1x138_0_0
abbrev rc_S1x600 : Rect S1x600 := Rect.unit (s := S1x600) ![0, 0] S1x600.size inb_S1x600_S1x600_0_0
abbrev rc_S256x1 : Rect S256x1 := Rect.unit (s := S256x1) ![0, 0] S256x1.size inb_S256x1_S256x1_0_0

/-- The value the body stores, from the blocks it loaded: the body's arithmetic as the skeleton names it, the
    named pieces nested as the body threads them. -/
def rowPay (x0 : Vec F S256x600 .f32) (x1 : Vec F S256x138 .f32) (x2 : Vec F S256x600 .f32) (x3 : Vec F S256x600 .f32) (x4 : Vec F S256x138 .f32) (x5 : Vec F S256x138 .f32) (x6 : Vec F S256x300 .f32) (x7 : Vec F S256x300 .f32) (x8 : Vec F S256x411 .f32) (x9 : Vec F S600x600 .bf16) (x10 : Vec F S138x600 .bf16) (x11 : Vec F S822x600 .bf16) (x12 : Vec F S822x822 .bf16) (x13 : Vec F S1x138 .f32) (x14 : Vec F S1x138 .f32) (x15 : Vec F S1x138 .f32) (x16 : Vec F S1x600 .f32) : FVec F S256x1 .f32 :=
  k1_pay1 (View.ld x8 rc_S256x411)
    (k1_pay15 (View.ld x4 rc_S256x138) (View.ld x5 rc_S256x138) (View.ld x6 rc_S256x300) (View.ld x7 rc_S256x300) (k1_pay2 (View.ld x15 rc_S1x138))
      (k1_pay12 (View.ld x4 rc_S256x138) (View.ld x5 rc_S256x138) (View.ld x6 rc_S256x300) (View.ld x7 rc_S256x300) (View.ld x8 rc_S256x411) (k1_pay3 (View.ld x1 rc_S256x138) (View.ld x13 rc_S1x138)) (k1_pay4 (View.ld x1 rc_S256x138) (View.ld x14 rc_S1x138))
        (k1_pay8 (k1_pay6 (View.ld x0 rc_S256x600)) (k1_pay7 (View.ld x0 rc_S256x600))) (k1_pay9 (k1_pay6 (View.ld x0 rc_S256x600)) (k1_pay7 (View.ld x0 rc_S256x600)))
        (k1_pay10 (View.ld x1 rc_S256x138) (View.ld x2 rc_S256x600) (View.ld x16 rc_S1x600) (k1_pay5 (View.ld x1 rc_S256x138) (View.ld x13 rc_S1x138) (View.ld x14 rc_S1x138)) (k1_pay6 (View.ld x0 rc_S256x600)) (k1_pay7 (View.ld x0 rc_S256x600)) (View.ld x9 rc_S600x600) (View.ld x10 rc_S138x600))
        (k1_pay11 (View.ld x0 rc_S256x600) (View.ld x11 rc_S822x600)) (View.ld x12 rc_S822x822))
      (k1_pay13 (View.ld x3 rc_S256x600)) (k1_pay14 (View.ld x10 rc_S138x600)))

/-- What a point leaves in the output block: its one whole-block store. -/
def rowOut (x0 : Vec F S256x600 .f32) (x1 : Vec F S256x138 .f32) (x2 : Vec F S256x600 .f32) (x3 : Vec F S256x600 .f32) (x4 : Vec F S256x138 .f32) (x5 : Vec F S256x138 .f32) (x6 : Vec F S256x300 .f32) (x7 : Vec F S256x300 .f32) (x8 : Vec F S256x411 .f32) (x9 : Vec F S600x600 .bf16) (x10 : Vec F S138x600 .bf16) (x11 : Vec F S822x600 .bf16) (x12 : Vec F S822x822 .bf16) (x13 : Vec F S1x138 .f32) (x14 : Vec F S1x138 .f32) (x15 : Vec F S1x138 .f32) (x16 : Vec F S1x600 .f32) : Vec F S256x1 .f32 :=
  View.canon [⟨rc_S256x1, rowPay x0 x1 x2 x3 x4 x5 x6 x7 x8 x9 x10 x11 x12 x13 x14 x15 x16⟩]

/-- The one store tiles the block, so it covers it. -/
theorem cover1_17 (p0 : Vec F S256x1 .f32) (y : S256x1.Idx) :
    ∃ pc ∈ ([⟨rc_S256x1, p0⟩] : List (View.Piece (Elt F) S256x1 .f32)), y ∈ pc.1.set :=
  View.cover_of_tiled [⟨rc_S256x1, p0⟩] S256x1.size (by rfl) y

set_option maxHeartbeats 8000000 in
/-- The body on whole buffers: the inputs' at contents `xW`, the output's at anything; it runs to the continuation
    holding the inputs' as they were and the output's at `rowOut` of them. -/
theorem sound_kernel1 (c : Dev nD) (E : Set ℕ) (i : grid1.Coords) (arg1 : Memref sig .tc .vmem S256x600 .f32) (harg1 : arg1.IsWhole) (arg2 : Memref sig .tc .vmem S256x138 .f32) (harg2 : arg2.IsWhole) (arg3 : Memref sig .tc .vmem S256x600 .f32) (harg3 : arg3.IsWhole) (arg4 : Memref sig .tc .vmem S256x600 .f32) (harg4 : arg4.IsWhole) (arg5 : Memref sig .tc .vmem S256x138 .f32) (harg5 : arg5.IsWhole) (arg6 : Memref sig .tc .vmem S256x138 .f32) (harg6 : arg6.IsWhole) (arg7 : Memref sig .tc .vmem S256x300 .f32) (harg7 : arg7.IsWhole) (arg8 : Memref sig .tc .vmem S256x300 .f32) (harg8 : arg8.IsWhole) (arg9 : Memref sig .tc .vmem S256x411 .f32) (harg9 : arg9.IsWhole) (arg10 : Memref sig .tc .vmem S600x600 .bf16) (harg10 : arg10.IsWhole) (arg11 : Memref sig .tc .vmem S138x600 .bf16) (harg11 : arg11.IsWhole) (arg12 : Memref sig .tc .vmem S822x600 .bf16) (harg12 : arg12.IsWhole) (arg13 : Memref sig .tc .vmem S822x822 .bf16) (harg13 : arg13.IsWhole) (arg14 : Memref sig .tc .vmem S1x138 .f32) (harg14 : arg14.IsWhole) (arg15 : Memref sig .tc .vmem S1x138 .f32) (harg15 : arg15.IsWhole) (arg16 : Memref sig .tc .vmem S1x138 .f32) (harg16 : arg16.IsWhole) (arg17 : Memref sig .tc .vmem S1x600 .f32) (harg17 : arg17.IsWhole) (arg18 : Memref sig .tc .vmem S256x1 .f32) (harg18 : arg18.IsWhole)
    (x0 : Vec F S256x600 .f32) (x1 : Vec F S256x138 .f32) (x2 : Vec F S256x600 .f32) (x3 : Vec F S256x600 .f32) (x4 : Vec F S256x138 .f32) (x5 : Vec F S256x138 .f32) (x6 : Vec F S256x300 .f32) (x7 : Vec F S256x300 .f32) (x8 : Vec F S256x411 .f32) (x9 : Vec F S600x600 .bf16) (x10 : Vec F S138x600 .bf16) (x11 : Vec F S822x600 .bf16) (x12 : Vec F S822x822 .bf16) (x13 : Vec F S1x138 .f32) (x14 : Vec F S1x138 .f32) (x15 : Vec F S1x138 .f32) (x16 : Vec F S1x600 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (rowOut x0 x1 x2 x3 x4 x5 x6 x7 x8 x9 x10 x11 x12 x13 x14 x15 x16)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover1_17 _)

/-! ## The launch's proof data -/

/-- The arrays as the launch finds them; after the body at point `t` each input's buffer at its block and the
    output's at `rowOut` of the input blocks; nothing carried between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => rowOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨_ + 18, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = rowOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel1 c Set.univ (grid1.coords t) _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.FrameRun.lean ====
/-
  The program's run from the launch to the return, at any float instance: the host operations before the two
  kernel launches, the global-scalar launch, the per-row launch, the host operations after them.  The contents of
  every buffer of the core are followed through the four stretches as a fold from the launch memory (`W0` … `W4`):
  a stretch of host operations applies them; a launch leaves each of its arrays at what its write-backs leave and
  every other buffer as it found it.  The run ends with every buffer at the last fold's contents, from which both
  the frame (no argument array changes) and the result's value are read.
-/
import proofs.«141359_j50938312131078_1_alg».proof.Proof.FrameGlob
import proofs.«141359_j50938312131078_1_alg».proof.Proof.FrameRow
import proofs.«141359_j50938312131078_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations before the launches. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After the global-scalar launch: its arrays at what its write-backs leave, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)
/-- After the per-row launch. -/
def W3 (c : Dev nD) : Valuation τ sig (Elt F) :=
  Pipeline.withArrays spec1 c (W2 m ρ c) fun w => (dat1 (E2 m ρ) c).arrAt w cfg1.N
theorem W3_arr (c : Dev nD) (w : Fin cfg1.W) :
    W3 m ρ c (Proc.devRef .tc (Pipeline.arrRef spec1 w)) = (dat1 (E2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev E3 : (c : Dev nD) → (b : Ref sig .tc) → Buf (Elt F) ((c : Thread nD τ).loc b) := fun c b => W3 m ρ c b
theorem hF1 (c : Dev nD) (w : Fin cfg1.W) : (dat1 (E2 m ρ) c).arrAt w cfg1.N = E3 m ρ c (Pipeline.arrRef spec1 w) :=
  (W3_arr m ρ c w).symm
theorem hrest1 (c : Dev nD) : ∀ b, b ∉ Finset.univ.image (Pipeline.arrRef spec1) → E3 m ρ c b = E2 m ρ c b :=
  fun b hb => W3_of_ne m ρ c b fun w e => hb (Finset.mem_image.mpr ⟨w, Finset.mem_univ _, e⟩)
/-- After the host operations that follow the launches. -/
abbrev W4 : Dev nD → Valuation τ sig (Elt F) := fun c => StableHlo.after hostOps2 (W3 m ρ c)

/-! ## No stretch writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := (W3_arr m ρ c 0).trans (((dat1 (E2 m ρ) c).arrAt_in 0 rfl _).trans (A_eq1 (E2 m ρ) c 0))
    _ = W1 m ρ c (Proc.devRef .tc main_arg0) := (W2_arr m ρ c 0).trans (((dat0 (E1 m ρ) c).arrAt_in 0 rfl _).trans (A_eq0 (E1 m ρ) c 0))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := (W3_arr m ρ c 1).trans (((dat1 (E2 m ρ) c).arrAt_in 1 rfl _).trans (A_eq1 (E2 m ρ) c 1))
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (r := main_arg2) (by decide)
    _ = W2 m ρ c (Proc.devRef .tc main_arg2) := (W3_arr m ρ c 2).trans (((dat1 (E2 m ρ) c).arrAt_in 2 rfl _).trans (A_eq1 (E2 m ρ) c 2))
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (r := main_arg3) (by decide)
    _ = W2 m ρ c (Proc.devRef .tc main_arg3) := (W3_arr m ρ c 3).trans (((dat1 (E2 m ρ) c).arrAt_in 3 rfl _).trans (A_eq1 (E2 m ρ) c 3))
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (r := main_arg4) (by decide)
    _ = W2 m ρ c (Proc.devRef .tc main_arg4) := (W3_arr m ρ c 4).trans (((dat1 (E2 m ρ) c).arrAt_in 4 rfl _).trans (A_eq1 (E2 m ρ) c 4))
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (r := main_arg5) (by decide)
    _ = W2 m ρ c (Proc.devRef .tc main_arg5) := (W3_arr m ρ c 5).trans (((dat1 (E2 m ρ) c).arrAt_in 5 rfl _).trans (A_eq1 (E2 m ρ) c 5))
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (r := main_arg6) (by decide)
    _ = W2 m ρ c (Proc.devRef .tc main_arg6) := (W3_arr m ρ c 6).trans (((dat1 (E2 m ρ) c).arrAt_in 6 rfl _).trans (A_eq1 (E2 m ρ) c 6))
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := StableHlo.after_of_writes_sub hostOps2 _ hostOps2_writes (r := main_arg7) (by decide)
    _ = W2 m ρ c (Proc.devRef .tc main_arg7) := (W3_arr m ρ c 7).trans (((dat1 (E2 m ρ) c).arrAt_in 7 rfl _).trans (A_eq1 (E2 m ρ) c 7))
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := StableHlo.after_of_writes_sub hostOps2 _ hostOps2_writes (r := main_arg8) (by decide)
    _ = W2 m ρ c (Proc.devRef .tc main_arg8) := (W3_arr m ρ c 8).trans (((dat1 (E2 m ρ) c).arrAt_in 8 rfl _).trans (A_eq1 (E2 m ρ) c 8))
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := StableHlo.after_of_writes_sub hostOps2 _ hostOps2_writes (r := main_arg9) (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := StableHlo.after_of_writes_sub hostOps2 _ hostOps2_writes (r := main_arg10) (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_writes_sub hostOps0 _ hostOps0_writes (r := main_arg10) (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := StableHlo.after_of_writes_sub hostOps2 _ hostOps2_writes (r := main_arg11) (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_writes_sub hostOps0 _ hostOps0_writes (r := main_arg11) (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := StableHlo.after_of_writes_sub hostOps2 _ hostOps2_writes (r := main_arg12) (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_writes_sub hostOps0 _ hostOps0_writes (r := main_arg12) (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := StableHlo.after_of_writes_sub hostOps2 _ hostOps2_writes (r := main_arg13) (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_writes_sub hostOps0 _ hostOps0_writes (r := main_arg13) (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := StableHlo.after_of_writes_sub hostOps2 _ hostOps2_writes (r := main_arg14) (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := StableHlo.after_of_writes_sub hostOps0 _ hostOps0_writes (r := main_arg14) (by decide)
    _ = m ((c : Thread nD τ).loc main_arg14) := rfl
theorem W4_main_arg15 (c : Dev nD) : W4 m ρ c (Proc.devRef .tc main_arg15) = m ((c : Thread nD τ).loc main_arg15) :=
  calc W4 m ρ c (Proc.devRef .tc main_arg15)
    _ = W3 m ρ c (Proc.devRef .tc main_arg15) := StableHlo.after_of_writes_sub hostOps2 _ hostOps2_writes (r := main_arg15) (by decide)
    _ = W2 m ρ c (Proc.devRef .tc main_arg15) := (W3_arr m ρ c 13).trans (((dat1 (E2 m ρ) c).arrAt_in 13 rfl _).trans (A_eq1 (E2 m ρ) c 13))
    _ = W1 m ρ c (Proc.devRef .tc main_arg15) := W2_of_ne m ρ c main_arg15 (by decide)
    _ = W0 m ρ c (Proc.devRef .tc main_arg15) := StableHlo.after_of_writes_sub hostOps0 _ hostOps0_writes (r := main_arg15) (by decide)
    _ = m ((c : Thread nD τ).loc main_arg15) := rfl
theorem W4_main_arg16 (c : Dev nD) : W4 m ρ c (Proc.devRef .tc main_arg16) = m ((c : Thread nD τ).loc main_arg16) :=
  calc W4 m ρ c (Proc.devRef .tc main_arg16)
    _ = W3 m ρ c (Proc.devRef .tc main_arg16) := StableHlo.after_of_writes_sub hostOps2 _ hostOps2_writes (r := main_arg16) (by decide)
    _ = W2 m ρ c (Proc.devRef .tc main_arg16) := (W3_arr m ρ c 14).trans (((dat1 (E2 m ρ) c).arrAt_in 14 rfl _).trans (A_eq1 (E2 m ρ) c 14))
    _ = W1 m ρ c (Proc.devRef .tc main_arg16) := W2_of_ne m ρ c main_arg16 (by decide)
    _ = W0 m ρ c (Proc.devRef .tc main_arg16) := StableHlo.after_of_writes_sub hostOps0 _ hostOps0_writes (r := main_arg16) (by decide)
    _ = m ((c : Thread nD τ).loc main_arg16) := rfl
theorem W4_main_arg17 (c : Dev nD) : W4 m ρ c (Proc.devRef .tc main_arg17) = m ((c : Thread nD τ).loc main_arg17) :=
  calc W4 m ρ c (Proc.devRef .tc main_arg17)
    _ = W3 m ρ c (Proc.devRef .tc main_arg17) := StableHlo.after_of_writes_sub hostOps2 _ hostOps2_writes (r := main_arg17) (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := StableHlo.after_of_writes_sub hostOps0 _ hostOps0_writes (r := main_arg17) (by decide)
    _ = m ((c : Thread nD τ).loc main_arg17) := rfl

/-! ## The proof data family and the thread state -/

abbrev hadm : (p : Fin 2) → (pcfgs (F := F) p).Adm := fun p => (cfgs p).toPCfg_adm
def hdats : (p : Fin 2) → (c : Dev nD) → Dat τ (Elt F) Unit ℕ (UR sig nD τ) ℕ (Pipeline.pin (pcfgs (F := F)) hadm p) c
  | ⟨0, _⟩ => fun c => dat0 (E1 m ρ) c
  | ⟨1, _⟩ => fun c => dat1 (E2 m ρ) c
abbrev h𝒱₀ : Variants := Variants.none
abbrev hL : GSem nD τ sig → Finset Unit := fun _ => ∅
abbrev hlv : GSem nD τ sig → Unit → ℕ := fun _ _ => 0
/-- What rides beside the buffers through every stretch: the generator register at some state, nothing owed. -/
abbrev hR (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ h𝒱₀ hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W hR
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev hTₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The global-scalar launch: entered from every buffer at `W1`, left at `W2`. -/
def reg0 : Pipeline.RegionSeg (pcfgs (F := F)) hadm (hdats m ρ) () defs₀ h𝒱₀ hL hlv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ hL hlv 0 fun _ _ => rfl
  pre c := iprop(StableHlo.held (c : Thread nD τ) (Pipeline.ucRefs τ sig) (W1 m ρ c) ∗ hR c)
  post c := iprop(StableHlo.held (c : Thread nD τ) (Pipeline.ucRefs τ sig) (W2 m ρ c) ∗ hR c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) hadm (hdats m ρ) launch0.win launch0.arr_whole c
      ((hdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 0 c).Φ 0 = Pipeline.ΦA spec0 c from rfl]; unfold Pipeline.ΦA
    iintro ⟨Hp, -, Hr⟩
    isplitl [Hr]; · iexact Hr
    iexact Hp
  hout c := by
    refine (hout0 (E1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (hdats m ρ) ((hdats m ρ 0 c).share_full fun _ => rfl)
      (E1 m ρ c) (E2 m ρ c) ((hdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The per-row launch: entered from every buffer at `W2`, left at `W3`. -/
def reg1 : Pipeline.RegionSeg (pcfgs (F := F)) hadm (hdats m ρ) () defs₀ h𝒱₀ hL hlv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ hL hlv 1 fun _ _ => rfl
  pre c := iprop(StableHlo.held (c : Thread nD τ) (Pipeline.ucRefs τ sig) (W2 m ρ c) ∗ hR c)
  post c := iprop(StableHlo.held (c : Thread nD τ) (Pipeline.ucRefs τ sig) (W3 m ρ c) ∗ hR c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) hadm (hdats m ρ) launch1.win launch1.arr_whole c
      ((hdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (hdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (hdats m ρ) ((hdats m ρ 1 c).share_full fun _ => rfl)
      (E2 m ρ c) (E3 m ρ c) ((hdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev hsegs : List (Pipeline.Seg (pcfgs (F := F)) hadm (hdats m ρ) () defs₀ h𝒱₀ hL hlv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (hsegs m ρ) := (main_chain c).trans (by chain_rfl)

set_option backward.isDefEq.respectTransparency.types false in
/-- THE RUN. From any memory with zero counters every weakly fair execution of the program terminates, nothing
    faulting, and in every final state every buffer of the core that outlives the launches holds the last fold's
    contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) hadm (hdats m ρ) () cellOf_inj emb₁ defs₀ h𝒱₀ hL hlv m ρ main (hsegs m ρ)
    (fun c Q => by rw [main_run m ρ c])
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ hR c)) (Tₙ := hTₙ m ρ)
    (hch := ⟨fun _ => .rfl, fun _ => .rfl, fun _ => .rfl, fun _ => .rfl, fun c => by
      show iprop(StableHlo.held (c : Thread nD τ) (Pipeline.ucRefs τ sig) (W4 m ρ c) ∗ hR c) ⊢ _
      iintro ⟨Hh, Hp, Ho⟩
      isplitl [Hh Hp]
      · isplitl [Hh]; · iexact Hh
        iexact Hp
      iexact Ho⟩)
    (hinit := by
      refine Pipeline.initEach hL hlv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c)⟩) (run_all m ρ)

end Cert.KernelIdeal.Hand

end
-- ==== Proof.ValueArrays.lean ====
/-
  The arrays the two launches find, in terms of the launch memory: an argument array is as launched; each
  parameter matrix the launches read is the argument matrix through a change of float format; the two 0/1 rows are
  constant tables; the cost row is the cost argument followed by zeros.  And the program's result in terms of the
  two launches' result arrays: the per-row column flattened, plus the global scalar broadcast over the rows.
-/
import proofs.«141359_j50938312131078_1_alg».proof.Proof.FrameRun
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## After the host operations before the launches -/

theorem W1_main_v0 (c : Dev nD) : (W1 m ρ c (Proc.devRef .tc main_v0) : S600x600.Idx → Elt F .bf16)
    = truncf .bf16 (m ((c : Thread nD τ).loc main_arg9) : S600x600.Idx → Elt F .f32) bitsLt_bf16_f32 := by
  show StableHlo.after hostOps0 (W0 m ρ c) (Proc.devRef .tc main_v0) = _
  after_results
  try rfl
theorem W1_main_v1 (c : Dev nD) : (W1 m ρ c (Proc.devRef .tc main_v1) : S600x600.Idx → Elt F .bf16)
    = truncf .bf16 (m ((c : Thread nD τ).loc main_arg10) : S600x600.Idx → Elt F .f32) bitsLt_bf16_f32 := by
  show StableHlo.after hostOps0 (W0 m ρ c) (Proc.devRef .tc main_v1) = _
  after_results
  try rfl
theorem W1_main_v2 (c : Dev nD) : (W1 m ρ c (Proc.devRef .tc main_v2) : S600x600.Idx → Elt F .bf16)
    = truncf .bf16 (m ((c : Thread nD τ).loc main_arg14) : S600x600.Idx → Elt F .f32) bitsLt_bf16_f32 := by
  show StableHlo.after hostOps0 (W0 m ρ c) (Proc.devRef .tc main_v2) = _
  after_results
  try rfl
theorem W1_main_v3 (c : Dev nD) : (W1 m ρ c (Proc.devRef .tc main_v3) : S138x600.Idx → Elt F .bf16)
    = truncf .bf16 (m ((c : Thread nD τ).loc main_arg13) : S138x600.Idx → Elt F .f32) bitsLt_bf16_f32 := by
  show StableHlo.after hostOps0 (W0 m ρ c) (Proc.devRef .tc main_v3) = _
  after_results
  try rfl
theorem W1_main_v4 (c : Dev nD) : (W1 m ρ c (Proc.devRef .tc main_v4) : S822x600.Idx → Elt F .bf16)
    = truncf .bf16 (m ((c : Thread nD τ).loc main_arg12) : S822x600.Idx → Elt F .f32) bitsLt_bf16_f32 := by
  show StableHlo.after hostOps0 (W0 m ρ c) (Proc.devRef .tc main_v4) = _
  after_results
  try rfl
theorem W1_main_v5 (c : Dev nD) : (W1 m ρ c (Proc.devRef .tc main_v5) : S822x822.Idx → Elt F .bf16)
    = truncf .bf16 (m ((c : Thread nD τ).loc main_arg11) : S822x822.Idx → Elt F .f32) bitsLt_bf16_f32 := by
  show StableHlo.after hostOps0 (W0 m ρ c) (Proc.devRef .tc main_v5) = _
  after_results
  try rfl
theorem W1_main_cst (c : Dev nD) : (W1 m ρ c (Proc.devRef .tc main_cst) : S1x600.Idx → Elt F .f32)
    = fun i => FloatOps.ofBits .f32 (lit0 (S1x600.rowMajor i)) := by
  show StableHlo.after hostOps0 (W0 m ρ c) (Proc.devRef .tc main_cst) = _
  after_results
  try rfl
theorem W1_main_cst_0 (c : Dev nD) : (W1 m ρ c (Proc.devRef .tc main_cst_0) : S1x600.Idx → Elt F .f32)
    = fun i => FloatOps.ofBits .f32 (lit1 (S1x600.rowMajor i)) := by
  show StableHlo.after hostOps0 (W0 m ρ c) (Proc.devRef .tc main_cst_0) = _
  after_results
  try rfl
theorem W1_main_v7 (c : Dev nD) : (W1 m ρ c (Proc.devRef .tc main_v7) : S1x138.Idx → Elt F .f32)
    = concatenate S1x138 1 [⟨S1x69, (m ((c : Thread nD τ).loc main_arg17) : S1x69.Idx → Elt F .f32)⟩, ⟨S1x69, broadcastInDim S1x69 ![] bcast_S_S1x69 (constant (F := F) S_ .f32 0x00000000#32)⟩] concatenates_S1x69_S1x69_S1x138_d1 := by
  show StableHlo.after hostOps0 (W0 m ρ c) (Proc.devRef .tc main_v7) = _
  after_results
  try rfl
theorem W1_main_arg0 (c : Dev nD) : (W1 m ρ c (Proc.devRef .tc main_arg0) : S32768x600.Idx → Elt F .f32) = m ((c : Thread nD τ).loc main_arg0) :=
  (StableHlo.after_of_writes_sub hostOps0 _ hostOps0_writes (r := main_arg0) (by decide)).trans rfl
theorem W1_main_arg1 (c : Dev nD) : (W1 m ρ c (Proc.devRef .tc main_arg1) : S32768x138.Idx → Elt F .f32) = m ((c : Thread nD τ).loc main_arg1) :=
  (StableHlo.after_of_writes_sub hostOps0 _ hostOps0_writes (r := main_arg1) (by decide)).trans rfl
theorem W1_main_arg2 (c : Dev nD) : (W1 m ρ c (Proc.devRef .tc main_arg2) : S32768x600.Idx → Elt F .f32) = m ((c : Thread nD τ).loc main_arg2) :=
  (StableHlo.after_of_writes_sub hostOps0 _ hostOps0_writes (r := main_arg2) (by decide)).trans rfl
theorem W1_main_arg3 (c : Dev nD) : (W1 m ρ c (Proc.devRef .tc main_arg3) : S32768x600.Idx → Elt F .f32) = m ((c : Thread nD τ).loc main_arg3) :=
  (StableHlo.after_of_writes_sub hostOps0 _ hostOps0_writes (r := main_arg3) (by decide)).trans rfl
theorem W1_main_arg4 (c : Dev nD) : (W1 m ρ c (Proc.devRef .tc main_arg4) : S32768x138.Idx → Elt F .f32) = m ((c : Thread nD τ).loc main_arg4) :=
  (StableHlo.after_of_writes_sub hostOps0 _ hostOps0_writes (r := main_arg4) (by decide)).trans rfl
theorem W1_main_arg5 (c : Dev nD) : (W1 m ρ c (Proc.devRef .tc main_arg5) : S32768x138.Idx → Elt F .f32) = m ((c : Thread nD τ).loc main_arg5) :=
  (StableHlo.after_of_writes_sub hostOps0 _ hostOps0_writes (r := main_arg5) (by decide)).trans rfl
theorem W1_main_arg6 (c : Dev nD) : (W1 m ρ c (Proc.devRef .tc main_arg6) : S32768x300.Idx → Elt F .f32) = m ((c : Thread nD τ).loc main_arg6) :=
  (StableHlo.after_of_writes_sub hostOps0 _ hostOps0_writes (r := main_arg6) (by decide)).trans rfl
theorem W1_main_arg7 (c : Dev nD) : (W1 m ρ c (Proc.devRef .tc main_arg7) : S32768x300.Idx → Elt F .f32) = m ((c : Thread nD τ).loc main_arg7) :=
  (StableHlo.after_of_writes_sub hostOps0 _ hostOps0_writes (r := main_arg7) (by decide)).trans rfl
theorem W1_main_arg8 (c : Dev nD) : (W1 m ρ c (Proc.devRef .tc main_arg8) : S32768x411.Idx → Elt F .f32) = m ((c : Thread nD τ).loc main_arg8) :=
  (StableHlo.after_of_writes_sub hostOps0 _ hostOps0_writes (r := main_arg8) (by decide)).trans rfl
theorem W1_main_arg15 (c : Dev nD) : (W1 m ρ c (Proc.devRef .tc main_arg15) : S1x138.Idx → Elt F .f32) = m ((c : Thread nD τ).loc main_arg15) :=
  (StableHlo.after_of_writes_sub hostOps0 _ hostOps0_writes (r := main_arg15) (by decide)).trans rfl
theorem W1_main_arg16 (c : Dev nD) : (W1 m ρ c (Proc.devRef .tc main_arg16) : S1x138.Idx → Elt F .f32) = m ((c : Thread nD τ).loc main_arg16) :=
  (StableHlo.after_of_writes_sub hostOps0 _ hostOps0_writes (r := main_arg16) (by decide)).trans rfl

/-! ## What the global-scalar launch finds (its five arrays) -/

theorem E1_arr0 (c : Dev nD) : (E1 m ρ c (Pipeline.arrRef spec0 0) : S32768x600.Idx → Elt F .f32) = m ((c : Thread nD τ).loc main_arg0) :=
  W1_main_arg0 m ρ c
theorem E1_arr1 (c : Dev nD) : (E1 m ρ c (Pipeline.arrRef spec0 1) : S600x600.Idx → Elt F .bf16) = truncf .bf16 (m ((c : Thread nD τ).loc main_arg9) : S600x600.Idx → Elt F .f32) bitsLt_bf16_f32 :=
  W1_main_v0 m ρ c
theorem E1_arr2 (c : Dev nD) : (E1 m ρ c (Pipeline.arrRef spec0 2) : S600x600.Idx → Elt F .bf16) = truncf .bf16 (m ((c : Thread nD τ).loc main_arg10) : S600x600.Idx → Elt F .f32) bitsLt_bf16_f32 :=
  W1_main_v1 m ρ c
theorem E1_arr3 (c : Dev nD) : (E1 m ρ c (Pipeline.arrRef spec0 3) : S1x600.Idx → Elt F .f32) = fun i => FloatOps.ofBits .f32 (lit0 (S1x600.rowMajor i)) :=
  W1_main_cst m ρ c
theorem E1_arr4 (c : Dev nD) : (E1 m ρ c (Pipeline.arrRef spec0 4) : S1x600.Idx → Elt F .f32) = fun i => FloatOps.ofBits .f32 (lit1 (S1x600.rowMajor i)) :=
  W1_main_cst_0 m ρ c

/-! ## What the per-row launch finds (its seventeen arrays): the global-scalar launch changed none of them -/

theorem E2_arr0 (c : Dev nD) : (E2 m ρ c (Pipeline.arrRef spec1 0) : S32768x600.Idx → Elt F .f32) = m ((c : Thread nD τ).loc main_arg0) :=
  (W2_arr m ρ c 0).trans (((dat0 (E1 m ρ) c).arrAt_in 0 rfl _).trans ((A_eq0 (E1 m ρ) c 0).trans (W1_main_arg0 m ρ c)))
theorem E2_arr1 (c : Dev nD) : (E2 m ρ c (Pipeline.arrRef spec1 1) : S32768x138.Idx → Elt F .f32) = m ((c : Thread nD τ).loc main_arg1) :=
  (W2_of_ne m ρ c main_arg1 (by decide)).trans (W1_main_arg1 m ρ c)
theorem E2_arr2 (c : Dev nD) : (E2 m ρ c (Pipeline.arrRef spec1 2) : S32768x600.Idx → Elt F .f32) = m ((c : Thread nD τ).loc main_arg2) :=
  (W2_of_ne m ρ c main_arg2 (by decide)).trans (W1_main_arg2 m ρ c)
theorem E2_arr3 (c : Dev nD) : (E2 m ρ c (Pipeline.arrRef spec1 3) : S32768x600.Idx → Elt F .f32) = m ((c : Thread nD τ).loc main_arg3) :=
  (W2_of_ne m ρ c main_arg3 (by decide)).trans (W1_main_arg3 m ρ c)
theorem E2_arr4 (c : Dev nD) : (E2 m ρ c (Pipeline.arrRef spec1 4) : S32768x138.Idx → Elt F .f32) = m ((c : Thread nD τ).loc main_arg4) :=
  (W2_of_ne m ρ c main_arg4 (by decide)).trans (W1_main_arg4 m ρ c)
theorem E2_arr5 (c : Dev nD) : (E2 m ρ c (Pipeline.arrRef spec1 5) : S32768x138.Idx → Elt F .f32) = m ((c : Thread nD τ).loc main_arg5) :=
  (W2_of_ne m ρ c main_arg5 (by decide)).trans (W1_main_arg5 m ρ c)
theorem E2_arr6 (c : Dev nD) : (E2 m ρ c (Pipeline.arrRef spec1 6) : S32768x300.Idx → Elt F .f32) = m ((c : Thread nD τ).loc main_arg6) :=
  (W2_of_ne m ρ c main_arg6 (by decide)).trans (W1_main_arg6 m ρ c)
theorem E2_arr7 (c : Dev nD) : (E2 m ρ c (Pipeline.arrRef spec1 7) : S32768x300.Idx → Elt F .f32) = m ((c : Thread nD τ).loc main_arg7) :=
  (W2_of_ne m ρ c main_arg7 (by decide)).trans (W1_main_arg7 m ρ c)
theorem E2_arr8 (c : Dev nD) : (E2 m ρ c (Pipeline.arrRef spec1 8) : S32768x411.Idx → Elt F .f32) = m ((c : Thread nD τ).loc main_arg8) :=
  (W2_of_ne m ρ c main_arg8 (by decide)).trans (W1_main_arg8 m ρ c)
theorem E2_arr9 (c : Dev nD) : (E2 m ρ c (Pipeline.arrRef spec1 9) : S600x600.Idx → Elt F .bf16) = truncf .bf16 (m ((c : Thread nD τ).loc main_arg14) : S600x600.Idx → Elt F .f32) bitsLt_bf16_f32 :=
  (W2_of_ne m ρ c main_v2 (by decide)).trans (W1_main_v2 m ρ c)
theorem E2_arr10 (c : Dev nD) : (E2 m ρ c (Pipeline.arrRef spec1 10) : S138x600.Idx → Elt F .bf16) = truncf .bf16 (m ((c : Thread nD τ).loc main_arg13) : S138x600.Idx → Elt F .f32) bitsLt_bf16_f32 :=
  (W2_of_ne m ρ c main_v3 (by decide)).trans (W1_main_v3 m ρ c)
theorem E2_arr11 (c : Dev nD) : (E2 m ρ c (Pipeline.arrRef spec1 11) : S822x600.Idx → Elt F .bf16) = truncf .bf16 (m ((c : Thread nD τ).loc main_arg12) : S822x600.Idx → Elt F .f32) bitsLt_bf16_f32 :=
  (W2_of_ne m ρ c main_v4 (by decide)).trans (W1_main_v4 m ρ c)
theorem E2_arr12 (c : Dev nD) : (E2 m ρ c (Pipeline.arrRef spec1 12) : S822x822.Idx → Elt F .bf16) = truncf .bf16 (m ((c : Thread nD τ).loc main_arg11) : S822x822.Idx → Elt F .f32) bitsLt_bf16_f32 :=
  (W2_of_ne m ρ c main_v5 (by decide)).trans (W1_main_v5 m ρ c)
theorem E2_arr13 (c : Dev nD) : (E2 m ρ c (Pipeline.arrRef spec1 13) : S1x138.Idx → Elt F .f32) = m ((c : Thread nD τ).loc main_arg15) :=
  (W2_of_ne m ρ c main_arg15 (by decide)).trans (W1_main_arg15 m ρ c)
theorem E2_arr14 (c : Dev nD) : (E2 m ρ c (Pipeline.arrRef spec1 14) : S1x138.Idx → Elt F .f32) = m ((c : Thread nD τ).loc main_arg16) :=
  (W2_of_ne m ρ c main_arg16 (by decide)).trans (W1_main_arg16 m ρ c)
theorem E2_arr15 (c : Dev nD) : (E2 m ρ c (Pipeline.arrRef spec1 15) : S1x138.Idx → Elt F .f32) = concatenate S1x138 1 [⟨S1x69, (m ((c : Thread nD τ).loc main_arg17) : S1x69.Idx → Elt F .f32)⟩, ⟨S1x69, broadcastInDim S1x69 ![] bcast_S_S1x69 (constant (F := F) S_ .f32 0x00000000#32)⟩] concatenates_S1x69_S1x69_S1x138_d1 :=
  (W2_of_ne m ρ c main_v7 (by decide)).trans (W1_main_v7 m ρ c)
theorem E2_arr16 (c : Dev nD) : (E2 m ρ c (Pipeline.arrRef spec1 16) : S1x600.Idx → Elt F .f32) = fun i => FloatOps.ofBits .f32 (lit0 (S1x600.rowMajor i)) :=
  (W2_arr m ρ c 3).trans (((dat0 (E1 m ρ) c).arrAt_in 3 rfl _).trans ((A_eq0 (E1 m ρ) c 3).trans (W1_main_cst m ρ c)))

/-! ## The program's result from the launches' result arrays -/

theorem W3_v9 (c : Dev nD) : W3 m ρ c (Proc.devRef .tc main_v9) = (dat1 (E2 m ρ) c).arrAt 17 cfg1.N := W3_arr m ρ c 17
theorem W3_v8 (c : Dev nD) : W3 m ρ c (Proc.devRef .tc main_v8) = (dat0 (E1 m ρ) c).arrAt 5 cfg0.N :=
  (W3_of_ne m ρ c main_v8 (by decide)).trans (W2_arr m ρ c 5)

theorem W4_v13 (c : Dev nD) : (W4 m ρ c (Proc.devRef .tc main_v13) : S32768.Idx → Elt F .f32)
    = addf (shapeCast S32768 (W3 m ρ c (Proc.devRef .tc main_v9) : S32768x1.Idx → Elt F .f32) shapeCasts_S32768x1_S32768)
        (broadcastInDim S32768 ![] bcast_S_S32768 (shapeCast S_ (W3 m ρ c (Proc.devRef .tc main_v8) : S1x1.Idx → Elt F .f32) shapeCasts_S1x1_S_)) := by
  show StableHlo.after hostOps2 (W3 m ρ c) (Proc.devRef .tc main_v13) = _
  after_results
  try rfl

end Cert.KernelIdeal.Hand

end
-- ==== Proof.ValueGlob.lean ====
/-
  The global-scalar kernel's stores, read back as values: at every point the scratch cell and the output block
  both end at (the cell's previous value) + (the block's quadratic-form partial sum + the block's seed sum), the
  previous value being zero at the first point.
-/
import proofs.«141359_j50938312131078_1_alg».proof.Proof.FrameGlob
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- A load of a whole buffer after a list of stores whose LAST one stored the whole buffer reads that store's value. -/
theorem readCov_cons_unit_zero {S : Shape} {e : EltTy} {Val : EltTy → Type} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨(⟨Rect.unit off S.size inb, w⟩ : View.Piece Val S e), List.mem_cons_self, View.mem_set_unit_zero h inb y⟩),
    View.canon_cons_unit_zero h, View.ld_unit_zero h]

/-- One point's new cell value from the blocks it loaded and the cell's previous value. -/
def cellStep (x0 : Vec F S2048x600 .f32) (x1 : Vec F S600x600 .bf16) (x2 : Vec F S600x600 .bf16) (x3 : Vec F S1x600 .f32) (x4 : Vec F S1x600 .f32) (s : Vec F S1x1 .f32) : Vec F S1x1 .f32 :=
  k0_pay1 (k0_pay3 x0 x1 x2 x3) (k0_pay4 x0 x4) s

theorem sout0_B_0_eq (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) : sout0_B_0 c i arg1 harg1 arg2 harg2 arg3 harg3 arg4 harg4 arg5 harg5 arg6 harg6 arg7 harg7 hc0 x0 x1 x2 x3 x4 xs0 = cellStep x0 x1 x2 x3 x4 xs0 := by
  unfold sout0_B_0 cellStep
  rw [View.read_writes_eq_canon _ _ _ (scover0_B_0 c i arg1 harg1 arg2 harg2 arg3 harg3 arg4 harg4 arg5 harg5 arg6 harg6 arg7 harg7 hc0 x0 x1 x2 x3 x4 xs0)]
  unfold kernelRun0_B
  dsimp only
  sl_unfold_words
  refine (View.canon_unit_zero (S := S1x1) hz2 _ _).trans ?_
  simp only [View.readAt_eq_ld, Memref.IsWhole.read_unread, View.ld_unit_zero (S := S2048x600) hz2, View.ld_unit_zero (S := S600x600) hz2, View.ld_unit_zero (S := S1x600) hz2, View.ld_unit_zero (S := S1x1) hz2]

theorem out0_B_5_eq (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (x0 : Vec F S2048x600 .f32) (x1 : Vec F S600x600 .bf16) (x2 : Vec F S600x600 .bf16) (x3 : Vec F S1x600 .f32) (x4 : Vec F S1x600 .f32) (xs0 : Vec F S1x1 .f32) : out0_B_5 c i arg1 harg1 arg2 harg2 arg3 harg3 arg4 harg4 arg5 harg5 arg6 harg6 arg7 harg7 hc0 x0 x1 x2 x3 x4 xs0 = cellStep x0 x1 x2 x3 x4 xs0 := by
  unfold out0_B_5 cellStep
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  refine (View.canon_unit_zero (S := S1x1) hz2 _ _).trans ?_
  refine (View.readCov_unit_zero (S := S1x1) _ hz2 _ _).trans ?_
  simp only [View.readAt_eq_ld, Memref.IsWhole.read_unread, View.ld_unit_zero (S := S2048x600) hz2, View.ld_unit_zero (S := S600x600) hz2, View.ld_unit_zero (S := S1x600) hz2, View.ld_unit_zero (S := S1x1) hz2]

theorem sout0_A_0_eq (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) : sout0_A_0 c i arg1 harg1 arg2 harg2 arg3 harg3 arg4 harg4 arg5 harg5 arg6 harg6 arg7 harg7 hc0 x0 x1 x2 x3 x4 = cellStep x0 x1 x2 x3 x4 (k0_pay2 (F := F)) := by
  unfold sout0_A_0 cellStep
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  refine (View.canon_cons_unit_zero (S := S1x1) hz2 _ _ _).trans ?_
  rw [View.readCov_unit_zero (S := S1x1) _ hz2]
  simp only [View.readAt_eq_ld, Memref.IsWhole.read_unread, View.ld_unit_zero (S := S2048x600) hz2, View.ld_unit_zero (S := S600x600) hz2, View.ld_unit_zero (S := S1x600) hz2, View.ld_unit_zero (S := S1x1) hz2]

theorem out0_A_5_eq (c : Dev nD) (i : grid0.Coords) (arg1 : Memref sig .tc .vmem S2048x600 .f32) (harg1 : arg1.IsWhole) (arg2 : Memref sig .tc .vmem S600x600 .bf16) (harg2 : arg2.IsWhole) (arg3 : Memref sig .tc .vmem S600x600 .bf16) (harg3 : arg3.IsWhole) (arg4 : Memref sig .tc .vmem S1x600 .f32) (harg4 : arg4.IsWhole) (arg5 : Memref sig .tc .vmem S1x600 .f32) (harg5 : arg5.IsWhole) (arg6 : Memref sig .tc .vmem S1x1 .f32) (harg6 : arg6.IsWhole) (arg7 : Memref sig .tc .vmem S1x1 .f32) (harg7 : arg7.IsWhole) (hc0 : cond0_0 i) (x0 : Vec F S2048x600 .f32) (x1 : Vec F S600x600 .bf16) (x2 : Vec F S600x600 .bf16) (x3 : Vec F S1x600 .f32) (x4 : Vec F S1x600 .f32) : out0_A_5 c i arg1 harg1 arg2 harg2 arg3 harg3 arg4 harg4 arg5 harg5 arg6 harg6 arg7 harg7 hc0 x0 x1 x2 x3 x4 = cellStep x0 x1 x2 x3 x4 (k0_pay2 (F := F)) := by
  unfold out0_A_5 cellStep
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  refine (View.canon_unit_zero (S := S1x1) hz2 _ _).trans ?_
  refine (readCov_cons_unit_zero (S := S1x1) _ hz2 _ _ _).trans ?_
  rw [View.readCov_unit_zero (S := S1x1) _ hz2]
  simp only [View.readAt_eq_ld, Memref.IsWhole.read_unread, View.ld_unit_zero (S := S2048x600) hz2, View.ld_unit_zero (S := S600x600) hz2, View.ld_unit_zero (S := S1x600) hz2, View.ld_unit_zero (S := S1x1) hz2]

end Cert.KernelIdeal.Hand

end
-- ==== Proof.ValueAcc.lean ====
/-
  The global-scalar launch's one-element result array after the run.  The cell's value after each point is the
  previous value stepped by that point's blocks (zero before the first); the output block always equals the cell;
  only the last point's output block is written back, and it covers the whole one-element array.
-/
import proofs.«141359_j50938312131078_1_alg».proof.Proof.ValueGlob
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The first point: the cell starts from the zero it was just set to. -/
theorem outsAt0_zero (c : Dev nD) (hn : 0 < cfg0.N) :
    outsAt0 V c 0 hn = (cellStep (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := F)), cellStep (iblk0 V c 0 ⟨0, hn⟩) (iblk0 V c 1 ⟨0, hn⟩) (iblk0 V c 2 ⟨0, hn⟩) (iblk0 V c 3 ⟨0, hn⟩) (iblk0 V c 4 ⟨0, hn⟩) (k0_pay2 (F := F))) := by
  rw [outsAt0, out0_A_5_eq, sout0_A_0_eq]

/-- A later point: the cell continues from what the point before left. -/
theorem outsAt0_succ (c : Dev nD) (n : ℕ) (hn : n + 1 < cfg0.N) :
    outsAt0 V c (n + 1) hn = (cellStep (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2,
      cellStep (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2) := by
  rw [outsAt0, out0_B_5_eq, sout0_B_0_eq]

/-- The output block always holds the cell's value. -/
theorem outsAt0_fst (c : Dev nD) (n : ℕ) (hn : n < cfg0.N) : (outsAt0 V c n hn).1 = (outsAt0 V c n hn).2 := by
  cases n with
  | zero => rw [outsAt0_zero]
  | succ n => rw [outsAt0_succ]

/-- A one-by-one array has one index. -/
theorem idx11_eq (i j : S1x1.Idx) : i = j := by
  funext a; apply Fin.ext
  match a with
  | ⟨0, _⟩ => have h1 : (i 0).val < 1 := (i 0).isLt; have h2 : (j 0).val < 1 := (j 0).isLt; show (i 0).val = (j 0).val; omega
  | ⟨1, _⟩ => have h1 : (i 1).val < 1 := (i 1).isLt; have h2 : (j 1).val < 1 := (j 1).isLt; show (i 1).val = (j 1).val; omega

theorem h15 : 15 < cfg0.N := by rw [show cfg0.N = 16 from N_0]; decide

/-- The output window's block index is zero on both axes at every point. -/
theorem idx_facts0_5 : ∀ t : Fin cfg0.N, win0_5.index t (0 : Fin 2) = 0 ∧ win0_5.index t (1 : Fin 2) = 0 :=
  (by decide +kernel : ∀ t : Fin grid0.N, _)

theorem mem_blk0_5 (t : Fin cfg0.N) (i : S1x1.Idx) :
    i ∈ ((cfg0.win 5).blk t).view.set ↔ ∀ a : Fin 2, win0_5.index t a * S1x1.size a ≤ (i a).val ∧ (i a).val < win0_5.index t a * S1x1.size a + S1x1.size a := by
  show i ∈ ((View.whole main_v8).slice (win0_5.rect t)).set ↔ _
  rw [View.set_slice_whole, Rect.mem_set_unit]
  exact Iff.rfl

/-- THE RESULT ARRAY of the global-scalar launch: the cell's value after the last point. -/
theorem glob_final (c : Dev nD) :
    (dat0 V c).arrAt 5 cfg0.N = (fun i => (outsAt0 V c 15 h15).2 i) := by
  refine (dat0 V c).arrAt_eq_of_cover 5 _ (fun t hf => ?_) (fun i => ?_)
  · have ht : t.val = 15 := by
      have h1 := (flush0_5 t).mp hf
      have h2 : t.val < 16 := lt_of_lt_of_eq t.isLt (show cfg0.N = 16 from N_0)
      omega
    show (cfg0.win 5).cut (grid0.coords t) ((dat0 V c).after 5 t) = _
    rw [after0_5, outsAt0_fst]
    funext j
    obtain ⟨n, hn⟩ := t
    have hn' : n = 15 := ht
    subst hn'
    show (outsAt0 V c 15 hn).2 j = (outsAt0 V c 15 h15).2 (((cfg0.win 5).blk ⟨15, hn⟩).view.emb j)
    rw [idx11_eq (((cfg0.win 5).blk ⟨15, hn⟩).view.emb j) j]
  · refine ⟨⟨15, h15⟩, (flush0_5 ⟨15, h15⟩).mpr (by decide), ?_⟩
    rw [mem_blk0_5]
    obtain ⟨e0, e1⟩ := idx_facts0_5 ⟨15, h15⟩
    intro a
    match a with
    | ⟨0, _⟩ => have h1 : (i 0).val < 1 := (i 0).isLt; show win0_5.index ⟨15, h15⟩ (0 : Fin 2) * 1 ≤ (i 0).val ∧ (i 0).val < win0_5.index ⟨15, h15⟩ (0 : Fin 2) * 1 + 1; omega
    | ⟨1, _⟩ => have h1 : (i 1).val < 1 := (i 1).isLt; show win0_5.index ⟨15, h15⟩ (1 : Fin 2) * 1 ≤ (i 1).val ∧ (i 1).val < win0_5.index ⟨15, h15⟩ (1 : Fin 2) * 1 + 1; omega

end

end Cert.KernelIdeal.Hand

end
-- ==== Proof.ValueRowFinal.lean ====
/-
  The per-row launch's result array after the run: row `b` of the 32768-by-1 array is written once, by the grid
  point `b / 256`, at row `b % 256` of that point's output block; the blocks tile the array.
-/
import proofs.«141359_j50938312131078_1_alg».proof.Proof.FrameRow
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The grid point whose block holds row `i`, and the row's place in that block. -/
def tOf (i : S32768x1.Idx) : Fin cfg1.N :=
  ⟨(i 0).val / 256, by have h : (i 0).val < 32768 := (i 0).isLt; rw [show cfg1.N = 128 from N_1]; omega⟩
def locOf (i : S32768x1.Idx) : S256x1.Idx :=
  ValueIdx.ix2 (⟨(i 0).val % 256, Nat.mod_lt _ (by decide)⟩ : Fin 256) (0 : Fin 1)

/-- The result array, row by row: the storing point's output block at the row's place. -/
def rowFinal (c : Dev nD) : S32768x1.Idx → Elt F .f32 := fun i =>
  rowOut (iblk1 V c 0 (tOf i)) (iblk1 V c 1 (tOf i)) (iblk1 V c 2 (tOf i)) (iblk1 V c 3 (tOf i)) (iblk1 V c 4 (tOf i)) (iblk1 V c 5 (tOf i)) (iblk1 V c 6 (tOf i)) (iblk1 V c 7 (tOf i)) (iblk1 V c 8 (tOf i)) (iblk1 V c 9 (tOf i)) (iblk1 V c 10 (tOf i)) (iblk1 V c 11 (tOf i)) (iblk1 V c 12 (tOf i)) (iblk1 V c 13 (tOf i)) (iblk1 V c 14 (tOf i)) (iblk1 V c 15 (tOf i)) (iblk1 V c 16 (tOf i)) (locOf i)

/-- The output window's block index is the grid point on the row axis and zero on the other. -/
theorem idx_facts1_17 : ∀ t : Fin cfg1.N, win1_17.index t (0 : Fin 2) = t.val ∧ win1_17.index t (1 : Fin 2) = 0 :=
  (by decide +kernel : ∀ t : Fin grid1.N, _)

theorem mem_blk1_17 (t : Fin cfg1.N) (i : S32768x1.Idx) :
    i ∈ ((cfg1.win 17).blk t).view.set ↔ ∀ a : Fin 2, win1_17.index t a * S256x1.size a ≤ (i a).val ∧ (i a).val < win1_17.index t a * S256x1.size a + S256x1.size a := by
  show i ∈ ((View.whole main_v9).slice (win1_17.rect t)).set ↔ _
  rw [View.set_slice_whole, Rect.mem_set_unit]
  exact Iff.rfl

/-- What point `t` writes back is block `t` of `rowFinal`. -/
theorem flushed1_eq (c : Dev nD) (t : Fin cfg1.N) :
    (dat1 V c).flushed 17 t = ((cfg1.win 17).blk t).view.read (Elt F) (rowFinal V c) := by
  show (cfg1.win 17).cut (grid1.coords t) ((dat1 V c).after 17 t) = _
  rw [after1_17]
  obtain ⟨e0, e1⟩ := idx_facts1_17 t
  funext j
  show rowOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) j = rowFinal V c (((cfg1.win 17).blk t).view.emb j)
  have hj0 : (j 0).val < 256 := (j 0).isLt
  have hj1 : (j 1).val < 1 := (j 1).isLt
  have h0 : ((((cfg1.win 17).blk t).view.emb j) 0).val = win1_17.index t (0 : Fin 2) * 256 + 1 * (j 0).val := rfl
  have ht : tOf (((cfg1.win 17).blk t).view.emb j) = t := Fin.ext (by
    show ((((cfg1.win 17).blk t).view.emb j) 0).val / 256 = t.val
    rw [h0, e0]; omega)
  have hl : locOf (((cfg1.win 17).blk t).view.emb j) = j := by
    funext a; apply Fin.ext
    match a with
    | ⟨0, _⟩ => show ((((cfg1.win 17).blk t).view.emb j) 0).val % 256 = (j 0).val; rw [h0, e0]; omega
    | ⟨1, _⟩ => show 0 = (j 1).val; omega
  unfold rowFinal
  rw [ht, hl]

/-- THE RESULT ARRAY of the per-row launch. -/
theorem row_final (c : Dev nD) : (dat1 V c).arrAt 17 cfg1.N = rowFinal V c := by
  refine (dat1 V c).arrAt_eq_of_cover 17 _ (fun t _ => flushed1_eq V c t) (fun i => ?_)
  refine ⟨tOf i, flush1_17 (tOf i), ?_⟩
  rw [mem_blk1_17]
  obtain ⟨e0, e1⟩ := idx_facts1_17 (tOf i)
  have hi0 : (i 0).val < 32768 := (i 0).isLt
  have hi1 : (i 1).val < 1 := (i 1).isLt
  have ht : (tOf i).val = (i 0).val / 256 := rfl
  intro a
  match a with
  | ⟨0, _⟩ => show win1_17.index (tOf i) (0 : Fin 2) * 256 ≤ (i 0).val ∧ (i 0).val < win1_17.index (tOf i) (0 : Fin 2) * 256 + 256; omega
  | ⟨1, _⟩ => show win1_17.index (tOf i) (1 : Fin 2) * 1 ≤ (i 1).val ∧ (i 1).val < win1_17.index (tOf i) (1 : Fin 2) * 1 + 1; omega

end

end Cert.KernelIdeal.Hand

end
-- ==== Proof.ValueBlocks.lean ====
/-
  The blocks the two launches read, as entries of the arrays: a batch window's block at grid point `t` is rows
  `B·t … B·t + B − 1` of its array (`B` the block's row count), a parameter window's block is its whole array.
-/
import proofs.«141359_j50938312131078_1_alg».proof.Proof.FrameGlobRun
import proofs.«141359_j50938312131078_1_alg».proof.Proof.FrameRow
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt F) ((c : Thread nD τ).loc b))

/-! ## The per-row launch -/

theorem idx_facts1_0 : ∀ t : Fin cfg1.N, win1_0.index t (0 : Fin 2) = t.val ∧ win1_0.index t (1 : Fin 2) = 0 :=
  (by decide +kernel : ∀ t : Fin grid1.N, _)
theorem iblk1_0_apply (c : Dev nD) (t : Fin cfg1.N) (r : Fin 256) (j : Fin 600) :
    iblk1 V c 0 t (ix2 r j) = (V c (Pipeline.arrRef spec1 0) : S32768x600.Idx → Elt F .f32) (ix2 (⟨256 * t.val + r.val, by
      have hr := r.isLt; have ht : t.val < 128 := lt_of_lt_of_eq t.isLt N_1; omega⟩ : Fin 32768) j) := by
  show V c (Pipeline.arrRef spec1 0) (((cfg1.win 0).blk t).view.emb (ix2 r j)) = _
  refine congrArg _ ?_
  obtain ⟨e0, e1⟩ := idx_facts1_0 t
  funext a; apply Fin.ext
  match a with
  | ⟨0, _⟩ => show win1_0.index t (0 : Fin 2) * 256 + 1 * r.val = 256 * t.val + r.val; omega
  | ⟨1, _⟩ => show win1_0.index t (1 : Fin 2) * 600 + 1 * j.val = j.val; omega

theorem idx_facts1_1 : ∀ t : Fin cfg1.N, win1_1.index t (0 : Fin 2) = t.val ∧ win1_1.index t (1 : Fin 2) = 0 :=
  (by decide +kernel : ∀ t : Fin grid1.N, _)
theorem iblk1_1_apply (c : Dev nD) (t : Fin cfg1.N) (r : Fin 256) (j : Fin 138) :
    iblk1 V c 1 t (ix2 r j) = (V c (Pipeline.arrRef spec1 1) : S32768x138.Idx → Elt F .f32) (ix2 (⟨256 * t.val + r.val, by
      have hr := r.isLt; have ht : t.val < 128 := lt_of_lt_of_eq t.isLt N_1; omega⟩ : Fin 32768) j) := by
  show V c (Pipeline.arrRef spec1 1) (((cfg1.win 1).blk t).view.emb (ix2 r j)) = _
  refine congrArg _ ?_
  obtain ⟨e0, e1⟩ := idx_facts1_1 t
  funext a; apply Fin.ext
  match a with
  | ⟨0, _⟩ => show win1_1.index t (0 : Fin 2) * 256 + 1 * r.val = 256 * t.val + r.val; omega
  | ⟨1, _⟩ => show win1_1.index t (1 : Fin 2) * 138 + 1 * j.val = j.val; omega

theorem idx_facts1_2 : ∀ t : Fin cfg1.N, win1_2.index t (0 : Fin 2) = t.val ∧ win1_2.index t (1 : Fin 2) = 0 :=
  (by decide +kernel : ∀ t : Fin grid1.N, _)
theorem iblk1_2_apply (c : Dev nD) (t : Fin cfg1.N) (r : Fin 256) (j : Fin 600) :
    iblk1 V c 2 t (ix2 r j) = (V c (Pipeline.arrRef spec1 2) : S32768x600.Idx → Elt F .f32) (ix2 (⟨256 * t.val + r.val, by
      have hr := r.isLt; have ht : t.val < 128 := lt_of_lt_of_eq t.isLt N_1; omega⟩ : Fin 32768) j) := by
  show V c (Pipeline.arrRef spec1 2) (((cfg1.win 2).blk t).view.emb (ix2 r j)) = _
  refine congrArg _ ?_
  obtain ⟨e0, e1⟩ := idx_facts1_2 t
  funext a; apply Fin.ext
  match a with
  | ⟨0, _⟩ => show win1_2.index t (0 : Fin 2) * 256 + 1 * r.val = 256 * t.val + r.val; omega
  | ⟨1, _⟩ => show win1_2.index t (1 : Fin 2) * 600 + 1 * j.val = j.val; omega

theorem idx_facts1_3 : ∀ t : Fin cfg1.N, win1_3.index t (0 : Fin 2) = t.val ∧ win1_3.index t (1 : Fin 2) = 0 :=
  (by decide +kernel : ∀ t : Fin grid1.N, _)
theorem iblk1_3_apply (c : Dev nD) (t : Fin cfg1.N) (r : Fin 256) (j : Fin 600) :
    iblk1 V c 3 t (ix2 r j) = (V c (Pipeline.arrRef spec1 3) : S32768x600.Idx → Elt F .f32) (ix2 (⟨256 * t.val + r.val, by
      have hr := r.isLt; have ht : t.val < 128 := lt_of_lt_of_eq t.isLt N_1; omega⟩ : Fin 32768) j) := by
  show V c (Pipeline.arrRef spec1 3) (((cfg1.win 3).blk t).view.emb (ix2 r j)) = _
  refine congrArg _ ?_
  obtain ⟨e0, e1⟩ := idx_facts1_3 t
  funext a; apply Fin.ext
  match a with
  | ⟨0, _⟩ => show win1_3.index t (0 : Fin 2) * 256 + 1 * r.val = 256 * t.val + r.val; omega
  | ⟨1, _⟩ => show win1_3.index t (1 : Fin 2) * 600 + 1 * j.val = j.val; omega

theorem idx_facts1_4 : ∀ t : Fin cfg1.N, win1_4.index t (0 : Fin 2) = t.val ∧ win1_4.index t (1 : Fin 2) = 0 :=
  (by decide +kernel : ∀ t : Fin grid1.N, _)
theorem iblk1_4_apply (c : Dev nD) (t : Fin cfg1.N) (r : Fin 256) (j : Fin 138) :
    iblk1 V c 4 t (ix2 r j) = (V c (Pipeline.arrRef spec1 4) : S32768x138.Idx → Elt F .f32) (ix2 (⟨256 * t.val + r.val, by
      have hr := r.isLt; have ht : t.val < 128 := lt_of_lt_of_eq t.isLt N_1; omega⟩ : Fin 32768) j) := by
  show V c (Pipeline.arrRef spec1 4) (((cfg1.win 4).blk t).view.emb (ix2 r j)) = _
  refine congrArg _ ?_
  obtain ⟨e0, e1⟩ := idx_facts1_4 t
  funext a; apply Fin.ext
  match a with
  | ⟨0, _⟩ => show win1_4.index t (0 : Fin 2) * 256 + 1 * r.val = 256 * t.val + r.val; omega
  | ⟨1, _⟩ => show win1_4.index t (1 : Fin 2) * 138 + 1 * j.val = j.val; omega

theorem idx_facts1_5 : ∀ t : Fin cfg1.N, win1_5.index t (0 : Fin 2) = t.val ∧ win1_5.index t (1 : Fin 2) = 0 :=
  (by decide +kernel : ∀ t : Fin grid1.N, _)
theorem iblk1_5_apply (c : Dev nD) (t : Fin cfg1.N) (r : Fin 256) (j : Fin 138) :
    iblk1 V c 5 t (ix2 r j) = (V c (Pipeline.arrRef spec1 5) : S32768x138.Idx → Elt F .f32) (ix2 (⟨256 * t.val + r.val, by
      have hr := r.isLt; have ht : t.val < 128 := lt_of_lt_of_eq t.isLt N_1; omega⟩ : Fin 32768) j) := by
  show V c (Pipeline.arrRef spec1 5) (((cfg1.win 5).blk t).view.emb (ix2 r j)) = _
  refine congrArg _ ?_
  obtain ⟨e0, e1⟩ := idx_facts1_5 t
  funext a; apply Fin.ext
  match a with
  | ⟨0, _⟩ => show win1_5.index t (0 : Fin 2) * 256 + 1 * r.val = 256 * t.val + r.val; omega
  | ⟨1, _⟩ => show win1_5.index t (1 : Fin 2) * 138 + 1 * j.val = j.val; omega

theorem idx_facts1_6 : ∀ t : Fin cfg1.N, win1_6.index t (0 : Fin 2) = t.val ∧ win1_6.index t (1 : Fin 2) = 0 :=
  (by decide +kernel : ∀ t : Fin grid1.N, _)
theorem iblk1_6_apply (c : Dev nD) (t : Fin cfg1.N) (r : Fin 256) (j : Fin 300) :
    iblk1 V c 6 t (ix2 r j) = (V c (Pipeline.arrRef spec1 6) : S32768x300.Idx → Elt F .f32) (ix2 (⟨256 * t.val + r.val, by
      have hr := r.isLt; have ht : t.val < 128 := lt_of_lt_of_eq t.isLt N_1; omega⟩ : Fin 32768) j) := by
  show V c (Pipeline.arrRef spec1 6) (((cfg1.win 6).blk t).view.emb (ix2 r j)) = _
  refine congrArg _ ?_
  obtain ⟨e0, e1⟩ := idx_facts1_6 t
  funext a; apply Fin.ext
  match a with
  | ⟨0, _⟩ => show win1_6.index t (0 : Fin 2) * 256 + 1 * r.val = 256 * t.val + r.val; omega
  | ⟨1, _⟩ => show win1_6.index t (1 : Fin 2) * 300 + 1 * j.val = j.val; omega

theorem idx_facts1_7 : ∀ t : Fin cfg1.N, win1_7.index t (0 : Fin 2) = t.val ∧ win1_7.index t (1 : Fin 2) = 0 :=
  (by decide +kernel : ∀ t : Fin grid1.N, _)
theorem iblk1_7_apply (c : Dev nD) (t : Fin cfg1.N) (r : Fin 256) (j : Fin 300) :
    iblk1 V c 7 t (ix2 r j) = (V c (Pipeline.arrRef spec1 7) : S32768x300.Idx → Elt F .f32) (ix2 (⟨256 * t.val + r.val, by
      have hr := r.isLt; have ht : t.val < 128 := lt_of_lt_of_eq t.isLt N_1; omega⟩ : Fin 32768) j) := by
  show V c (Pipeline.arrRef spec1 7) (((cfg1.win 7).blk t).view.emb (ix2 r j)) = _
  refine congrArg _ ?_
  obtain ⟨e0, e1⟩ := idx_facts1_7 t
  funext a; apply Fin.ext
  match a with
  | ⟨0, _⟩ => show win1_7.index t (0 : Fin 2) * 256 + 1 * r.val = 256 * t.val + r.val; omega
  | ⟨1, _⟩ => show win1_7.index t (1 : Fin 2) * 300 + 1 * j.val = j.val; omega

theorem idx_facts1_8 : ∀ t : Fin cfg1.N, win1_8.index t (0 : Fin 2) = t.val ∧ win1_8.index t (1 : Fin 2) = 0 :=
  (by decide +kernel : ∀ t : Fin grid1.N, _)
theorem iblk1_8_apply (c : Dev nD) (t : Fin cfg1.N) (r : Fin 256) (j : Fin 411) :
    iblk1 V c 8 t (ix2 r j) = (V c (Pipeline.arrRef spec1 8) : S32768x411.Idx → Elt F .f32) (ix2 (⟨256 * t.val + r.val, by
      have hr := r.isLt; have ht : t.val < 128 := lt_of_lt_of_eq t.isLt N_1; omega⟩ : Fin 32768) j) := by
  show V c (Pipeline.arrRef spec1 8) (((cfg1.win 8).blk t).view.emb (ix2 r j)) = _
  refine congrArg _ ?_
  obtain ⟨e0, e1⟩ := idx_facts1_8 t
  funext a; apply Fin.ext
  match a with
  | ⟨0, _⟩ => show win1_8.index t (0 : Fin 2) * 256 + 1 * r.val = 256 * t.val + r.val; omega
  | ⟨1, _⟩ => show win1_8.index t (1 : Fin 2) * 411 + 1 * j.val = j.val; omega

theorem idx_facts1_9 : ∀ t : Fin cfg1.N, win1_9.index t (0 : Fin 2) = 0 ∧ win1_9.index t (1 : Fin 2) = 0 :=
  (by decide +kernel : ∀ t : Fin grid1.N, _)
theorem iblk1_9_apply (c : Dev nD) (t : Fin cfg1.N) (r : Fin 600) (j : Fin 600) :
    iblk1 V c 9 t (ix2 r j) = (V c (Pipeline.arrRef spec1 9) : S600x600.Idx → Elt F .bf16) (ix2 (⟨r.val, by
      have hr := r.isLt; omega⟩ : Fin 600) j) := by
  show V c (Pipeline.arrRef spec1 9) (((cfg1.win 9).blk t).view.emb (ix2 r j)) = _
  refine congrArg _ ?_
  obtain ⟨e0, e1⟩ := idx_facts1_9 t
  funext a; apply Fin.ext
  match a with
  | ⟨0, _⟩ => show win1_9.index t (0 : Fin 2) * 600 + 1 * r.val = r.val; omega
  | ⟨1, _⟩ => show win1_9.index t (1 : Fin 2) * 600 + 1 * j.val = j.val; omega

theorem idx_facts1_10 : ∀ t : Fin cfg1.N, win1_10.index t (0 : Fin 2) = 0 ∧ win1_10.index t (1 : Fin 2) = 0 :=
  (by decide +kernel : ∀ t : Fin grid1.N, _)
theorem iblk1_10_apply (c : Dev nD) (t : Fin cfg1.N) (r : Fin 138) (j : Fin 600) :
    iblk1 V c 10 t (ix2 r j) = (V c (Pipeline.arrRef spec1 10) : S138x600.Idx → Elt F .bf16) (ix2 (⟨r.val, by
      have hr := r.isLt; omega⟩ : Fin 138) j) := by
  show V c (Pipeline.arrRef spec1 10) (((cfg1.win 10).blk t).view.emb (ix2 r j)) = _
  refine congrArg _ ?_
  obtain ⟨e0, e1⟩ := idx_facts1_10 t
  funext a; apply Fin.ext
  match a with
  | ⟨0, _⟩ => show win1_10.index t (0 : Fin 2) * 138 + 1 * r.val = r.val; omega
  | ⟨1, _⟩ => show win1_10.index t (1 : Fin 2) * 600 + 1 * j.val = j.val; omega

theorem idx_facts1_11 : ∀ t : Fin cfg1.N, win1_11.index t (0 : Fin 2) = 0 ∧ win1_11.index t (1 : Fin 2) = 0 :=
  (by decide +kernel : ∀ t : Fin grid1.N, _)
theorem iblk1_11_apply (c : Dev nD) (t : Fin cfg1.N) (r : Fin 822) (j : Fin 600) :
    iblk1 V c 11 t (ix2 r j) = (V c (Pipeline.arrRef spec1 11) : S822x600.Idx → Elt F .bf16) (ix2 (⟨r.val, by
      have hr := r.isLt; omega⟩ : Fin 822) j) := by
  show V c (Pipeline.arrRef spec1 11) (((cfg1.win 11).blk t).view.emb (ix2 r j)) = _
  refine congrArg _ ?_
  obtain ⟨e0, e1⟩ := idx_facts1_11 t
  funext a; apply Fin.ext
  match a with
  | ⟨0, _⟩ => show win1_11.index t (0 : Fin 2) * 822 + 1 * r.val = r.val; omega
  | ⟨1, _⟩ => show win1_11.index t (1 : Fin 2) * 600 + 1 * j.val = j.val; omega

theorem idx_facts1_12 : ∀ t : Fin cfg1.N, win1_12.index t (0 : Fin 2) = 0 ∧ win1_12.index t (1 : Fin 2) = 0 :=
  (by decide +kernel : ∀ t : Fin grid1.N, _)
theorem iblk1_12_apply (c : Dev nD) (t : Fin cfg1.N) (r : Fin 822) (j : Fin 822) :
    iblk1 V c 12 t (ix2 r j) = (V c (Pipeline.arrRef spec1 12) : S822x822.Idx → Elt F .bf16) (ix2 (⟨r.val, by
      have hr := r.isLt; omega⟩ : Fin 822) j) := by
  show V c (Pipeline.arrRef spec1 12) (((cfg1.win 12).blk t).view.emb (ix2 r j)) = _
  refine congrArg _ ?_
  obtain ⟨e0, e1⟩ := idx_facts1_12 t
  funext a; apply Fin.ext
  match a with
  | ⟨0, _⟩ => show win1_12.index t (0 : Fin 2) * 822 + 1 * r.val = r.val; omega
  | ⟨1, _⟩ => show win1_12.index t (1 : Fin 2) * 822 + 1 * j.val = j.val; omega

theorem idx_facts1_13 : ∀ t : Fin cfg1.N, win1_13.index t (0 : Fin 2) = 0 ∧ win1_13.index t (1 : Fin 2) = 0 :=
  (by decide +kernel : ∀ t : Fin grid1.N, _)
theorem iblk1_13_apply (c : Dev nD) (t : Fin cfg1.N) (r : Fin 1) (j : Fin 138) :
    iblk1 V c 13 t (ix2 r j) = (V c (Pipeline.arrRef spec1 13) : S1x138.Idx → Elt F .f32) (ix2 (⟨r.val, by
      have hr := r.isLt; omega⟩ : Fin 1) j) := by
  show V c (Pipeline.arrRef spec1 13) (((cfg1.win 13).blk t).view.emb (ix2 r j)) = _
  refine congrArg _ ?_
  obtain ⟨e0, e1⟩ := idx_facts1_13 t
  funext a; apply Fin.ext
  match a with
  | ⟨0, _⟩ => show win1_13.index t (0 : Fin 2) * 1 + 1 * r.val = r.val; omega
  | ⟨1, _⟩ => show win1_13.index t (1 : Fin 2) * 138 + 1 * j.val = j.val; omega

theorem idx_facts1_14 : ∀ t : Fin cfg1.N, win1_14.index t (0 : Fin 2) = 0 ∧ win1_14.index t (1 : Fin 2) = 0 :=
  (by decide +kernel : ∀ t : Fin grid1.N, _)
theorem iblk1_14_apply (c : Dev nD) (t : Fin cfg1.N) (r : Fin 1) (j : Fin 138) :
    iblk1 V c 14 t (ix2 r j) = (V c (Pipeline.arrRef spec1 14) : S1x138.Idx → Elt F .f32) (ix2 (⟨r.val, by
      have hr := r.isLt; omega⟩ : Fin 1) j) := by
  show V c (Pipeline.arrRef spec1 14) (((cfg1.win 14).blk t).view.emb (ix2 r j)) = _
  refine congrArg _ ?_
  obtain ⟨e0, e1⟩ := idx_facts1_14 t
  funext a; apply Fin.ext
  match a with
  | ⟨0, _⟩ => show win1_14.index t (0 : Fin 2) * 1 + 1 * r.val = r.val; omega
  | ⟨1, _⟩ => show win1_14.index t (1 : Fin 2) * 138 + 1 * j.val = j.val; omega

theorem idx_facts1_15 : ∀ t : Fin cfg1.N, win1_15.index t (0 : Fin 2) = 0 ∧ win1_15.index t (1 : Fin 2) = 0 :=
  (by decide +kernel : ∀ t : Fin grid1.N, _)
theorem iblk1_15_apply (c : Dev nD) (t : Fin cfg1.N) (r : Fin 1) (j : Fin 138) :
    iblk1 V c 15 t (ix2 r j) = (V c (Pipeline.arrRef spec1 15) : S1x138.Idx → Elt F .f32) (ix2 (⟨r.val, by
      have hr := r.isLt; omega⟩ : Fin 1) j) := by
  show V c (Pipeline.arrRef spec1 15) (((cfg1.win 15).blk t).view.emb (ix2 r j)) = _
  refine congrArg _ ?_
  obtain ⟨e0, e1⟩ := idx_facts1_15 t
  funext a; apply Fin.ext
  match a with
  | ⟨0, _⟩ => show win1_15.index t (0 : Fin 2) * 1 + 1 * r.val = r.val; omega
  | ⟨1, _⟩ => show win1_15.index t (1 : Fin 2) * 138 + 1 * j.val = j.val; omega

theorem idx_facts1_16 : ∀ t : Fin cfg1.N, win1_16.index t (0 : Fin 2) = 0 ∧ win1_16.index t (1 : Fin 2) = 0 :=
  (by decide +kernel : ∀ t : Fin grid1.N, _)
theorem iblk1_16_apply (c : Dev nD) (t : Fin cfg1.N) (r : Fin 1) (j : Fin 600) :
    iblk1 V c 16 t (ix2 r j) = (V c (Pipeline.arrRef spec1 16) : S1x600.Idx → Elt F .f32) (ix2 (⟨r.val, by
      have hr := r.isLt; omega⟩ : Fin 1) j) := by
  show V c (Pipeline.arrRef spec1 16) (((cfg1.win 16).blk t).view.emb (ix2 r j)) = _
  refine congrArg _ ?_
  obtain ⟨e0, e1⟩ := idx_facts1_16 t
  funext a; apply Fin.ext
  match a with
  | ⟨0, _⟩ => show win1_16.index t (0 : Fin 2) * 1 + 1 * r.val = r.val; omega
  | ⟨1, _⟩ => show win1_16.index t (1 : Fin 2) * 600 + 1 * j.val = j.val; omega

/-! ## The global-scalar launch -/

theorem idx_facts0_0 : ∀ t : Fin cfg0.N, win0_0.index t (0 : Fin 2) = t.val ∧ win0_0.index t (1 : Fin 2) = 0 :=
  (by decide +kernel : ∀ t : Fin grid0.N, _)
theorem iblk0_0_apply (c : Dev nD) (t : Fin cfg0.N) (r : Fin 2048) (j : Fin 600) :
    iblk0 V c 0 t (ix2 r j) = (V c (Pipeline.arrRef spec0 0) : S32768x600.Idx → Elt F .f32) (ix2 (⟨2048 * t.val + r.val, by
      have hr := r.isLt; have ht : t.val < 16 := lt_of_lt_of_eq t.isLt N_0; omega⟩ : Fin 32768) j) := by
  show V c (Pipeline.arrRef spec0 0) (((cfg0.win 0).blk t).view.emb (ix2 r j)) = _
  refine congrArg _ ?_
  obtain ⟨e0, e1⟩ := idx_facts0_0 t
  funext a; apply Fin.ext
  match a with
  | ⟨0, _⟩ => show win0_0.index t (0 : Fin 2) * 2048 + 1 * r.val = 2048 * t.val + r.val; omega
  | ⟨1, _⟩ => show win0_0.index t (1 : Fin 2) * 600 + 1 * j.val = j.val; omega

theorem idx_facts0_1 : ∀ t : Fin cfg0.N, win0_1.index t (0 : Fin 2) = 0 ∧ win0_1.index t (1 : Fin 2) = 0 :=
  (by decide +kernel : ∀ t : Fin grid0.N, _)
theorem iblk0_1_apply (c : Dev nD) (t : Fin cfg0.N) (r : Fin 600) (j : Fin 600) :
    iblk0 V c 1 t (ix2 r j) = (V c (Pipeline.arrRef spec0 1) : S600x600.Idx → Elt F .bf16) (ix2 (⟨r.val, by
      have hr := r.isLt; omega⟩ : Fin 600) j) := by
  show V c (Pipeline.arrRef spec0 1) (((cfg0.win 1).blk t).view.emb (ix2 r j)) = _
  refine congrArg _ ?_
  obtain ⟨e0, e1⟩ := idx_facts0_1 t
  funext a; apply Fin.ext
  match a with
  | ⟨0, _⟩ => show win0_1.index t (0 : Fin 2) * 600 + 1 * r.val = r.val; omega
  | ⟨1, _⟩ => show win0_1.index t (1 : Fin 2) * 600 + 1 * j.val = j.val; omega

theorem idx_facts0_2 : ∀ t : Fin cfg0.N, win0_2.index t (0 : Fin 2) = 0 ∧ win0_2.index t (1 : Fin 2) = 0 :=
  (by decide +kernel : ∀ t : Fin grid0.N, _)
theorem iblk0_2_apply (c : Dev nD) (t : Fin cfg0.N) (r : Fin 600) (j : Fin 600) :
    iblk0 V c 2 t (ix2 r j) = (V c (Pipeline.arrRef spec0 2) : S600x600.Idx → Elt F .bf16) (ix2 (⟨r.val, by
      have hr := r.isLt; omega⟩ : Fin 600) j) := by
  show V c (Pipeline.arrRef spec0 2) (((cfg0.win 2).blk t).view.emb (ix2 r j)) = _
  refine congrArg _ ?_
  obtain ⟨e0, e1⟩ := idx_facts0_2 t
  funext a; apply Fin.ext
  match a with
  | ⟨0, _⟩ => show win0_2.index t (0 : Fin 2) * 600 + 1 * r.val = r.val; omega
  | ⟨1, _⟩ => show win0_2.index t (1 : Fin 2) * 600 + 1 * j.val = j.val; omega

theorem idx_facts0_3 : ∀ t : Fin cfg0.N, win0_3.index t (0 : Fin 2) = 0 ∧ win0_3.index t (1 : Fin 2) = 0 :=
  (by decide +kernel : ∀ t : Fin grid0.N, _)
theorem iblk0_3_apply (c : Dev nD) (t : Fin cfg0.N) (r : Fin 1) (j : Fin 600) :
    iblk0 V c 3 t (ix2 r j) = (V c (Pipeline.arrRef spec0 3) : S1x600.Idx → Elt F .f32) (ix2 (⟨r.val, by
      have hr := r.isLt; omega⟩ : Fin 1) j) := by
  show V c (Pipeline.arrRef spec0 3) (((cfg0.win 3).blk t).view.emb (ix2 r j)) = _
  refine congrArg _ ?_
  obtain ⟨e0, e1⟩ := idx_facts0_3 t
  funext a; apply Fin.ext
  match a with
  | ⟨0, _⟩ => show win0_3.index t (0 : Fin 2) * 1 + 1 * r.val = r.val; omega
  | ⟨1, _⟩ => show win0_3.index t (1 : Fin 2) * 600 + 1 * j.val = j.val; omega

theorem idx_facts0_4 : ∀ t : Fin cfg0.N, win0_4.index t (0 : Fin 2) = 0 ∧ win0_4.index t (1 : Fin 2) = 0 :=
  (by decide +kernel : ∀ t : Fin grid0.N, _)
theorem iblk0_4_apply (c : Dev nD) (t : Fin cfg0.N) (r : Fin 1) (j : Fin 600) :
    iblk0 V c 4 t (ix2 r j) = (V c (Pipeline.arrRef spec0 4) : S1x600.Idx → Elt F .f32) (ix2 (⟨r.val, by
      have hr := r.isLt; omega⟩ : Fin 1) j) := by
  show V c (Pipeline.arrRef spec0 4) (((cfg0.win 4).blk t).view.emb (ix2 r j)) = _
  refine congrArg _ ?_
  obtain ⟨e0, e1⟩ := idx_facts0_4 t
  funext a; apply Fin.ext
  match a with
  | ⟨0, _⟩ => show win0_4.index t (0 : Fin 2) * 1 + 1 * r.val = r.val; omega
  | ⟨1, _⟩ => show win0_4.index t (1 : Fin 2) * 600 + 1 * j.val = j.val; omega

end

end Cert.KernelIdeal.Hand

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibAxisSum.lean ====
/-
  Sums along one axis of a matrix, read at an index. A reduction by addition of an [A, B] array along its second axis,
  started from the zero word, has at `r` the value `∑ k, v (r, k)`; along its first axis it has at `c` the value
  `∑ r, v (r, c)`. On the extended reals the sum has no rounding and no order.
-/
import Idealize.ShloMosaic.PureOps.Ideal.Laws
import Idealize.ShloMosaic.Lib.ValueIdx

noncomputable section

open scoped BigOperators
open Idealize.ShloMosaic Idealize.ShloMosaic.ValueIdx

namespace Cert.Lib.AxisSum

/-- The sum along the second axis (the lanes) at row `r`. -/
theorem laneSum_apply {A B : ℕ} (v : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (r : Fin A) :
    multiReduction (F := Ideal) .add [1] ⟨1, ![A]⟩ v 0x00000000#32 h hφ hacc (ix1 r) = ∑ k : Fin B, v (ix2 r k) := by
  refine (Ideal.multiReduction_add_single v 0x00000000#32 h hφ hacc (ix1 r)).trans ?_
  refine Finset.sum_congr rfl fun k _ => congrArg v ?_
  funext c
  match c with
  | ⟨0, _⟩ => exact Fin.ext rfl
  | ⟨1, _⟩ => exact Fin.ext rfl

/-- The sum along the first axis (the rows) at column `c`. -/
theorem rowSum_apply {A B : ℕ} (v : FVec Ideal ⟨2, ![A, B]⟩ .f32)
    (h : (⟨2, ![A, B]⟩ : Shape).Reduces [0] ⟨1, ![B]⟩) (hφ : FKind.Formats .f32)
    (hacc : (0x00000000#32 : BitVec 32) = 0x00000000#32) (c : Fin B) :
    multiReduction (F := Ideal) .add [0] ⟨1, ![B]⟩ v 0x00000000#32 h hφ hacc (ix1 c) = ∑ r : Fin A, v (ix2 r c) := by
  refine (Ideal.multiReduction_add_single v 0x00000000#32 h hφ hacc (ix1 c)).trans ?_
  refine Finset.sum_congr rfl fun k _ => congrArg v ?_
  funext a
  match a with
  | ⟨0, _⟩ => exact Fin.ext rfl
  | ⟨1, _⟩ => exact Fin.ext rfl

end Cert.Lib.AxisSum

end
-- ==== Proof.LibColumnSum.lean ====
/-
  Row sums kept as a column, read at a row. A reduction by addition along the second axis of an [A, B] array, recast to
  the column [A, 1], has at `(r, 0)` the value `∑ j, v (r, j)`. Three forms of the summand that occur together
  with it: the positive part `max x 0`, the absolute value `max x (-x)`, and the positive part of the negation
  `max (0 - x) 0`; the zero they compare with and subtract from is the zero word's value, the extended real `0`.
-/
import proofs.«141359_j50938312131078_1_alg».proof.Proof.LibColumn
import proofs.«141359_j50938312131078_1_alg».proof.Proof.LibAxisSum

noncomputable section

open scoped BigOperators
open Idealize.ShloMosaic Idealize.ShloMosaic.ValueIdx

namespace Cert.Lib.ColumnSum

variable {A B : ℕ}

/-- The row sums as a column, at row `r`. -/
theorem columnSum_apply (v : FVec Ideal ⟨2, ![A, B]⟩ .f32)
    (h : (⟨2, ![A, B]⟩ : Shape).Reduces [1] ⟨1, ![A]⟩) (hφ : FKind.Formats .f32)
    (hacc : (0x00000000#32 : BitVec 32) = 0x00000000#32)
    (hc : (⟨1, ![A]⟩ : Shape).ShapeCasts ⟨2, ![A, 1]⟩) (r : Fin A) (u : Fin 1) :
    shapeCast ⟨2, ![A, 1]⟩ (multiReduction (F := Ideal) .add [1] ⟨1, ![A]⟩ v 0x00000000#32 h hφ hacc) hc (ix2 r u)
      = ∑ j : Fin B, v (ix2 r j) :=
  (Cert.Lib.Column.shapeCast_a_a1_apply _ hc r u).trans (Cert.Lib.AxisSum.laneSum_apply v h hφ hacc r)

/-- The row sums of the positive parts. -/
theorem reluSum_apply (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32)
    (hc : (⟨1, ![A]⟩ : Shape).ShapeCasts ⟨2, ![A, 1]⟩) (r : Fin A) (u : Fin 1) :
    shapeCast ⟨2, ![A, 1]⟩ (multiReduction (F := Ideal) .add [1] ⟨1, ![A]⟩
        (maximumf x (broadcast ⟨2, ![A, B]⟩ (Scalar.ofBits .f32 0x00000000#32 : Ideal .f32)))
        0x00000000#32 h hφ hacc) hc (ix2 r u)
      = ∑ j : Fin B, max (x (ix2 r j)) 0 :=
  (columnSum_apply _ h hφ hacc hc r u).trans
    (Finset.sum_congr rfl fun j _ => congrArg (max (x (ix2 r j))) Ideal.ofBits_zero_f32)

/-- The row sums of the absolute values. -/
theorem absSum_apply (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32)
    (hc : (⟨1, ![A]⟩ : Shape).ShapeCasts ⟨2, ![A, 1]⟩) (r : Fin A) (u : Fin 1) :
    shapeCast ⟨2, ![A, 1]⟩ (multiReduction (F := Ideal) .add [1] ⟨1, ![A]⟩ (absf x) 0x00000000#32 h hφ hacc) hc (ix2 r u)
      = ∑ j : Fin B, max (x (ix2 r j)) (-(x (ix2 r j))) :=
  columnSum_apply _ h hφ hacc hc r u

/-- The row sums of the positive parts of the negation, the negation spelt `0 - x`. -/
theorem negReluSum_apply (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32)
    (hc : (⟨1, ![A]⟩ : Shape).ShapeCasts ⟨2, ![A, 1]⟩) (r : Fin A) (u : Fin 1) :
    shapeCast ⟨2, ![A, 1]⟩ (multiReduction (F := Ideal) .add [1] ⟨1, ![A]⟩
        (maximumf (subf (broadcast ⟨2, ![A, B]⟩ (Scalar.ofBits .f32 0x00000000#32 : Ideal .f32)) x)
          (broadcast ⟨2, ![A, B]⟩ (Scalar.ofBits .f32 0x00000000#32 : Ideal .f32)))
        0x00000000#32 h hφ hacc) hc (ix2 r u)
      = ∑ j : Fin B, max (0 - x (ix2 r j)) 0 :=
  (columnSum_apply _ h hφ hacc hc r u).trans
    (Finset.sum_congr rfl fun j _ =>
      congrArg₂ (fun a b : EReal => max (a - x (ix2 r j)) b) Ideal.ofBits_zero_f32 Ideal.ofBits_zero_f32)

end Cert.Lib.ColumnSum

end
-- ==== Proof.LibMatmulRows.lean ====
/-
  A matrix product with the right operand given by rows, read at an entry. For dimension numbers that contract the
  left operand's axis 1 with the right operand's axis 1 and have no batch axis, the product of an [A, K] and a [B, K]
  array accumulated into the zero splat has, at `(p, q)`, the value `∑ k, lhs (p, k) * rhs (q, k)` on the extended
  reals; for any sizes A, K, B and any two float formats of the operands (a change of format is the identity on the
  extended reals).
-/
import Idealize.ShloMosaic.PureOps.Ideal.Laws
import Idealize.ShloMosaic.Lib.ValueIdx

noncomputable section

open scoped BigOperators
open Idealize.ShloMosaic Idealize.ShloMosaic.ValueIdx

namespace MatmulRows

/-- The matrix product `lhs · rhsᵀ` into a zero accumulator at entry `(p, q)`. -/
theorem matmul_zero_apply {A K B : Nat} {φ₁ φ₂ : FTy}
    (d : DotDims ⟨2, ![A, K]⟩ ⟨2, ![B, K]⟩ ⟨2, ![A, B]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![A, K]⟩ φ₁) (rhs : FVec Ideal ⟨2, ![B, K]⟩ φ₂) (p : Fin A) (q : Fin B) :
    matmul d prec lhs rhs (constant ⟨2, ![A, B]⟩ .f32 0x00000000#32) (ix2 p q)
      = ∑ k : Fin K, lhs (ix2 p k) * rhs (ix2 q k) := by
  obtain ⟨lc, rc, ln, rn, lb, rb, wf⟩ := d
  simp only at hlc hrc hln hrn hlb hrb
  subst hlc hrc hln hrn hlb hrb
  let D : DotDims ⟨2, ![A, K]⟩ ⟨2, ![B, K]⟩ ⟨2, ![A, B]⟩ := ⟨[1], [1], [0], [0], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = q.val := by
    unfold DotDims.rhsIdx
    rw [dif_neg (show ¬(0 : Fin 2) ∈ ([] : List (Fin 2)) from List.not_mem_nil),
      dif_pos (show (0 : Fin 2) ∈ ([0] : List (Fin 2)) from List.mem_singleton.mpr rfl)]
    rfl
  have r1 : (D.rhsIdx (ix2 p q) ((contrEquiv1 D K rfl rfl).symm k) (1 : Fin 2)).val = k.val :=
    (D.rhsIdx_val_of_single rfl (ix2 p q) _).trans hk
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 q k := funext fun a => Fin.ext (by
    match a with
    | ⟨0, _⟩ => exact r0
    | ⟨1, _⟩ => exact r1)
  rw [el, er]

end MatmulRows

end
-- ==== Proof.PayRowA.lean ====
/-
  The per-row kernel's small pure values read at an entry, on the extended reals: the two bound residuals, the two
  halves of the 600 columns, the two cone residuals, the casts that move no data, the sum of the positive parts of the
  bound residuals along a row, and the product with the 822-by-600 matrix given by rows.
-/
import proofs.«141359_j50938312131078_1_alg».proof.Proof.Gen.KernelIdeal.Skeleton
import proofs.«141359_j50938312131078_1_alg».proof.Proof.LibColumnSum
import proofs.«141359_j50938312131078_1_alg».proof.Proof.LibMatmulRows
import Idealize.ShloMosaic.Lib.ValueLayout

noncomputable section

open scoped BigOperators

namespace Cert.KernelIdeal.PayValue

open Idealize.ShloMosaic Idealize.ShloMosaic.ValueIdx Cert.KernelIdeal Cert.KernelIdeal.Gen Cert.Lib.ColumnSum

/-- Column `j` of the first half of the 600 columns. -/
abbrev colLo (j : Fin 300) : Fin 600 := ⟨j.val, Nat.lt_of_lt_of_le j.isLt (by decide)⟩
/-- Column `j` of the second half of the 600 columns. -/
abbrev colHi (j : Fin 300) : Fin 600 := ⟨300 + j.val, by have := j.isLt; omega⟩
/-- Column `j` of the first half of the 822 columns. -/
abbrev zLo (j : Fin 411) : Fin 822 := ⟨j.val, Nat.lt_of_lt_of_le j.isLt (by decide)⟩
/-- Column `j` of the second half of the 822 columns. -/
abbrev zHi (j : Fin 411) : Fin 822 := ⟨411 + j.val, by have := j.isLt; omega⟩

/-- The upper-bound row passes through its cast unchanged. -/
theorem k1_pay2_eq (v11 : Vec Ideal S1x138 .f32) : k1_pay2 (F := Ideal) v11 = v11 := by
  unfold k1_pay2
  exact shapeCast_self v11 shapeCasts_S1x138_S1x138

/-- The residual against the lower bound row: `s - lo`. -/
theorem k1_pay3_apply (v1 : Vec Ideal S256x138 .f32) (v9 : Vec Ideal S1x138 .f32) (r : Fin 256) (j : Fin 138) :
    k1_pay3 (F := Ideal) v1 v9 (ix2 r j) = v1 (ix2 r j) - v9 (ix2 (0 : Fin 1) j) := by
  unfold k1_pay3
  refine (subf_apply _ _ _).trans ?_
  exact congrArg (v1 (ix2 r j) - ·) (broadcastTo_1b_ab_apply v9 broadcasts_S1x138_S256x138 r j)

/-- The residual against the upper bound row: `hi - s`. -/
theorem k1_pay4_apply (v1 : Vec Ideal S256x138 .f32) (v10 : Vec Ideal S1x138 .f32) (r : Fin 256) (j : Fin 138) :
    k1_pay4 (F := Ideal) v1 v10 (ix2 r j) = v10 (ix2 (0 : Fin 1) j) - v1 (ix2 r j) := by
  unfold k1_pay4
  refine (subf_apply _ _ _).trans ?_
  exact congrArg (· - v1 (ix2 r j)) (broadcastTo_1b_ab_apply v10 broadcasts_S1x138_S256x138 r j)

/-- The first half of the columns. -/
theorem k1_pay6_apply (v0 : Vec Ideal S256x600 .f32) (r : Fin 256) (j : Fin 300) :
    k1_pay6 (F := Ideal) v0 (ix2 r j) = v0 (ix2 r (colLo j)) := by
  unfold k1_pay6
  exact slice2_axis1_apply 0 v0 slices_S256x600_o0_0_S256x300 r j (colLo j) (Nat.zero_add _).symm

/-- The second half of the columns. -/
theorem k1_pay7_apply (v0 : Vec Ideal S256x600 .f32) (r : Fin 256) (j : Fin 300) :
    k1_pay7 (F := Ideal) v0 (ix2 r j) = v0 (ix2 r (colHi j)) := by
  unfold k1_pay7
  exact slice2_axis1_apply 300 v0 slices_S256x600_o0_300_S256x300 r j (colHi j) rfl

/-- The outer cone residual `a² + b² - c`. -/
theorem k1_pay8_apply (v27 v28 : FVec Ideal S256x300 .f32) (r : Fin 256) (j : Fin 300) :
    k1_pay8 (F := Ideal) v27 v28 (ix2 r j)
      = (v27 (ix2 r j) * v27 (ix2 r j) + v28 (ix2 r j) * v28 (ix2 r j)) - Ideal.ofBits .f32 0x3F8FD220#32 := rfl

/-- The inner cone residual `c - a² + b²`. -/
theorem k1_pay9_apply (v27 v28 : FVec Ideal S256x300 .f32) (r : Fin 256) (j : Fin 300) :
    k1_pay9 (F := Ideal) v27 v28 (ix2 r j)
      = (Ideal.ofBits .f32 0x3F62339C#32 - v27 (ix2 r j) * v27 (ix2 r j)) + v28 (ix2 r j) * v28 (ix2 r j) := rfl

/-- A change of float format is the identity. -/
theorem k1_pay13_apply (v3 : Vec Ideal S256x600 .f32) (r : Fin 256) (k : Fin 600) :
    k1_pay13 (F := Ideal) v3 (ix2 r k) = v3 (ix2 r k) := rfl

/-- The 138-by-600 matrix passes through its cast unchanged. -/
theorem k1_pay14_eq (v115 : Vec Ideal S138x600 .bf16) : k1_pay14 (F := Ideal) v115 = v115 := by
  unfold k1_pay14
  exact shapeCast_self v115 shapeCasts_S138x600_S138x600

/-- The sum along a row of the positive parts of the two bound residuals. -/
theorem k1_pay5_apply (v1 : Vec Ideal S256x138 .f32) (v9 v10 : Vec Ideal S1x138 .f32) (r : Fin 256) :
    k1_pay5 (F := Ideal) v1 v9 v10 (ix2 r (0 : Fin 1))
      = (∑ j : Fin 138, max (v1 (ix2 r j) - v9 (ix2 (0 : Fin 1) j)) 0)
        + ∑ j : Fin 138, max (v10 (ix2 (0 : Fin 1) j) - v1 (ix2 r j)) 0 := by
  unfold k1_pay5
  refine (addf_apply _ _ _).trans (congrArg₂ (· + ·) ?_ ?_)
  · refine (reluSum_apply (k1_pay3 v1 v9) reduces_S256x138_S256 (.inl rfl) rfl shapeCasts_S256_S256x1 r (0 : Fin 1)).trans ?_
    exact Finset.sum_congr rfl fun j _ => congrArg (max · 0) (k1_pay3_apply v1 v9 r j)
  · refine (reluSum_apply (k1_pay4 v1 v10) reduces_S256x138_S256 (.inl rfl) rfl shapeCasts_S256_S256x1 r (0 : Fin 1)).trans ?_
    exact Finset.sum_congr rfl fun j _ => congrArg (max · 0) (k1_pay4_apply v1 v10 r j)

/-- The product with the 822-by-600 matrix given by rows, at an entry. -/
theorem k1_pay11_apply (v0 : Vec Ideal S256x600 .f32) (v66 : Vec Ideal S822x600 .bf16) (r : Fin 256) (m : Fin 822) :
    k1_pay11 (F := Ideal) v0 v66 (ix2 r m) = ∑ k : Fin 600, v0 (ix2 r k) * v66 (ix2 m k) := by
  unfold k1_pay11
  refine (truncf_apply (φ := .f32) (ψ := .bf16) _ bitsLt_bf16_f32 (ix2 r m)).trans ?_
  refine (MatmulRows.matmul_zero_apply dot_S256x600_S822x600_S256x822_1_1_0_0_n_n rfl rfl rfl rfl rfl rfl none
    (truncf .bf16 v0 bitsLt_bf16_f32) (shapeCast S822x600 v66 shapeCasts_S822x600_S822x600) r m).trans ?_
  refine Finset.sum_congr rfl fun k _ => ?_
  exact congrArg (v0 (ix2 r k) * ·) (congrFun (shapeCast_self v66 shapeCasts_S822x600_S822x600) (ix2 m k))

end Cert.KernelIdeal.PayValue

end
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.PayRowB.lean ====
/-
  The per-row kernel's running sum after the cone terms and the linear-constraint term, read at a row, on the
  extended reals: the carried sum, plus the positive parts of the two cone residuals summed along the row, plus a
  constant times the row sum of the masked constraint residual `(x A - s B) · mask`, the two products being plain
  matrix products into the zero accumulator.
-/
import proofs.«141359_j50938312131078_1_alg».proof.Proof.Gen.KernelIdeal.Skeleton
import proofs.«141359_j50938312131078_1_alg».proof.Proof.LibColumnSum
import proofs.«141359_j50938312131078_1_alg».proof.Proof.LibMatmulPlain
import proofs.«141359_j50938312131078_1_alg».proof.Proof.PayRowA
import Idealize.ShloMosaic.Lib.ValueLayout

noncomputable section

open scoped BigOperators

namespace Cert.KernelIdeal.PayValue

open Idealize.ShloMosaic Idealize.ShloMosaic.ValueIdx Cert.KernelIdeal Cert.KernelIdeal.Gen Cert.Lib.ColumnSum

/-- The running sum after the cone terms and the linear-constraint term, at row `r`. -/
theorem k1_pay10_apply (v1 : Vec Ideal S256x138 .f32) (v2 : Vec Ideal S256x600 .f32) (v13 : Vec Ideal S1x600 .f32)
    (v26 : FVec Ideal S256x1 .f32) (v27 v28 : FVec Ideal S256x300 .f32)
    (v51 : Vec Ideal S600x600 .bf16) (v54 : Vec Ideal S138x600 .bf16) (r : Fin 256) :
    k1_pay10 (F := Ideal) v1 v2 v13 v26 v27 v28 v51 v54 (ix2 r (0 : Fin 1))
      = ((v26 (ix2 r (0 : Fin 1))
            + ∑ j : Fin 300, max ((v27 (ix2 r j) * v27 (ix2 r j) + v28 (ix2 r j) * v28 (ix2 r j))
                - Ideal.ofBits .f32 0x3F8FD220#32) 0)
          + ∑ j : Fin 300, max ((Ideal.ofBits .f32 0x3F62339C#32 - v27 (ix2 r j) * v27 (ix2 r j))
                + v28 (ix2 r j) * v28 (ix2 r j)) 0)
        + Ideal.ofBits .f32 0x47000000#32
          * ∑ c : Fin 600, ((∑ k : Fin 600, v2 (ix2 r k) * v51 (ix2 k c))
              - ∑ k : Fin 138, v1 (ix2 r k) * v54 (ix2 k c)) * v13 (ix2 (0 : Fin 1) c) := by
  unfold k1_pay10
  refine (addf_apply _ _ _).trans (congrArg₂ (· + ·) ?_ ?_)
  · refine (addf_apply _ _ _).trans (congrArg₂ (· + ·) ?_ ?_)
    · refine (addf_apply _ _ _).trans (congrArg (v26 (ix2 r (0 : Fin 1)) + ·) ?_)
      refine (reluSum_apply (k1_pay8 v27 v28) reduces_S256x300_S256 (.inl rfl) rfl shapeCasts_S256_S256x1 r (0 : Fin 1)).trans ?_
      exact Finset.sum_congr rfl fun j _ => rfl
    · refine (reluSum_apply (k1_pay9 v27 v28) reduces_S256x300_S256 (.inl rfl) rfl shapeCasts_S256_S256x1 r (0 : Fin 1)).trans ?_
      exact Finset.sum_congr rfl fun j _ => rfl
  · refine (mulf_apply _ _ _).trans (congrArg (Ideal.ofBits .f32 0x47000000#32 * ·) ?_)
    refine (columnSum_apply _ reduces_S256x600_S256 (.inl rfl) rfl shapeCasts_S256_S256x1 r (0 : Fin 1)).trans ?_
    refine Finset.sum_congr rfl fun c _ => ?_
    refine (mulf_apply _ _ _).trans
      (congrArg₂ (· * ·) ?_ (broadcastTo_1b_ab_apply v13 broadcasts_S1x600_S256x600 r c))
    refine (subf_apply _ _ _).trans (congrArg₂ (· - ·) ?_ ?_)
    · refine (MatmulPlain.matmul_zero_apply dot_S256x600_S600x600_S256x600_1_0_0_1_n_n rfl rfl rfl rfl rfl rfl none
        (truncf .bf16 v2 bitsLt_bf16_f32) (shapeCast S600x600 v51 shapeCasts_S600x600_S600x600) r c).trans ?_
      refine Finset.sum_congr rfl fun k _ => ?_
      exact congrArg (v2 (ix2 r k) * ·) (congrFun (shapeCast_self v51 shapeCasts_S600x600_S600x600) (ix2 k c))
    · refine (MatmulPlain.matmul_zero_apply dot_S256x138_S138x600_S256x600_1_0_0_1_n_n rfl rfl rfl rfl rfl rfl none
        (truncf .bf16 v1 bitsLt_bf16_f32) (shapeCast S138x600 v54 shapeCasts_S138x600_S138x600) r c).trans ?_
      refine Finset.sum_congr rfl fun k _ => ?_
      exact congrArg (v1 (ix2 r k) * ·) (congrFun (shapeCast_self v54 shapeCasts_S138x600_S138x600) (ix2 k c))

end Cert.KernelIdeal.PayValue

end
-- ==== Proof.PayRowC.lean ====
/-
  The per-row kernel's running sum after the disc term and the five complementarity terms, read at a row, on the
  extended reals. The disc residual is `p² + q² - 1` for the two halves `p`, `q` of the product of the carried
  256-by-822 block with the 822-by-822 matrix given by rows; the complementarity terms are row sums of absolute values
  of products, two of them divided by a constant.
-/
import proofs.«141359_j50938312131078_1_alg».proof.Proof.Gen.KernelIdeal.Skeleton
import proofs.«141359_j50938312131078_1_alg».proof.Proof.LibColumnSum
import proofs.«141359_j50938312131078_1_alg».proof.Proof.LibMatmulRows
import proofs.«141359_j50938312131078_1_alg».proof.Proof.PayRowA
import Idealize.ShloMosaic.Lib.ValueLayout

noncomputable section

open scoped BigOperators

namespace Cert.KernelIdeal.PayValue

open Idealize.ShloMosaic Idealize.ShloMosaic.ValueIdx Cert.KernelIdeal Cert.KernelIdeal.Gen Cert.Lib.ColumnSum

/-- Entry `(r, n)` of the product with the 822-by-822 matrix given by rows. -/
def z72 (v69 : FVec Ideal S256x822 .bf16) (v70 : FVec Ideal S822x822 .bf16) (r : Fin 256) (n : Fin 822) : EReal :=
  ∑ m : Fin 822, v69 (ix2 r m) * v70 (ix2 n m)

/-- The disc residual `p² + q² - 1` at `(r, j)`, `p` and `q` the two halves of that product's row. -/
def z79 (v69 : FVec Ideal S256x822 .bf16) (v70 : FVec Ideal S822x822 .bf16) (r : Fin 256) (j : Fin 411) : EReal :=
  (z72 v69 v70 r (zLo j) * z72 v69 v70 r (zLo j) + z72 v69 v70 r (zHi j) * z72 v69 v70 r (zHi j))
    - Ideal.ofBits .f32 0x3F800000#32

/-- The product block as the kernel spells it. -/
def prodBlk (v69 : FVec Ideal S256x822 .bf16) (v70 : FVec Ideal S822x822 .bf16) : FVec Ideal S256x822 .f32 :=
  matmul dot_S256x822_S822x822_S256x822_1_1_0_0_n_n none v69 (shapeCast S822x822 v70 shapeCasts_S822x822_S822x822)
    (constant (F := Ideal) S256x822 .f32 0x00000000#32)

theorem prodBlk_apply (v69 : FVec Ideal S256x822 .bf16) (v70 : FVec Ideal S822x822 .bf16) (r : Fin 256) (n : Fin 822) :
    prodBlk v69 v70 (ix2 r n) = z72 v69 v70 r n := by
  unfold prodBlk z72
  refine (MatmulRows.matmul_zero_apply dot_S256x822_S822x822_S256x822_1_1_0_0_n_n rfl rfl rfl rfl rfl rfl none
    v69 (shapeCast S822x822 v70 shapeCasts_S822x822_S822x822) r n).trans ?_
  refine Finset.sum_congr rfl fun m _ => ?_
  exact congrArg (v69 (ix2 r m) * ·) (congrFun (shapeCast_self v70 shapeCasts_S822x822_S822x822) (ix2 n m))

/-- The disc residual block as the kernel spells it. -/
def discBlk (v69 : FVec Ideal S256x822 .bf16) (v70 : FVec Ideal S822x822 .bf16) : FVec Ideal S256x411 .f32 :=
  subf
    (addf
      (mulf (extractStridedSlice S256x411 ![0, 0] (prodBlk v69 v70) slices_S256x822_o0_0_S256x411)
        (extractStridedSlice S256x411 ![0, 0] (prodBlk v69 v70) slices_S256x822_o0_0_S256x411))
      (mulf (extractStridedSlice S256x411 ![0, 411] (prodBlk v69 v70) slices_S256x822_o0_411_S256x411)
        (extractStridedSlice S256x411 ![0, 411] (prodBlk v69 v70) slices_S256x822_o0_411_S256x411)))
    (broadcast S256x411 (Scalar.ofBits .f32 0x3F800000#32 : Ideal .f32))

theorem discBlk_apply (v69 : FVec Ideal S256x822 .bf16) (v70 : FVec Ideal S822x822 .bf16) (r : Fin 256) (j : Fin 411) :
    discBlk v69 v70 (ix2 r j) = z79 v69 v70 r j := by
  have lo : extractStridedSlice S256x411 ![0, 0] (prodBlk v69 v70) slices_S256x822_o0_0_S256x411 (ix2 r j)
      = z72 v69 v70 r (zLo j) :=
    (slice2_axis1_apply 0 (prodBlk v69 v70) slices_S256x822_o0_0_S256x411 r j (zLo j) (Nat.zero_add _).symm).trans
      (prodBlk_apply v69 v70 r (zLo j))
  have hi : extractStridedSlice S256x411 ![0, 411] (prodBlk v69 v70) slices_S256x822_o0_411_S256x411 (ix2 r j)
      = z72 v69 v70 r (zHi j) :=
    (slice2_axis1_apply 411 (prodBlk v69 v70) slices_S256x822_o0_411_S256x411 r j (zHi j) rfl).trans
      (prodBlk_apply v69 v70 r (zHi j))
  unfold discBlk z79
  refine (subf_apply _ _ _).trans (congrArg (· - Ideal.ofBits .f32 0x3F800000#32) ?_)
  refine (addf_apply _ _ _).trans (congrArg₂ (· + ·) ?_ ?_)
  · exact (mulf_apply _ _ _).trans (congrArg₂ (· * ·) lo lo)
  · exact (mulf_apply _ _ _).trans (congrArg₂ (· * ·) hi hi)

/-- The running sum after the disc term and the five complementarity terms, at row `r`. -/
theorem k1_pay12_apply (v4 v5 : Vec Ideal S256x138 .f32) (v6 v7 : Vec Ideal S256x300 .f32) (v8 : Vec Ideal S256x411 .f32)
    (v15 v17 : FVec Ideal S256x138 .f32) (v33 v38 : FVec Ideal S256x300 .f32) (v64 : FVec Ideal S256x1 .f32)
    (v69 : FVec Ideal S256x822 .bf16) (v70 : Vec Ideal S822x822 .bf16) (r : Fin 256) :
    k1_pay12 (F := Ideal) v4 v5 v6 v7 v8 v15 v17 v33 v38 v64 v69 v70 (ix2 r (0 : Fin 1))
      = (((((v64 (ix2 r (0 : Fin 1))
                  + ∑ j : Fin 411, max (z79 v69 v70 r j) 0)
                + Ideal.div (∑ j : Fin 138, max (v4 (ix2 r j) * v15 (ix2 r j)) (-(v4 (ix2 r j) * v15 (ix2 r j))))
                    (Ideal.ofBits .f32 0x428A0000#32))
              + Ideal.div (∑ j : Fin 138, max (v5 (ix2 r j) * v17 (ix2 r j)) (-(v5 (ix2 r j) * v17 (ix2 r j))))
                  (Ideal.ofBits .f32 0x428A0000#32))
            + ∑ j : Fin 300, max (v6 (ix2 r j) * v33 (ix2 r j)) (-(v6 (ix2 r j) * v33 (ix2 r j))))
          + ∑ j : Fin 300, max (v7 (ix2 r j) * v38 (ix2 r j)) (-(v7 (ix2 r j) * v38 (ix2 r j))))
        + ∑ j : Fin 411, max (v8 (ix2 r j) * z79 v69 v70 r j) (-(v8 (ix2 r j) * z79 v69 v70 r j)) := by
  unfold k1_pay12
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · refine (addf_apply _ _ _).trans (congrArg₂ (· + ·) ?_ ?_)
        · refine (addf_apply _ _ _).trans (congrArg₂ (· + ·) ?_ ?_)
          · refine (addf_apply _ _ _).trans (congrArg (v64 (ix2 r (0 : Fin 1)) + ·) ?_)
            refine (reluSum_apply (discBlk v69 v70) reduces_S256x411_S256 (.inl rfl) rfl shapeCasts_S256_S256x1 r (0 : Fin 1)).trans ?_
            exact Finset.sum_congr rfl fun j _ => congrArg (max · 0) (discBlk_apply v69 v70 r j)
          · refine (divf_apply _ _ _).trans (congrArg (Ideal.div · (Ideal.ofBits .f32 0x428A0000#32)) ?_)
            refine (absSum_apply (mulf v4 v15) reduces_S256x138_S256 (.inl rfl) rfl shapeCasts_S256_S256x1 r (0 : Fin 1)).trans ?_
            exact Finset.sum_congr rfl fun j _ => rfl
        · refine (divf_apply _ _ _).trans (congrArg (Ideal.div · (Ideal.ofBits .f32 0x428A0000#32)) ?_)
          refine (absSum_apply (mulf v5 v17) reduces_S256x138_S256 (.inl rfl) rfl shapeCasts_S256_S256x1 r (0 : Fin 1)).trans ?_
          exact Finset.sum_congr rfl fun j _ => rfl
      · refine (absSum_apply (mulf v6 v33) reduces_S256x300_S256 (.inl rfl) rfl shapeCasts_S256_S256x1 r (0 : Fin 1)).trans ?_
        exact Finset.sum_congr rfl fun j _ => rfl
    · refine (absSum_apply (mulf v7 v38) reduces_S256x300_S256 (.inl rfl) rfl shapeCasts_S256_S256x1 r (0 : Fin 1)).trans ?_
      exact Finset.sum_congr rfl fun j _ => rfl
  · refine (absSum_apply (mulf v8 (discBlk v69 v70)) reduces_S256x411_S256 (.inl rfl) rfl shapeCasts_S256_S256x1 r (0 : Fin 1)).trans ?_
    refine Finset.sum_congr rfl fun j _ => ?_
    have e : mulf v8 (discBlk v69 v70) (ix2 r j) = v8 (ix2 r j) * z79 v69 v70 r j :=
      (mulf_apply _ _ _).trans (congrArg (v8 (ix2 r j) * ·) (discBlk_apply v69 v70 r j))
    exact congrArg (fun t : EReal => max t (-t)) e

end Cert.KernelIdeal.PayValue

end
-- ==== Proof.PayRowD.lean ====
/-
  The per-row kernel's last two pure values read at a row, on the extended reals: the running sum after the
  stationarity term `|μ⁺·1 - μ⁻·1 + (g Bᵀ)·1 - q|` summed along the row and the four dual-sign terms, and the stored
  value, which adds the fifth dual-sign term. A dual-sign term is the row sum of `max (0 - y) 0`.
-/
import proofs.«141359_j50938312131078_1_alg».proof.Proof.Gen.KernelIdeal.Skeleton
import proofs.«141359_j50938312131078_1_alg».proof.Proof.LibColumnSum
import proofs.«141359_j50938312131078_1_alg».proof.Proof.LibMatmulRows
import proofs.«141359_j50938312131078_1_alg».proof.Proof.PayRowA
import Idealize.ShloMosaic.Lib.ValueLayout

noncomputable section

open scoped BigOperators

namespace Cert.KernelIdeal.PayValue

open Idealize.ShloMosaic Idealize.ShloMosaic.ValueIdx Cert.KernelIdeal Cert.KernelIdeal.Gen Cert.Lib.ColumnSum

/-- The stationarity residual at `(r, j)`, in the kernel's order of operations. -/
def w127 (v4 v5 : FVec Ideal S256x138 .f32) (v12 : FVec Ideal S1x138 .f32) (v114 : FVec Ideal S256x600 .bf16)
    (v116 : FVec Ideal S138x600 .bf16) (r : Fin 256) (j : Fin 138) : EReal :=
  (((v4 (ix2 r j) * Ideal.ofBits .f32 0x3F800000#32) - (v5 (ix2 r j) * Ideal.ofBits .f32 0x3F800000#32))
      + ((∑ k : Fin 600, v114 (ix2 r k) * v116 (ix2 j k)) * Ideal.ofBits .f32 0x3F800000#32))
    - v12 (ix2 (0 : Fin 1) j)

/-- The stationarity residual block as the kernel spells it. -/
def statBlk (v4 v5 : FVec Ideal S256x138 .f32) (v12 : FVec Ideal S1x138 .f32) (v114 : FVec Ideal S256x600 .bf16)
    (v116 : FVec Ideal S138x600 .bf16) : FVec Ideal S256x138 .f32 :=
  subf
    (addf
      (subf (mulf v4 (broadcast S256x138 (Scalar.ofBits .f32 0x3F800000#32 : Ideal .f32)))
        (mulf v5 (broadcast S256x138 (Scalar.ofBits .f32 0x3F800000#32 : Ideal .f32))))
      (mulf
        (matmul dot_S256x600_S138x600_S256x138_1_1_0_0_n_n none v114 v116
          (constant (F := Ideal) S256x138 .f32 0x00000000#32))
        (broadcast S256x138 (Scalar.ofBits .f32 0x3F800000#32 : Ideal .f32))))
    (broadcastTo S256x138 v12 broadcasts_S1x138_S256x138)

theorem statBlk_apply (v4 v5 : FVec Ideal S256x138 .f32) (v12 : FVec Ideal S1x138 .f32) (v114 : FVec Ideal S256x600 .bf16)
    (v116 : FVec Ideal S138x600 .bf16) (r : Fin 256) (j : Fin 138) :
    statBlk v4 v5 v12 v114 v116 (ix2 r j) = w127 v4 v5 v12 v114 v116 r j := by
  unfold statBlk w127
  refine (subf_apply _ _ _).trans
    (congrArg₂ (· - ·) ?_ (broadcastTo_1b_ab_apply v12 broadcasts_S1x138_S256x138 r j))
  refine (addf_apply _ _ _).trans
    (congrArg (((v4 (ix2 r j) * Ideal.ofBits .f32 0x3F800000#32) - (v5 (ix2 r j) * Ideal.ofBits .f32 0x3F800000#32)) + ·) ?_)
  refine (mulf_apply _ _ _).trans (congrArg (· * Ideal.ofBits .f32 0x3F800000#32) ?_)
  exact MatmulRows.matmul_zero_apply dot_S256x600_S138x600_S256x138_1_1_0_0_n_n rfl rfl rfl rfl rfl rfl none v114 v116 r j

/-- The running sum after the stationarity term and four dual-sign terms, at row `r`. -/
theorem k1_pay15_apply (v4 v5 : Vec Ideal S256x138 .f32) (v6 v7 : Vec Ideal S256x300 .f32) (v12 : FVec Ideal S1x138 .f32)
    (v113 : FVec Ideal S256x1 .f32) (v114 : FVec Ideal S256x600 .bf16) (v116 : FVec Ideal S138x600 .bf16) (r : Fin 256) :
    k1_pay15 (F := Ideal) v4 v5 v6 v7 v12 v113 v114 v116 (ix2 r (0 : Fin 1))
      = ((((v113 (ix2 r (0 : Fin 1))
                + ∑ j : Fin 138, max (w127 v4 v5 v12 v114 v116 r j) (-(w127 v4 v5 v12 v114 v116 r j)))
              + ∑ j : Fin 138, max (0 - v4 (ix2 r j)) 0)
            + ∑ j : Fin 138, max (0 - v5 (ix2 r j)) 0)
          + ∑ j : Fin 300, max (0 - v6 (ix2 r j)) 0)
        + ∑ j : Fin 300, max (0 - v7 (ix2 r j)) 0 := by
  unfold k1_pay15
  refine (addf_apply _ _ _).trans (congrArg₂ (· + ·) ?_ ?_)
  · refine (addf_apply _ _ _).trans (congrArg₂ (· + ·) ?_ ?_)
    · refine (addf_apply _ _ _).trans (congrArg₂ (· + ·) ?_ ?_)
      · refine (addf_apply _ _ _).trans (congrArg₂ (· + ·) ?_ ?_)
        · refine (addf_apply _ _ _).trans (congrArg (v113 (ix2 r (0 : Fin 1)) + ·) ?_)
          refine (absSum_apply (statBlk v4 v5 v12 v114 v116) reduces_S256x138_S256 (.inl rfl) rfl shapeCasts_S256_S256x1 r (0 : Fin 1)).trans ?_
          exact Finset.sum_congr rfl fun j _ => congrArg (fun t : EReal => max t (-t)) (statBlk_apply v4 v5 v12 v114 v116 r j)
        · exact negReluSum_apply v4 reduces_S256x138_S256 (.inl rfl) rfl shapeCasts_S256_S256x1 r (0 : Fin 1)
      · exact negReluSum_apply v5 reduces_S256x138_S256 (.inl rfl) rfl shapeCasts_S256_S256x1 r (0 : Fin 1)
    · exact negReluSum_apply v6 reduces_S256x300_S256 (.inl rfl) rfl shapeCasts_S256_S256x1 r (0 : Fin 1)
  · exact negReluSum_apply v7 reduces_S256x300_S256 (.inl rfl) rfl shapeCasts_S256_S256x1 r (0 : Fin 1)

/-- The stored value: the running sum plus the fifth dual-sign term, at row `r`. -/
theorem k1_pay1_apply (v8 : Vec Ideal S256x411 .f32) (v159 : FVec Ideal S256x1 .f32) (r : Fin 256) :
    k1_pay1 (F := Ideal) v8 v159 (ix2 r (0 : Fin 1))
      = v159 (ix2 r (0 : Fin 1)) + ∑ j : Fin 411, max (0 - v8 (ix2 r j)) 0 := by
  unfold k1_pay1
  refine (addf_apply _ _ _).trans (congrArg (v159 (ix2 r (0 : Fin 1)) + ·) ?_)
  exact negReluSum_apply v8 reduces_S256x411_S256 (.inl rfl) rfl shapeCasts_S256_S256x1 r (0 : Fin 1)

end Cert.KernelIdeal.PayValue

end
-- ==== Proof.PayRow.lean ====
/-
  The value the per-row kernel stores, read at a row, on the extended reals: the nest of its pure values, and the
  explicit formula it equals, cut into one named term per addend, in the kernel's own order of additions.
  Nothing is reordered or reassociated here; the only evaluations are the zero word (to `0`) and the format changes
  (the identity).
-/
import proofs.«141359_j50938312131078_1_alg».proof.Proof.Gen.KernelIdeal.Skeleton
import proofs.«141359_j50938312131078_1_alg».proof.Proof.PayRowA
import proofs.«141359_j50938312131078_1_alg».proof.Proof.PayRowB
import proofs.«141359_j50938312131078_1_alg».proof.Proof.PayRowC
import proofs.«141359_j50938312131078_1_alg».proof.Proof.PayRowD
import Idealize.ShloMosaic.Lib.ValueLayout

noncomputable section

open scoped BigOperators

namespace Cert.KernelIdeal.PayValue

open Idealize.ShloMosaic Idealize.ShloMosaic.ValueIdx Cert.KernelIdeal Cert.KernelIdeal.Gen Cert.Lib.ColumnSum

/-! ## The formula, term by term -/

/-- `s - lo`. -/
def s3 (v1 : Vec Ideal S256x138 .f32) (v9 : Vec Ideal S1x138 .f32) (r : Fin 256) (j : Fin 138) : EReal :=
  v1 (ix2 r j) - v9 (ix2 (0 : Fin 1) j)
/-- `hi - s`. -/
def s4 (v1 : Vec Ideal S256x138 .f32) (v10 : Vec Ideal S1x138 .f32) (r : Fin 256) (j : Fin 138) : EReal :=
  v10 (ix2 (0 : Fin 1) j) - v1 (ix2 r j)
/-- The outer cone residual `a² + b² - c` of the two halves of the row. -/
def s8 (v0 : Vec Ideal S256x600 .f32) (r : Fin 256) (j : Fin 300) : EReal :=
  (v0 (ix2 r (colLo j)) * v0 (ix2 r (colLo j)) + v0 (ix2 r (colHi j)) * v0 (ix2 r (colHi j)))
    - Ideal.ofBits .f32 0x3F8FD220#32
/-- The inner cone residual `c - a² + b²`. -/
def s9 (v0 : Vec Ideal S256x600 .f32) (r : Fin 256) (j : Fin 300) : EReal :=
  (Ideal.ofBits .f32 0x3F62339C#32 - v0 (ix2 r (colLo j)) * v0 (ix2 r (colLo j)))
    + v0 (ix2 r (colHi j)) * v0 (ix2 r (colHi j))
/-- The bound term: the positive parts of the two bound residuals, summed along the row. -/
def tBound (v1 : Vec Ideal S256x138 .f32) (v9 v10 : Vec Ideal S1x138 .f32) (r : Fin 256) : EReal :=
  (∑ j : Fin 138, max (s3 v1 v9 r j) 0) + ∑ j : Fin 138, max (s4 v1 v10 r j) 0
/-- The linear-constraint term: a constant times the row sum of the masked residual `(x A - s B) · mask`. -/
def tLin (v1 : Vec Ideal S256x138 .f32) (v2 : Vec Ideal S256x600 .f32) (v13 : Vec Ideal S1x600 .f32)
    (v51 : Vec Ideal S600x600 .bf16) (v54 : Vec Ideal S138x600 .bf16) (r : Fin 256) : EReal :=
  Ideal.ofBits .f32 0x47000000#32
    * ∑ c : Fin 600, ((∑ k : Fin 600, v2 (ix2 r k) * v51 (ix2 k c))
        - ∑ k : Fin 138, v1 (ix2 r k) * v54 (ix2 k c)) * v13 (ix2 (0 : Fin 1) c)
/-- The running sum after the bound, cone and linear-constraint terms. -/
def s10 (v0 : Vec Ideal S256x600 .f32) (v1 : Vec Ideal S256x138 .f32) (v2 : Vec Ideal S256x600 .f32)
    (v9 v10 : Vec Ideal S1x138 .f32) (v13 : Vec Ideal S1x600 .f32) (v51 : Vec Ideal S600x600 .bf16)
    (v54 : Vec Ideal S138x600 .bf16) (r : Fin 256) : EReal :=
  ((tBound v1 v9 v10 r + ∑ j : Fin 300, max (s8 v0 r j) 0) + ∑ j : Fin 300, max (s9 v0 r j) 0)
    + tLin v1 v2 v13 v51 v54 r
/-- Entry `(r, m)` of the product with the 822-by-600 matrix given by rows. -/
def s11 (v0 : Vec Ideal S256x600 .f32) (v66 : Vec Ideal S822x600 .bf16) (r : Fin 256) (m : Fin 822) : EReal :=
  ∑ k : Fin 600, v0 (ix2 r k) * v66 (ix2 m k)
/-- Entry `(r, n)` of that product times the 822-by-822 matrix given by rows. -/
def s72 (v0 : Vec Ideal S256x600 .f32) (v66 : Vec Ideal S822x600 .bf16) (v70 : Vec Ideal S822x822 .bf16)
    (r : Fin 256) (n : Fin 822) : EReal :=
  ∑ m : Fin 822, s11 v0 v66 r m * v70 (ix2 n m)
/-- The disc residual `p² + q² - 1` of the two halves of that row. -/
def s79 (v0 : Vec Ideal S256x600 .f32) (v66 : Vec Ideal S822x600 .bf16) (v70 : Vec Ideal S822x822 .bf16)
    (r : Fin 256) (j : Fin 411) : EReal :=
  (s72 v0 v66 v70 r (zLo j) * s72 v0 v66 v70 r (zLo j) + s72 v0 v66 v70 r (zHi j) * s72 v0 v66 v70 r (zHi j))
    - Ideal.ofBits .f32 0x3F800000#32
/-- The running sum after the disc term and the five complementarity terms. -/
def s12 (v0 : Vec Ideal S256x600 .f32) (v1 : Vec Ideal S256x138 .f32) (v2 : Vec Ideal S256x600 .f32)
    (v4 v5 : Vec Ideal S256x138 .f32) (v6 v7 : Vec Ideal S256x300 .f32) (v8 : Vec Ideal S256x411 .f32)
    (v9 v10 : Vec Ideal S1x138 .f32) (v13 : Vec Ideal S1x600 .f32) (v51 : Vec Ideal S600x600 .bf16)
    (v54 : Vec Ideal S138x600 .bf16) (v66 : Vec Ideal S822x600 .bf16) (v70 : Vec Ideal S822x822 .bf16)
    (r : Fin 256) : EReal :=
  (((((s10 v0 v1 v2 v9 v10 v13 v51 v54 r
              + ∑ j : Fin 411, max (s79 v0 v66 v70 r j) 0)
            + Ideal.div (∑ j : Fin 138, max (v4 (ix2 r j) * s3 v1 v9 r j) (-(v4 (ix2 r j) * s3 v1 v9 r j)))
                (Ideal.ofBits .f32 0x428A0000#32))
          + Ideal.div (∑ j : Fin 138, max (v5 (ix2 r j) * s4 v1 v10 r j) (-(v5 (ix2 r j) * s4 v1 v10 r j)))
              (Ideal.ofBits .f32 0x428A0000#32))
        + ∑ j : Fin 300, max (v6 (ix2 r j) * s8 v0 r j) (-(v6 (ix2 r j) * s8 v0 r j)))
      + ∑ j : Fin 300, max (v7 (ix2 r j) * s9 v0 r j) (-(v7 (ix2 r j) * s9 v0 r j)))
    + ∑ j : Fin 411, max (v8 (ix2 r j) * s79 v0 v66 v70 r j) (-(v8 (ix2 r j) * s79 v0 v66 v70 r j))
/-- The stationarity residual `μ⁺·1 - μ⁻·1 + (g Bᵀ)·1 - q`, in the kernel's order of operations. -/
def s127 (v3 : Vec Ideal S256x600 .f32) (v4 v5 : Vec Ideal S256x138 .f32) (v11 : Vec Ideal S1x138 .f32)
    (v115 : Vec Ideal S138x600 .bf16) (r : Fin 256) (j : Fin 138) : EReal :=
  (((v4 (ix2 r j) * Ideal.ofBits .f32 0x3F800000#32) - (v5 (ix2 r j) * Ideal.ofBits .f32 0x3F800000#32))
      + ((∑ k : Fin 600, v3 (ix2 r k) * v115 (ix2 j k)) * Ideal.ofBits .f32 0x3F800000#32))
    - v11 (ix2 (0 : Fin 1) j)
/-- The running sum after the stationarity term and four dual-sign terms. -/
def s15 (v0 : Vec Ideal S256x600 .f32) (v1 : Vec Ideal S256x138 .f32) (v2 v3 : Vec Ideal S256x600 .f32)
    (v4 v5 : Vec Ideal S256x138 .f32) (v6 v7 : Vec Ideal S256x300 .f32) (v8 : Vec Ideal S256x411 .f32)
    (v9 v10 v11 : Vec Ideal S1x138 .f32) (v13 : Vec Ideal S1x600 .f32) (v51 : Vec Ideal S600x600 .bf16)
    (v54 : Vec Ideal S138x600 .bf16) (v66 : Vec Ideal S822x600 .bf16) (v70 : Vec Ideal S822x822 .bf16)
    (v115 : Vec Ideal S138x600 .bf16) (r : Fin 256) : EReal :=
  ((((s12 v0 v1 v2 v4 v5 v6 v7 v8 v9 v10 v13 v51 v54 v66 v70 r
            + ∑ j : Fin 138, max (s127 v3 v4 v5 v11 v115 r j) (-(s127 v3 v4 v5 v11 v115 r j)))
          + ∑ j : Fin 138, max (0 - v4 (ix2 r j)) 0)
        + ∑ j : Fin 138, max (0 - v5 (ix2 r j)) 0)
      + ∑ j : Fin 300, max (0 - v6 (ix2 r j)) 0)
    + ∑ j : Fin 300, max (0 - v7 (ix2 r j)) 0
/-- The stored value at row `r`: the last running sum plus the fifth dual-sign term. -/
def rowSpec (v0 : Vec Ideal S256x600 .f32) (v1 : Vec Ideal S256x138 .f32) (v2 v3 : Vec Ideal S256x600 .f32)
    (v4 v5 : Vec Ideal S256x138 .f32) (v6 v7 : Vec Ideal S256x300 .f32) (v8 : Vec Ideal S256x411 .f32)
    (v9 v10 v11 : Vec Ideal S1x138 .f32) (v13 : Vec Ideal S1x600 .f32) (v51 : Vec Ideal S600x600 .bf16)
    (v54 : Vec Ideal S138x600 .bf16) (v66 : Vec Ideal S822x600 .bf16) (v70 : Vec Ideal S822x822 .bf16)
    (v115 : Vec Ideal S138x600 .bf16) (r : Fin 256) : EReal :=
  s15 v0 v1 v2 v3 v4 v5 v6 v7 v8 v9 v10 v11 v13 v51 v54 v66 v70 v115 r
    + ∑ j : Fin 411, max (0 - v8 (ix2 r j)) 0

/-! ## The nest of pure values the kernel stores -/

/-- The stored block, as the kernel threads its pure values. -/
def rowPay (v0 : Vec Ideal S256x600 .f32) (v1 : Vec Ideal S256x138 .f32) (v2 v3 : Vec Ideal S256x600 .f32)
    (v4 v5 : Vec Ideal S256x138 .f32) (v6 v7 : Vec Ideal S256x300 .f32) (v8 : Vec Ideal S256x411 .f32)
    (v9 v10 v11 : Vec Ideal S1x138 .f32) (v13 : Vec Ideal S1x600 .f32) (v51 : Vec Ideal S600x600 .bf16)
    (v54 : Vec Ideal S138x600 .bf16) (v66 : Vec Ideal S822x600 .bf16) (v70 : Vec Ideal S822x822 .bf16)
    (v115 : Vec Ideal S138x600 .bf16) : FVec Ideal S256x1 .f32 :=
  k1_pay1 (F := Ideal) v8
    (k1_pay15 v4 v5 v6 v7 (k1_pay2 v11)
      (k1_pay12 v4 v5 v6 v7 v8 (k1_pay3 v1 v9) (k1_pay4 v1 v10)
        (k1_pay8 (k1_pay6 v0) (k1_pay7 v0)) (k1_pay9 (k1_pay6 v0) (k1_pay7 v0))
        (k1_pay10 v1 v2 v13 (k1_pay5 v1 v9 v10) (k1_pay6 v0) (k1_pay7 v0) v51 v54)
        (k1_pay11 v0 v66) v70)
      (k1_pay13 v3) (k1_pay14 v115))

/-! ## The nest read at a row -/

theorem pay8_nest (v0 : Vec Ideal S256x600 .f32) (r : Fin 256) (j : Fin 300) :
    k1_pay8 (F := Ideal) (k1_pay6 v0) (k1_pay7 v0) (ix2 r j) = s8 v0 r j := by
  unfold s8
  rw [k1_pay8_apply, k1_pay6_apply, k1_pay7_apply]

theorem pay9_nest (v0 : Vec Ideal S256x600 .f32) (r : Fin 256) (j : Fin 300) :
    k1_pay9 (F := Ideal) (k1_pay6 v0) (k1_pay7 v0) (ix2 r j) = s9 v0 r j := by
  unfold s9
  rw [k1_pay9_apply, k1_pay6_apply, k1_pay7_apply]

theorem pay10_nest (v0 : Vec Ideal S256x600 .f32) (v1 : Vec Ideal S256x138 .f32) (v2 : Vec Ideal S256x600 .f32)
    (v9 v10 : Vec Ideal S1x138 .f32) (v13 : Vec Ideal S1x600 .f32) (v51 : Vec Ideal S600x600 .bf16)
    (v54 : Vec Ideal S138x600 .bf16) (r : Fin 256) :
    k1_pay10 (F := Ideal) v1 v2 v13 (k1_pay5 v1 v9 v10) (k1_pay6 v0) (k1_pay7 v0) v51 v54 (ix2 r (0 : Fin 1))
      = s10 v0 v1 v2 v9 v10 v13 v51 v54 r := by
  unfold s10 tBound tLin
  rw [k1_pay10_apply, k1_pay5_apply]
  have e8 : ∀ j : Fin 300, (k1_pay6 (F := Ideal) v0 (ix2 r j) * k1_pay6 (F := Ideal) v0 (ix2 r j)
      + k1_pay7 (F := Ideal) v0 (ix2 r j) * k1_pay7 (F := Ideal) v0 (ix2 r j)) - Ideal.ofBits .f32 0x3F8FD220#32
      = s8 v0 r j := fun j => pay8_nest v0 r j
  have e9 : ∀ j : Fin 300, (Ideal.ofBits .f32 0x3F62339C#32
      - k1_pay6 (F := Ideal) v0 (ix2 r j) * k1_pay6 (F := Ideal) v0 (ix2 r j))
      + k1_pay7 (F := Ideal) v0 (ix2 r j) * k1_pay7 (F := Ideal) v0 (ix2 r j)
      = s9 v0 r j := fun j => pay9_nest v0 r j
  simp only [e8, e9]
  rfl

theorem z72_nest (v0 : Vec Ideal S256x600 .f32) (v66 : Vec Ideal S822x600 .bf16) (v70 : Vec Ideal S822x822 .bf16)
    (r : Fin 256) (n : Fin 822) : z72 (k1_pay11 (F := Ideal) v0 v66) v70 r n = s72 v0 v66 v70 r n := by
  unfold z72 s72
  exact Finset.sum_congr rfl fun m _ => congrArg (· * v70 (ix2 n m)) (k1_pay11_apply v0 v66 r m)

theorem z79_nest (v0 : Vec Ideal S256x600 .f32) (v66 : Vec Ideal S822x600 .bf16) (v70 : Vec Ideal S822x822 .bf16)
    (r : Fin 256) (j : Fin 411) : z79 (k1_pay11 (F := Ideal) v0 v66) v70 r j = s79 v0 v66 v70 r j := by
  unfold z79 s79
  rw [z72_nest, z72_nest]

theorem pay12_nest (v0 : Vec Ideal S256x600 .f32) (v1 : Vec Ideal S256x138 .f32) (v2 : Vec Ideal S256x600 .f32)
    (v4 v5 : Vec Ideal S256x138 .f32) (v6 v7 : Vec Ideal S256x300 .f32) (v8 : Vec Ideal S256x411 .f32)
    (v9 v10 : Vec Ideal S1x138 .f32) (v13 : Vec Ideal S1x600 .f32) (v51 : Vec Ideal S600x600 .bf16)
    (v54 : Vec Ideal S138x600 .bf16) (v66 : Vec Ideal S822x600 .bf16) (v70 : Vec Ideal S822x822 .bf16)
    (r : Fin 256) :
    k1_pay12 (F := Ideal) v4 v5 v6 v7 v8 (k1_pay3 v1 v9) (k1_pay4 v1 v10)
        (k1_pay8 (k1_pay6 v0) (k1_pay7 v0)) (k1_pay9 (k1_pay6 v0) (k1_pay7 v0))
        (k1_pay10 v1 v2 v13 (k1_pay5 v1 v9 v10) (k1_pay6 v0) (k1_pay7 v0) v51 v54)
        (k1_pay11 v0 v66) v70 (ix2 r (0 : Fin 1))
      = s12 v0 v1 v2 v4 v5 v6 v7 v8 v9 v10 v13 v51 v54 v66 v70 r := by
  unfold s12
  rw [k1_pay12_apply, pay10_nest]
  have e3 : ∀ j : Fin 138, k1_pay3 (F := Ideal) v1 v9 (ix2 r j) = s3 v1 v9 r j := fun j => k1_pay3_apply v1 v9 r j
  have e4 : ∀ j : Fin 138, k1_pay4 (F := Ideal) v1 v10 (ix2 r j) = s4 v1 v10 r j := fun j => k1_pay4_apply v1 v10 r j
  simp only [e3, e4, pay8_nest, pay9_nest, z79_nest]

theorem w127_nest (v3 : Vec Ideal S256x600 .f32) (v4 v5 : Vec Ideal S256x138 .f32) (v11 : Vec Ideal S1x138 .f32)
    (v115 : Vec Ideal S138x600 .bf16) (r : Fin 256) (j : Fin 138) :
    w127 v4 v5 (k1_pay2 (F := Ideal) v11) (k1_pay13 v3) (k1_pay14 v115) r j = s127 v3 v4 v5 v11 v115 r j := by
  rw [k1_pay2_eq, k1_pay14_eq]
  rfl

/-- The stored block at row `r` is the formula. -/
theorem rowPay_apply (v0 : Vec Ideal S256x600 .f32) (v1 : Vec Ideal S256x138 .f32) (v2 v3 : Vec Ideal S256x600 .f32)
    (v4 v5 : Vec Ideal S256x138 .f32) (v6 v7 : Vec Ideal S256x300 .f32) (v8 : Vec Ideal S256x411 .f32)
    (v9 v10 v11 : Vec Ideal S1x138 .f32) (v13 : Vec Ideal S1x600 .f32) (v51 : Vec Ideal S600x600 .bf16)
    (v54 : Vec Ideal S138x600 .bf16) (v66 : Vec Ideal S822x600 .bf16) (v70 : Vec Ideal S822x822 .bf16)
    (v115 : Vec Ideal S138x600 .bf16) (r : Fin 256) :
    rowPay v0 v1 v2 v3 v4 v5 v6 v7 v8 v9 v10 v11 v13 v51 v54 v66 v70 v115 (ix2 r (0 : Fin 1))
      = rowSpec v0 v1 v2 v3 v4 v5 v6 v7 v8 v9 v10 v11 v13 v51 v54 v66 v70 v115 r := by
  unfold rowPay rowSpec s15
  rw [k1_pay1_apply, k1_pay15_apply, pay12_nest]
  simp only [w127_nest]

end Cert.KernelIdeal.PayValue

end
-- ==== Proof.PayGlob.lean ====
/-
  The global-scalar kernel's four pure values read at their one entry, on the extended reals.
  Every step reads one operation at an index: a cast between a vector and a column moves no data, a reduction by
  addition along one axis is the sum over that axis, a matrix product into the zero accumulator is the sum over the
  contracted coordinate, a change of float format is the identity, and a row repeated down the rows reads its entry.
-/
import proofs.«141359_j50938312131078_1_alg».proof.Proof.Gen.KernelIdeal.Skeleton
import proofs.«141359_j50938312131078_1_alg».proof.Proof.LibColumn
import proofs.«141359_j50938312131078_1_alg».proof.Proof.LibMatmulRows
import proofs.«141359_j50938312131078_1_alg».proof.Proof.LibAxisSum
import Idealize.ShloMosaic.Lib.ValueLayout

noncomputable section

open scoped BigOperators

namespace Cert.KernelIdeal.PayValue

open Idealize.ShloMosaic Idealize.ShloMosaic.ValueIdx Cert.KernelIdeal Cert.KernelIdeal.Gen

/-- One masked quadratic form of a block of 2048 rows: the row-wise product `x · (x Wᵀ)`, times the mask row, summed
    over the lanes and then over the rows, as the kernel spells it. -/
def quadBlk (v3 : FVec Ideal S2048x600 .f32) (w : FVec Ideal S600x600 .bf16) (v13 : FVec Ideal S1x600 .f32) :
    FVec Ideal S1x1 .f32 :=
  shapeCast S1x1
    (multiReduction (F := Ideal) .add [0] S1
      (shapeCast S2048x1
        (multiReduction (F := Ideal) .add [1] S2048
          (mulf
            (mulf v3
              (matmul dot_S2048x600_S600x600_S2048x600_1_1_0_0_n_n none (truncf .bf16 v3 bitsLt_bf16_f32)
                (shapeCast S600x600 w shapeCasts_S600x600_S600x600) (constant (F := Ideal) S2048x600 .f32 0x00000000#32)))
            (broadcastTo S2048x600 v13 broadcasts_S1x600_S2048x600))
          0x00000000#32 reduces_S2048x600_S2048 (.inl rfl) rfl)
        shapeCasts_S2048_S2048x1)
      0x00000000#32 reduces_S2048x1_S1 (.inl rfl) rfl)
    shapeCasts_S1_S1x1

/-- The first carried value is the sum of the two quadratic forms. -/
theorem k0_pay3_eq (v3 : Vec Ideal S2048x600 .f32) (v5 v7 : Vec Ideal S600x600 .bf16) (v13 : Vec Ideal S1x600 .f32) :
    k0_pay3 (F := Ideal) v3 v5 v7 v13 = addf (quadBlk v3 v5 v13) (quadBlk v3 v7 v13) := rfl

/-- A quadratic form at its one entry. -/
theorem quadBlk_apply (v3 : FVec Ideal S2048x600 .f32) (w : FVec Ideal S600x600 .bf16) (v13 : FVec Ideal S1x600 .f32) :
    quadBlk v3 w v13 (ix2 (0 : Fin 1) (0 : Fin 1))
      = ∑ r : Fin 2048, ∑ c : Fin 600,
          (v3 (ix2 r c) * ∑ k : Fin 600, v3 (ix2 r k) * w (ix2 c k)) * v13 (ix2 (0 : Fin 1) c) := by
  unfold quadBlk
  refine (Cert.Lib.Column.shapeCast_a_a1_apply _ shapeCasts_S1_S1x1 (0 : Fin 1) (0 : Fin 1)).trans ?_
  refine (Cert.Lib.AxisSum.rowSum_apply _ reduces_S2048x1_S1 (.inl rfl) rfl (0 : Fin 1)).trans ?_
  refine Finset.sum_congr rfl fun r _ => ?_
  refine (Cert.Lib.Column.shapeCast_a_a1_apply _ shapeCasts_S2048_S2048x1 r (0 : Fin 1)).trans ?_
  refine (Cert.Lib.AxisSum.laneSum_apply _ reduces_S2048x600_S2048 (.inl rfl) rfl r).trans ?_
  refine Finset.sum_congr rfl fun c _ => ?_
  refine (mulf_apply _ _ _).trans ?_
  refine congrArg₂ (· * ·) ((mulf_apply _ _ _).trans (congrArg (v3 (ix2 r c) * ·) ?_))
    (broadcastTo_1b_ab_apply v13 broadcasts_S1x600_S2048x600 r c)
  refine (MatmulRows.matmul_zero_apply dot_S2048x600_S600x600_S2048x600_1_1_0_0_n_n rfl rfl rfl rfl rfl rfl none
    (truncf .bf16 v3 bitsLt_bf16_f32) (shapeCast S600x600 w shapeCasts_S600x600_S600x600) r c).trans ?_
  refine Finset.sum_congr rfl fun k _ => ?_
  exact congrArg (v3 (ix2 r k) * ·) (congrFun (shapeCast_self w shapeCasts_S600x600_S600x600) (ix2 c k))

/-- The block's masked quadratic-form partial sum at its one entry. -/
theorem k0_pay3_apply (v3 : Vec Ideal S2048x600 .f32) (v5 v7 : Vec Ideal S600x600 .bf16) (v13 : Vec Ideal S1x600 .f32) :
    k0_pay3 (F := Ideal) v3 v5 v7 v13 (ix2 (0 : Fin 1) (0 : Fin 1))
      = (∑ r : Fin 2048, ∑ c : Fin 600,
          (v3 (ix2 r c) * ∑ k : Fin 600, v3 (ix2 r k) * v5 (ix2 c k)) * v13 (ix2 (0 : Fin 1) c))
        + ∑ r : Fin 2048, ∑ c : Fin 600,
          (v3 (ix2 r c) * ∑ k : Fin 600, v3 (ix2 r k) * v7 (ix2 c k)) * v13 (ix2 (0 : Fin 1) c) := by
  rw [k0_pay3_eq]
  exact (addf_apply _ _ _).trans (congrArg₂ (· + ·) (quadBlk_apply v3 v5 v13) (quadBlk_apply v3 v7 v13))

/-- The block's sum of absolute values on the one-hot row's column, at its one entry. -/
theorem k0_pay4_apply (v3 : Vec Ideal S2048x600 .f32) (v27 : Vec Ideal S1x600 .f32) :
    k0_pay4 (F := Ideal) v3 v27 (ix2 (0 : Fin 1) (0 : Fin 1))
      = ∑ r : Fin 2048, ∑ c : Fin 600, max (v3 (ix2 r c)) (-(v3 (ix2 r c))) * v27 (ix2 (0 : Fin 1) c) := by
  unfold k0_pay4
  refine (Cert.Lib.Column.shapeCast_a_a1_apply _ shapeCasts_S1_S1x1 (0 : Fin 1) (0 : Fin 1)).trans ?_
  refine (Cert.Lib.AxisSum.rowSum_apply _ reduces_S2048x1_S1 (.inl rfl) rfl (0 : Fin 1)).trans ?_
  refine Finset.sum_congr rfl fun r _ => ?_
  refine (Cert.Lib.Column.shapeCast_a_a1_apply _ shapeCasts_S2048_S2048x1 r (0 : Fin 1)).trans ?_
  refine (Cert.Lib.AxisSum.laneSum_apply _ reduces_S2048x600_S2048 (.inl rfl) rfl r).trans ?_
  refine Finset.sum_congr rfl fun c _ => ?_
  refine (mulf_apply _ _ _).trans ?_
  exact congrArg (max (v3 (ix2 r c)) (-(v3 (ix2 r c))) * ·) (broadcastTo_1b_ab_apply v27 broadcasts_S1x600_S2048x600 r c)

/-- The value stored back into the accumulator: the old value plus the two partial sums. -/
theorem k0_pay1_apply (v26 v34 : FVec Ideal S1x1 .f32) (v35 : Vec Ideal S1x1 .f32) :
    k0_pay1 (F := Ideal) v26 v34 v35 (ix2 (0 : Fin 1) (0 : Fin 1))
      = v35 (ix2 (0 : Fin 1) (0 : Fin 1)) + (v26 (ix2 (0 : Fin 1) (0 : Fin 1)) + v34 (ix2 (0 : Fin 1) (0 : Fin 1))) := by
  unfold k0_pay1
  exact congrFun (shapeCast_self _ shapeCasts_S1x1_S1x1) _

/-- The value the accumulator is cleared to: zero. -/
theorem k0_pay2_apply : k0_pay2 (F := Ideal) (ix2 (0 : Fin 1) (0 : Fin 1)) = 0 := by
  unfold k0_pay2
  refine (congrFun (shapeCast_self _ shapeCasts_S1x1_S1x1) _).trans ?_
  exact Ideal.ofBits_zero_f32

end Cert.KernelIdeal.PayValue

end
-- ==== Proof.RefSpec.lean ====
/-
  The reference's result, row by row, as an expression in the eighteen argument arrays over the extended reals.

  Each definition below is one named piece of the reference computation, written with finite sums over literal index
  ranges and in the reference's own order of operations; no program is imported here.  Float literals stay as the
  extended reals their words denote (`Ideal.ofBits .f32 …`), except the zero word, which is `0`; a sum that starts
  from the zero word is written as the bare sum, a rectified value as `max x 0`, an absolute value as `max x (-x)`,
  and a quotient as `Ideal.div`.
-/
import Idealize.ShloMosaic.PureOps.Ideal
import Idealize.ShloMosaic.PureOps.Ideal.Laws
import Idealize.ShloMosaic.Lib.ValueIdx

noncomputable section

open scoped BigOperators

namespace Cert.ReferenceIdeal.RefValue

open Idealize.ShloMosaic Idealize.ShloMosaic.ValueIdx

/-- An `n`-by-`m` array of extended reals. -/
local notation "A[" n "," m "]" => FVec Ideal (⟨2, ![n, m]⟩ : Shape) FTy.f32

/-! ## Column embeddings: the two halves of a row of voltages or of branch currents -/

/-- Column `k` of the first 299 columns of a 600-column row. -/
abbrev c299lo (k : Fin 299) : Fin 600 := ⟨k.val, by have := k.isLt; omega⟩
/-- Column `300 + k`, `k < 299`, of a 600-column row. -/
abbrev c299hi (k : Fin 299) : Fin 600 := ⟨300 + k.val, by have := k.isLt; omega⟩
/-- Column `k` of the first half (the real parts) of a 600-column row. -/
abbrev c300lo (k : Fin 300) : Fin 600 := ⟨k.val, by have := k.isLt; omega⟩
/-- Column `300 + k` of the second half (the imaginary parts) of a 600-column row. -/
abbrev c300hi (k : Fin 300) : Fin 600 := ⟨300 + k.val, by have := k.isLt; omega⟩
/-- Column `k` of the first half of an 822-column row. -/
abbrev c411lo (k : Fin 411) : Fin 822 := ⟨k.val, by have := k.isLt; omega⟩
/-- Column `411 + k` of the second half of an 822-column row. -/
abbrev c411hi (k : Fin 411) : Fin 822 := ⟨411 + k.val, by have := k.isLt; omega⟩
/-- Column 300: the imaginary part at the first bus. -/
abbrev c300 : Fin 600 := ⟨300, by omega⟩

/-! ## The literals -/

/-- The batch size 32768 as a float. -/
abbrev cBatch : EReal := Ideal.ofBits .f32 0x47000000#32
/-- The squared upper voltage bound, the float nearest 1.1236. -/
abbrev cVmax2 : EReal := Ideal.ofBits .f32 0x3F8FD220#32
/-- The squared lower voltage bound, the float nearest 0.8836. -/
abbrev cVmin2 : EReal := Ideal.ofBits .f32 0x3F62339C#32
/-- The float 1. -/
abbrev cOne : EReal := Ideal.ofBits .f32 0x3F800000#32
/-- The float 69. -/
abbrev c69 : EReal := Ideal.ofBits .f32 0x428A0000#32

/-! ## The power-balance terms -/

/-- `volt[b,r] * (M[r,:] · volt[b,:])`: entry `(b, r)` of the per-bus quadratic form. -/
def quad (volt : A[32768,600]) (M : A[600,600]) (b : Fin 32768) (r : Fin 600) : EReal :=
  volt (ix2 b r) * ∑ k : Fin 600, volt (ix2 b k) * M (ix2 r k)

/-- The quadratic form summed over all rows and the columns `0 … 298`. -/
def quadSumLo (volt : A[32768,600]) (M : A[600,600]) : EReal :=
  ∑ a : Fin 32768, ∑ k : Fin 299, quad volt M a (c299lo k)
/-- The quadratic form summed over all rows and the columns `300 … 598`. -/
def quadSumHi (volt : A[32768,600]) (M : A[600,600]) : EReal :=
  ∑ a : Fin 32768, ∑ k : Fin 299, quad volt M a (c299hi k)

/-- The scalar made of the four slice sums of the two quadratic forms. -/
def scalarPQ (volt : A[32768,600]) (Y Yc : A[600,600]) : EReal :=
  ((quadSumLo volt Y + quadSumHi volt Y) + quadSumLo volt Yc) + quadSumHi volt Yc

/-- Entry `(b, r)` of the load/generation mismatch `P_Loads · Map_L − P_Gens · Map_g`. -/
def mism (pg : A[32768,138]) (pl : A[32768,600]) (mapG : A[138,600]) (mapL : A[600,600])
    (b : Fin 32768) (r : Fin 600) : EReal :=
  (∑ k : Fin 600, pl (ix2 b k) * mapL (ix2 k r)) - ∑ k : Fin 138, pg (ix2 b k) * mapG (ix2 k r)

/-- Row `b` of the mismatch summed over the columns `0 … 298` and `300 … 598`. -/
def mismSum (pg : A[32768,138]) (pl : A[32768,600]) (mapG : A[138,600]) (mapL : A[600,600]) (b : Fin 32768) : EReal :=
  (∑ k : Fin 299, mism pg pl mapG mapL b (c299lo k)) + ∑ k : Fin 299, mism pg pl mapG mapL b (c299hi k)

/-- The scalar seed: the absolute imaginary voltage at the first bus, summed over the batch. -/
def seed (volt : A[32768,600]) : EReal :=
  ∑ a : Fin 32768, max (volt (ix2 a c300)) (-(volt (ix2 a c300)))

/-- The first three terms: seed, the slice sums, and the batch size times the row's mismatch sum. -/
def kkt0 (volt : A[32768,600]) (pg : A[32768,138]) (pl : A[32768,600]) (Y Yc : A[600,600])
    (mapG : A[138,600]) (mapL : A[600,600]) (b : Fin 32768) : EReal :=
  (seed volt + scalarPQ volt Y Yc) + cBatch * mismSum pg pl mapG mapL b

/-! ## The inequality terms -/

/-- Generation above its upper bound, rectified, summed over the generators. -/
def genUp (pg : A[32768,138]) (gmax : A[1,138]) (b : Fin 32768) : EReal :=
  ∑ k : Fin 138, max (pg (ix2 b k) - gmax (ix2 (0 : Fin 1) k)) 0
/-- Generation below its lower bound, rectified, summed over the generators. -/
def genDn (pg : A[32768,138]) (gmin : A[1,138]) (b : Fin 32768) : EReal :=
  ∑ k : Fin 138, max (gmin (ix2 (0 : Fin 1) k) - pg (ix2 b k)) 0

/-- Squared voltage magnitude at bus `k` minus the squared upper bound. -/
def vUp (volt : A[32768,600]) (b : Fin 32768) (k : Fin 300) : EReal :=
  (volt (ix2 b (c300lo k)) * volt (ix2 b (c300lo k)) + volt (ix2 b (c300hi k)) * volt (ix2 b (c300hi k))) - cVmax2
/-- The lower-bound expression at bus `k`, with the reference's signs: bound minus real part squared plus imaginary part squared. -/
def vDn (volt : A[32768,600]) (b : Fin 32768) (k : Fin 300) : EReal :=
  (cVmin2 - volt (ix2 b (c300lo k)) * volt (ix2 b (c300lo k))) + volt (ix2 b (c300hi k)) * volt (ix2 b (c300hi k))

/-- The rectified upper voltage violations summed over the buses. -/
def vUpSum (volt : A[32768,600]) (b : Fin 32768) : EReal := ∑ k : Fin 300, max (vUp volt b k) 0
/-- The rectified lower voltage expressions summed over the buses. -/
def vDnSum (volt : A[32768,600]) (b : Fin 32768) : EReal := ∑ k : Fin 300, max (vDn volt b k) 0

/-- Entry `(b, r)` of the branch currents `(volt · IMᵀ) · Ybrᵀ`. -/
def ibr (volt : A[32768,600]) (ybr : A[822,822]) (im : A[822,600]) (b : Fin 32768) (r : Fin 822) : EReal :=
  ∑ k : Fin 822, (∑ l : Fin 600, volt (ix2 b l) * im (ix2 k l)) * ybr (ix2 r k)

/-- Squared branch-current magnitude on line `k` minus the limit. -/
def iUp (volt : A[32768,600]) (ybr : A[822,822]) (im : A[822,600]) (b : Fin 32768) (k : Fin 411) : EReal :=
  (ibr volt ybr im b (c411lo k) * ibr volt ybr im b (c411lo k)
    + ibr volt ybr im b (c411hi k) * ibr volt ybr im b (c411hi k)) - cOne

/-- The rectified line-limit violations summed over the lines. -/
def iUpSum (volt : A[32768,600]) (ybr : A[822,822]) (im : A[822,600]) (b : Fin 32768) : EReal :=
  ∑ k : Fin 411, max (iUp volt ybr im b k) 0

/-! ## The complementarity terms -/

/-- Upper generation multipliers against their slacks, in absolute value, averaged over 69. -/
def compGU (pg muGU : A[32768,138]) (gmax : A[1,138]) (b : Fin 32768) : EReal :=
  Ideal.div (∑ k : Fin 138, max (muGU (ix2 b k) * (pg (ix2 b k) - gmax (ix2 (0 : Fin 1) k)))
      (-(muGU (ix2 b k) * (pg (ix2 b k) - gmax (ix2 (0 : Fin 1) k))))) c69
/-- Lower generation multipliers against their slacks, in absolute value, averaged over 69. -/
def compGD (pg muGD : A[32768,138]) (gmin : A[1,138]) (b : Fin 32768) : EReal :=
  Ideal.div (∑ k : Fin 138, max (muGD (ix2 b k) * (gmin (ix2 (0 : Fin 1) k) - pg (ix2 b k)))
      (-(muGD (ix2 b k) * (gmin (ix2 (0 : Fin 1) k) - pg (ix2 b k))))) c69
/-- Upper voltage multipliers against `vUp`, in absolute value. -/
def compVU (volt : A[32768,600]) (muVU : A[32768,300]) (b : Fin 32768) : EReal :=
  ∑ k : Fin 300, max (muVU (ix2 b k) * vUp volt b k) (-(muVU (ix2 b k) * vUp volt b k))
/-- Lower voltage multipliers against `vDn`, in absolute value. -/
def compVD (volt : A[32768,600]) (muVD : A[32768,300]) (b : Fin 32768) : EReal :=
  ∑ k : Fin 300, max (muVD (ix2 b k) * vDn volt b k) (-(muVD (ix2 b k) * vDn volt b k))
/-- Line multipliers against `iUp`, in absolute value. -/
def compIU (volt : A[32768,600]) (muIU : A[32768,411]) (ybr : A[822,822]) (im : A[822,600]) (b : Fin 32768) : EReal :=
  ∑ k : Fin 411, max (muIU (ix2 b k) * iUp volt ybr im b k) (-(muIU (ix2 b k) * iUp volt ybr im b k))

/-! ## Stationarity -/

/-- The cost row: the active-power costs followed by 69 zeros. -/
def cost (cpg : A[1,69]) (k : Fin 138) : EReal :=
  if h : k.val < 69 then cpg (ix2 (0 : Fin 1) (⟨k.val, h⟩ : Fin 69)) else 0

/-- The stationarity residual for generator column `k`. -/
def stat (nolp : A[32768,600]) (muGU muGD : A[32768,138]) (mapG : A[138,600]) (cpg : A[1,69])
    (b : Fin 32768) (k : Fin 138) : EReal :=
  ((muGU (ix2 b k) * cOne - muGD (ix2 b k) * cOne)
    + ∑ l : Fin 600, (nolp (ix2 b l) * cOne) * mapG (ix2 k l)) - cost cpg k

/-- The absolute stationarity residuals summed over the generator columns. -/
def statSum (nolp : A[32768,600]) (muGU muGD : A[32768,138]) (mapG : A[138,600]) (cpg : A[1,69]) (b : Fin 32768) : EReal :=
  ∑ k : Fin 138, max (stat nolp muGU muGD mapG cpg b k) (-(stat nolp muGU muGD mapG cpg b k))

/-! ## Dual feasibility -/

/-- The negative part of a row of multipliers, summed. -/
def dualSum {n : Nat} (mu : FVec Ideal (⟨2, ![32768, n]⟩ : Shape) FTy.f32) (b : Fin 32768) : EReal :=
  ∑ k : Fin n, max (-(mu (ix2 b k))) 0

/-! ## The result -/

/-- The reference's result at row `b`: the seventeen terms added from the left in the reference's order. -/
def refSpec (volt : A[32768,600]) (pg : A[32768,138]) (pl nolp : A[32768,600]) (muGU muGD : A[32768,138])
    (muVU muVD : A[32768,300]) (muIU : A[32768,411]) (Y Yc : A[600,600]) (ybr : A[822,822]) (im : A[822,600])
    (mapG : A[138,600]) (mapL : A[600,600]) (gmax gmin : A[1,138]) (cpg : A[1,69]) (b : Fin 32768) : EReal :=
  kkt0 volt pg pl Y Yc mapG mapL b + genUp pg gmax b + genDn pg gmin b + vUpSum volt b + vDnSum volt b
    + iUpSum volt ybr im b + compGU pg muGU gmax b + compGD pg muGD gmin b + compVU volt muVU b + compVD volt muVD b
    + compIU volt muIU ybr im b + statSum nolp muGU muGD mapG cpg b
    + dualSum muGU b + dualSum muGD b + dualSum muVU b + dualSum muVD b + dualSum muIU b

end Cert.ReferenceIdeal.RefValue
-- ==== Proof.KerSpec.lean ====
/-
  The kernel program's result, row by row, as an expression in the argument arrays over the extended reals.
  Row `b` lies in the per-row launch's block `b / 256` at place `b % 256`; its value is that block's row formula.
  The global scalar is accumulated over the 16 blocks of 2048 rows of the voltage array, from zero, one block's
  masked quadratic forms and seed sum at a time.  The program adds the global scalar to every row's value.
-/
import proofs.«141359_j50938312131078_1_alg».proof.Proof.PayRow
import proofs.«141359_j50938312131078_1_alg».proof.Proof.PayGlob
import proofs.«141359_j50938312131078_1_alg».proof.Proof.RefSpec

noncomputable section

open scoped BigOperators

namespace Cert.KernelIdeal.KerValue

open Idealize.ShloMosaic Idealize.ShloMosaic.ValueIdx Cert.KernelIdeal Cert.KernelIdeal.PayValue

/-- Rows `256 t … 256 t + 255` of an array of 32768 rows. -/
def blk256 {C : ℕ} (A : FVec Ideal (⟨2, ![32768, C]⟩ : Shape) FTy.f32) (t : Fin 128) : FVec Ideal (⟨2, ![256, C]⟩ : Shape) FTy.f32 :=
  fun y => A (ix2 (⟨256 * t.val + (y 0).val, by
    have h : (y 0).val < 256 := (y 0).isLt
    have ht := t.isLt
    omega⟩ : Fin 32768) (⟨(y 1).val, (y 1).isLt⟩ : Fin C))

/-- Rows `2048 t … 2048 t + 2047` of the voltage array. -/
def blk2048 (A : FVec Ideal (⟨2, ![32768, 600]⟩ : Shape) FTy.f32) (t : Fin 16) : FVec Ideal (⟨2, ![2048, 600]⟩ : Shape) FTy.f32 :=
  fun y => A (ix2 (⟨2048 * t.val + (y 0).val, by
    have h : (y 0).val < 2048 := (y 0).isLt
    have ht := t.isLt
    omega⟩ : Fin 32768) (⟨(y 1).val, (y 1).isLt⟩ : Fin 600))

theorem blk256_apply {C : ℕ} (A : FVec Ideal (⟨2, ![32768, C]⟩ : Shape) FTy.f32) (t : Fin 128) (r : Fin 256) (j : Fin C) :
    blk256 A t (ix2 r j) = A (ix2 (⟨256 * t.val + r.val, by have := r.isLt; have := t.isLt; omega⟩ : Fin 32768) j) := rfl
theorem blk2048_apply (A : FVec Ideal (⟨2, ![32768, 600]⟩ : Shape) FTy.f32) (t : Fin 16) (r : Fin 2048) (j : Fin 600) :
    blk2048 A t (ix2 r j) = A (ix2 (⟨2048 * t.val + r.val, by have := r.isLt; have := t.isLt; omega⟩ : Fin 32768) j) := rfl

/-- One block's contribution to the global scalar: its two masked quadratic forms, added, plus its seed sum. -/
def globTerm (volt : FVec Ideal (⟨2, ![32768, 600]⟩ : Shape) FTy.f32) (Y Yc : FVec Ideal (⟨2, ![600, 600]⟩ : Shape) FTy.bf16)
    (mask onehot : FVec Ideal (⟨2, ![1, 600]⟩ : Shape) FTy.f32) (t : Fin 16) : EReal :=
  ((∑ r : Fin 2048, ∑ c : Fin 600,
      (blk2048 volt t (ix2 r c) * ∑ k : Fin 600, blk2048 volt t (ix2 r k) * Y (ix2 c k)) * mask (ix2 (0 : Fin 1) c))
    + ∑ r : Fin 2048, ∑ c : Fin 600,
      (blk2048 volt t (ix2 r c) * ∑ k : Fin 600, blk2048 volt t (ix2 r k) * Yc (ix2 c k)) * mask (ix2 (0 : Fin 1) c))
  + ∑ r : Fin 2048, ∑ c : Fin 600, max (blk2048 volt t (ix2 r c)) (-(blk2048 volt t (ix2 r c))) * onehot (ix2 (0 : Fin 1) c)

/-- The accumulator after block `n`: zero, then each block's contribution added on the right. -/
def globAcc (volt : FVec Ideal (⟨2, ![32768, 600]⟩ : Shape) FTy.f32) (Y Yc : FVec Ideal (⟨2, ![600, 600]⟩ : Shape) FTy.bf16)
    (mask onehot : FVec Ideal (⟨2, ![1, 600]⟩ : Shape) FTy.f32) : (n : ℕ) → n < 16 → EReal
  | 0, h => 0 + globTerm volt Y Yc mask onehot ⟨0, h⟩
  | n + 1, h => globAcc volt Y Yc mask onehot n (Nat.lt_of_succ_lt h) + globTerm volt Y Yc mask onehot ⟨n + 1, h⟩

/-- The global scalar. -/
def glob (volt : FVec Ideal (⟨2, ![32768, 600]⟩ : Shape) FTy.f32) (Y Yc : FVec Ideal (⟨2, ![600, 600]⟩ : Shape) FTy.bf16)
    (mask onehot : FVec Ideal (⟨2, ![1, 600]⟩ : Shape) FTy.f32) : EReal :=
  globAcc volt Y Yc mask onehot 15 (by decide)

/-- The block and the place of row `b`. -/
def blkOf (b : Fin 32768) : Fin 128 := ⟨b.val / 256, by have := b.isLt; omega⟩
def plcOf (b : Fin 32768) : Fin 256 := ⟨b.val % 256, Nat.mod_lt _ (by decide)⟩

/-- THE KERNEL PROGRAM'S RESULT at row `b`. -/
def kerSpec (volt : FVec Ideal (⟨2, ![32768, 600]⟩ : Shape) FTy.f32) (pg : FVec Ideal (⟨2, ![32768, 138]⟩ : Shape) FTy.f32)
    (pl nolp : FVec Ideal (⟨2, ![32768, 600]⟩ : Shape) FTy.f32) (muGU muGD : FVec Ideal (⟨2, ![32768, 138]⟩ : Shape) FTy.f32)
    (muVU muVD : FVec Ideal (⟨2, ![32768, 300]⟩ : Shape) FTy.f32) (muIU : FVec Ideal (⟨2, ![32768, 411]⟩ : Shape) FTy.f32)
    (Y Yc : FVec Ideal (⟨2, ![600, 600]⟩ : Shape) FTy.bf16) (ybr : FVec Ideal (⟨2, ![822, 822]⟩ : Shape) FTy.bf16)
    (im : FVec Ideal (⟨2, ![822, 600]⟩ : Shape) FTy.bf16) (mapG : FVec Ideal (⟨2, ![138, 600]⟩ : Shape) FTy.bf16)
    (mapL : FVec Ideal (⟨2, ![600, 600]⟩ : Shape) FTy.bf16) (gmax gmin costrow : FVec Ideal (⟨2, ![1, 138]⟩ : Shape) FTy.f32)
    (mask onehot : FVec Ideal (⟨2, ![1, 600]⟩ : Shape) FTy.f32) (b : Fin 32768) : EReal :=
  rowSpec (blk256 volt (blkOf b)) (blk256 pg (blkOf b)) (blk256 pl (blkOf b)) (blk256 nolp (blkOf b)) (blk256 muGU (blkOf b))
      (blk256 muGD (blkOf b)) (blk256 muVU (blkOf b)) (blk256 muVD (blkOf b)) (blk256 muIU (blkOf b))
      gmax gmin costrow mask mapL mapG im ybr mapG (plcOf b)
    + glob volt Y Yc mask onehot

end Cert.KernelIdeal.KerValue

end
-- ==== Proof.KerFinal.lean ====
/-
  The kernel program's result, in the argument arrays: the per-row launch's column holds each row's formula of its
  block (the blocks being runs of 256 rows of the batch arrays and the whole parameter arrays); the global-scalar
  launch's cell holds the fold of the 16 blocks' contributions; the program flattens the column and adds the scalar
  to every row.
-/
import proofs.«141359_j50938312131078_1_alg».proof.Proof.ValueArrays
import proofs.«141359_j50938312131078_1_alg».proof.Proof.ValueAcc
import proofs.«141359_j50938312131078_1_alg».proof.Proof.ValueRowFinal
import proofs.«141359_j50938312131078_1_alg».proof.Proof.ValueBlocks
import proofs.«141359_j50938312131078_1_alg».proof.Proof.KerSpec
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal.PayValue Cert.KernelIdeal.KerValue

variable (m : (ℓ : Loc nD τ sig) → Buf (Elt Ideal) ℓ) (ρ : Dev nD → PrngReg)

/-! ## The arrays the launches read, named -/

/-- The parameter matrices after the change of float format (the identity on the extended reals). -/
abbrev matY (c : Dev nD) : FVec Ideal S600x600 .bf16 := truncf (F := Ideal) .bf16 (m ((c : Thread nD τ).loc main_arg9) : FVec Ideal S600x600 .f32) bitsLt_bf16_f32
abbrev matYc (c : Dev nD) : FVec Ideal S600x600 .bf16 := truncf (F := Ideal) .bf16 (m ((c : Thread nD τ).loc main_arg10) : FVec Ideal S600x600 .f32) bitsLt_bf16_f32
abbrev matYbr (c : Dev nD) : FVec Ideal S822x822 .bf16 := truncf (F := Ideal) .bf16 (m ((c : Thread nD τ).loc main_arg11) : FVec Ideal S822x822 .f32) bitsLt_bf16_f32
abbrev matIM (c : Dev nD) : FVec Ideal S822x600 .bf16 := truncf (F := Ideal) .bf16 (m ((c : Thread nD τ).loc main_arg12) : FVec Ideal S822x600 .f32) bitsLt_bf16_f32
abbrev matG (c : Dev nD) : FVec Ideal S138x600 .bf16 := truncf (F := Ideal) .bf16 (m ((c : Thread nD τ).loc main_arg13) : FVec Ideal S138x600 .f32) bitsLt_bf16_f32
abbrev matL (c : Dev nD) : FVec Ideal S600x600 .bf16 := truncf (F := Ideal) .bf16 (m ((c : Thread nD τ).loc main_arg14) : FVec Ideal S600x600 .f32) bitsLt_bf16_f32
/-- The cost row: the cost argument followed by zeros. -/
abbrev costRow (c : Dev nD) : FVec Ideal S1x138 .f32 :=
  concatenate S1x138 1 [⟨S1x69, (m ((c : Thread nD τ).loc main_arg17) : S1x69.Idx → Elt Ideal .f32)⟩, ⟨S1x69, broadcastInDim S1x69 ![] bcast_S_S1x69 (constant (F := Ideal) S_ .f32 0x00000000#32)⟩] concatenates_S1x69_S1x69_S1x138_d1
/-- The two constant 0/1 rows. -/
abbrev maskRow : FVec Ideal S1x600 .f32 := fun i => FloatOps.ofBits (F := Ideal) .f32 (lit0 (S1x600.rowMajor i))
abbrev hotRow : FVec Ideal S1x600 .f32 := fun i => FloatOps.ofBits (F := Ideal) .f32 (lit1 (S1x600.rowMajor i))

/-! ## The blocks of the per-row launch -/

theorem rblk_0 (c : Dev nD) (t : Fin cfg1.N) (t' : Fin 128) (ht : t.val = t'.val) :
    (iblk1 (E2 m ρ) c 0 t : FVec Ideal S256x600 .f32) = blk256 (m ((c : Thread nD τ).loc main_arg0) : FVec Ideal S32768x600 .f32) t' := by
  refine funext fun (y : S256x600.Idx) => ?_
  obtain ⟨r, j, rfl⟩ : ∃ (r : Fin 256) (j : Fin 600), y = ix2 r j := ⟨y 0, y 1, eq_ix2 y⟩
  refine (iblk1_0_apply (E2 m ρ) c t r j).trans ((congrFun (E2_arr0 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_1 (c : Dev nD) (t : Fin cfg1.N) (t' : Fin 128) (ht : t.val = t'.val) :
    (iblk1 (E2 m ρ) c 1 t : FVec Ideal S256x138 .f32) = blk256 (m ((c : Thread nD τ).loc main_arg1) : FVec Ideal S32768x138 .f32) t' := by
  refine funext fun (y : S256x138.Idx) => ?_
  obtain ⟨r, j, rfl⟩ : ∃ (r : Fin 256) (j : Fin 138), y = ix2 r j := ⟨y 0, y 1, eq_ix2 y⟩
  refine (iblk1_1_apply (E2 m ρ) c t r j).trans ((congrFun (E2_arr1 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_2 (c : Dev nD) (t : Fin cfg1.N) (t' : Fin 128) (ht : t.val = t'.val) :
    (iblk1 (E2 m ρ) c 2 t : FVec Ideal S256x600 .f32) = blk256 (m ((c : Thread nD τ).loc main_arg2) : FVec Ideal S32768x600 .f32) t' := by
  refine funext fun (y : S256x600.Idx) => ?_
  obtain ⟨r, j, rfl⟩ : ∃ (r : Fin 256) (j : Fin 600), y = ix2 r j := ⟨y 0, y 1, eq_ix2 y⟩
  refine (iblk1_2_apply (E2 m ρ) c t r j).trans ((congrFun (E2_arr2 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_3 (c : Dev nD) (t : Fin cfg1.N) (t' : Fin 128) (ht : t.val = t'.val) :
    (iblk1 (E2 m ρ) c 3 t : FVec Ideal S256x600 .f32) = blk256 (m ((c : Thread nD τ).loc main_arg3) : FVec Ideal S32768x600 .f32) t' := by
  refine funext fun (y : S256x600.Idx) => ?_
  obtain ⟨r, j, rfl⟩ : ∃ (r : Fin 256) (j : Fin 600), y = ix2 r j := ⟨y 0, y 1, eq_ix2 y⟩
  refine (iblk1_3_apply (E2 m ρ) c t r j).trans ((congrFun (E2_arr3 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_4 (c : Dev nD) (t : Fin cfg1.N) (t' : Fin 128) (ht : t.val = t'.val) :
    (iblk1 (E2 m ρ) c 4 t : FVec Ideal S256x138 .f32) = blk256 (m ((c : Thread nD τ).loc main_arg4) : FVec Ideal S32768x138 .f32) t' := by
  refine funext fun (y : S256x138.Idx) => ?_
  obtain ⟨r, j, rfl⟩ : ∃ (r : Fin 256) (j : Fin 138), y = ix2 r j := ⟨y 0, y 1, eq_ix2 y⟩
  refine (iblk1_4_apply (E2 m ρ) c t r j).trans ((congrFun (E2_arr4 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_5 (c : Dev nD) (t : Fin cfg1.N) (t' : Fin 128) (ht : t.val = t'.val) :
    (iblk1 (E2 m ρ) c 5 t : FVec Ideal S256x138 .f32) = blk256 (m ((c : Thread nD τ).loc main_arg5) : FVec Ideal S32768x138 .f32) t' := by
  refine funext fun (y : S256x138.Idx) => ?_
  obtain ⟨r, j, rfl⟩ : ∃ (r : Fin 256) (j : Fin 138), y = ix2 r j := ⟨y 0, y 1, eq_ix2 y⟩
  refine (iblk1_5_apply (E2 m ρ) c t r j).trans ((congrFun (E2_arr5 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_6 (c : Dev nD) (t : Fin cfg1.N) (t' : Fin 128) (ht : t.val = t'.val) :
    (iblk1 (E2 m ρ) c 6 t : FVec Ideal S256x300 .f32) = blk256 (m ((c : Thread nD τ).loc main_arg6) : FVec Ideal S32768x300 .f32) t' := by
  refine funext fun (y : S256x300.Idx) => ?_
  obtain ⟨r, j, rfl⟩ : ∃ (r : Fin 256) (j : Fin 300), y = ix2 r j := ⟨y 0, y 1, eq_ix2 y⟩
  refine (iblk1_6_apply (E2 m ρ) c t r j).trans ((congrFun (E2_arr6 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_7 (c : Dev nD) (t : Fin cfg1.N) (t' : Fin 128) (ht : t.val = t'.val) :
    (iblk1 (E2 m ρ) c 7 t : FVec Ideal S256x300 .f32) = blk256 (m ((c : Thread nD τ).loc main_arg7) : FVec Ideal S32768x300 .f32) t' := by
  refine funext fun (y : S256x300.Idx) => ?_
  obtain ⟨r, j, rfl⟩ : ∃ (r : Fin 256) (j : Fin 300), y = ix2 r j := ⟨y 0, y 1, eq_ix2 y⟩
  refine (iblk1_7_apply (E2 m ρ) c t r j).trans ((congrFun (E2_arr7 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_8 (c : Dev nD) (t : Fin cfg1.N) (t' : Fin 128) (ht : t.val = t'.val) :
    (iblk1 (E2 m ρ) c 8 t : FVec Ideal S256x411 .f32) = blk256 (m ((c : Thread nD τ).loc main_arg8) : FVec Ideal S32768x411 .f32) t' := by
  refine funext fun (y : S256x411.Idx) => ?_
  obtain ⟨r, j, rfl⟩ : ∃ (r : Fin 256) (j : Fin 411), y = ix2 r j := ⟨y 0, y 1, eq_ix2 y⟩
  refine (iblk1_8_apply (E2 m ρ) c t r j).trans ((congrFun (E2_arr8 m ρ c) _).trans ?_)
  refine Eq.trans ?_ (blk256_apply _ t' r j).symm
  refine congrArg _ ?_
  funext a
  match a with
  | ⟨0, _⟩ => exact Fin.ext (by show 256 * t.val + r.val = 256 * t'.val + r.val; rw [ht])
  | ⟨1, _⟩ => rfl
theorem rblk_9 (c : Dev nD) (t : Fin cfg1.N) :
    (iblk1 (E2 m ρ) c 9 t : FVec Ideal S600x600 .bf16) = matL m c := by
  refine funext fun (y : S600x600.Idx) => ?_
  obtain ⟨r, j, rfl⟩ : ∃ (r : Fin 600) (j : Fin 600), y = ix2 r j := ⟨y 0, y 1, eq_ix2 y⟩
  exact (iblk1_9_apply (E2 m ρ) c t r j).trans (congrFun (E2_arr9 m ρ c) _)
theorem rblk_10 (c : Dev nD) (t : Fin cfg1.N) :
    (iblk1 (E2 m ρ) c 10 t : FVec Ideal S138x600 .bf16) = matG m c := by
  refine funext fun (y : S138x600.Idx) => ?_
  obtain ⟨r, j, rfl⟩ : ∃ (r : Fin 138) (j : Fin 600), y = ix2 r j := ⟨y 0, y 1, eq_ix2 y⟩
  exact (iblk1_10_apply (E2 m ρ) c t r j).trans (congrFun (E2_arr10 m ρ c) _)
theorem rblk_11 (c : Dev nD) (t : Fin cfg1.N) :
    (iblk1 (E2 m ρ) c 11 t : FVec Ideal S822x600 .bf16) = matIM m c := by
  refine funext fun (y : S822x600.Idx) => ?_
  obtain ⟨r, j, rfl⟩ : ∃ (r : Fin 822) (j : Fin 600), y = ix2 r j := ⟨y 0, y 1, eq_ix2 y⟩
  exact (iblk1_11_apply (E2 m ρ) c t r j).trans (congrFun (E2_arr11 m ρ c) _)
theorem rblk_12 (c : Dev nD) (t : Fin cfg1.N) :
    (iblk1 (E2 m ρ) c 12 t : FVec Ideal S822x822 .bf16) = matYbr m c := by
  refine funext fun (y : S822x822.Idx) => ?_
  obtain ⟨r, j, rfl⟩ : ∃ (r : Fin 822) (j : Fin 822), y = ix2 r j := ⟨y 0, y 1, eq_ix2 y⟩
  exact (iblk1_12_apply (E2 m ρ) c t r j).trans (congrFun (E2_arr12 m ρ c) _)
theorem rblk_13 (c : Dev nD) (t : Fin cfg1.N) :
    (iblk1 (E2 m ρ) c 13 t : FVec Ideal S1x138 .f32) = (m ((c : Thread nD τ).loc main_arg15) : FVec Ideal S1x138 .f32) := by
  refine funext fun (y : S1x138.Idx) => ?_
  obtain ⟨r, j, rfl⟩ : ∃ (r : Fin 1) (j : Fin 138), y = ix2 r j := ⟨y 0, y 1, eq_ix2 y⟩
  exact (iblk1_13_apply (E2 m ρ) c t r j).trans (congrFun (E2_arr13 m ρ c) _)
theorem rblk_14 (c : Dev nD) (t : Fin cfg1.N) :
    (iblk1 (E2 m ρ) c 14 t : FVec Ideal S1x138 .f32) = (m ((c : Thread nD τ).loc main_arg16) : FVec Ideal S1x138 .f32) := by
  refine funext fun (y : S1x138.Idx) => ?_
  obtain ⟨r, j, rfl⟩ : ∃ (r : Fin 1) (j : Fin 138), y = ix2 r j := ⟨y 0, y 1, eq_ix2 y⟩
  exact (iblk1_14_apply (E2 m ρ) c t r j).trans (congrFun (E2_arr14 m ρ c) _)
theorem rblk_15 (c : Dev nD) (t : Fin cfg1.N) :
    (iblk1 (E2 m ρ) c 15 t : FVec Ideal S1x138 .f32) = costRow m c := by
  refine funext fun (y : S1x138.Idx) => ?_
  obtain ⟨r, j, rfl⟩ : ∃ (r : Fin 1) (j : Fin 138), y = ix2 r j := ⟨y 0, y 1, eq_ix2 y⟩
  exact (iblk1_15_apply (E2 m ρ) c t r j).trans (congrFun (E2_arr15 m ρ c) _)
theorem rblk_16 (c : Dev nD) (t : Fin cfg1.N) :
    (iblk1 (E2 m ρ) c 16 t : FVec Ideal S1x600 .f32) = maskRow := by
  refine funext fun (y : S1x600.Idx) => ?_
  obtain ⟨r, j, rfl⟩ : ∃ (r : Fin 1) (j : Fin 600), y = ix2 r j := ⟨y 0, y 1, eq_ix2 y⟩
  exact (iblk1_16_apply (E2 m ρ) c t r j).trans (congrFun (E2_arr16 m ρ c) _)

/-! ## The blocks of the global-scalar launch -/

theorem gblk_0 (c : Dev nD) (t : Fin cfg0.N) (t' : Fin 16) (ht : t.val = t'.val) :
    (iblk0 (E1 m ρ) c 0 t : FVec Ideal S2048x600 .f32) = blk2048 (m ((c : Thread nD τ).loc main_arg0) : FVec Ideal S32768x600 .f32) t' := by
  refine funext fun (y : S2048x600.Idx) => ?_
  obtain ⟨r, j, rfl⟩ : ∃ (r : Fin 2048) (j : Fin 600), y = ix2 r j := ⟨y 0, y 1, eq_ix2 y⟩
  refine (iblk0_0_apply (E1 m ρ) c t r j).trans ((congrFun (E1_arr0 m ρ c) _).trans ?_)
  refine Eq.trans ?_ (blk2048_apply _ t' r j).symm
  refine congrArg _ ?_
  funext a
  match a with
  | ⟨0, _⟩ => exact Fin.ext (by show 2048 * t.val + r.val = 2048 * t'.val + r.val; rw [ht])
  | ⟨1, _⟩ => rfl
theorem gblk_1 (c : Dev nD) (t : Fin cfg0.N) :
    (iblk0 (E1 m ρ) c 1 t : FVec Ideal S600x600 .bf16) = matY m c := by
  refine funext fun (y : S600x600.Idx) => ?_
  obtain ⟨r, j, rfl⟩ : ∃ (r : Fin 600) (j : Fin 600), y = ix2 r j := ⟨y 0, y 1, eq_ix2 y⟩
  exact (iblk0_1_apply (E1 m ρ) c t r j).trans (congrFun (E1_arr1 m ρ c) _)
theorem gblk_2 (c : Dev nD) (t : Fin cfg0.N) :
    (iblk0 (E1 m ρ) c 2 t : FVec Ideal S600x600 .bf16) = matYc m c := by
  refine funext fun (y : S600x600.Idx) => ?_
  obtain ⟨r, j, rfl⟩ : ∃ (r : Fin 600) (j : Fin 600), y = ix2 r j := ⟨y 0, y 1, eq_ix2 y⟩
  exact (iblk0_2_apply (E1 m ρ) c t r j).trans (congrFun (E1_arr2 m ρ c) _)
theorem gblk_3 (c : Dev nD) (t : Fin cfg0.N) :
    (iblk0 (E1 m ρ) c 3 t : FVec Ideal S1x600 .f32) = maskRow := by
  refine funext fun (y : S1x600.Idx) => ?_
  obtain ⟨r, j, rfl⟩ : ∃ (r : Fin 1) (j : Fin 600), y = ix2 r j := ⟨y 0, y 1, eq_ix2 y⟩
  exact (iblk0_3_apply (E1 m ρ) c t r j).trans (congrFun (E1_arr3 m ρ c) _)
theorem gblk_4 (c : Dev nD) (t : Fin cfg0.N) :
    (iblk0 (E1 m ρ) c 4 t : FVec Ideal S1x600 .f32) = hotRow := by
  refine funext fun (y : S1x600.Idx) => ?_
  obtain ⟨r, j, rfl⟩ : ∃ (r : Fin 1) (j : Fin 600), y = ix2 r j := ⟨y 0, y 1, eq_ix2 y⟩
  exact (iblk0_4_apply (E1 m ρ) c t r j).trans (congrFun (E1_arr4 m ρ c) _)

/-! ## A row of the per-row launch's column -/

/-- The stored value with the whole-block loads read through: the payload nest of the blocks themselves. -/
theorem rowPay_eq (x0 : Vec Ideal S256x600 .f32) (x1 : Vec Ideal S256x138 .f32) (x2 : Vec Ideal S256x600 .f32) (x3 : Vec Ideal S256x600 .f32) (x4 : Vec Ideal S256x138 .f32) (x5 : Vec Ideal S256x138 .f32) (x6 : Vec Ideal S256x300 .f32) (x7 : Vec Ideal S256x300 .f32) (x8 : Vec Ideal S256x411 .f32) (x9 : Vec Ideal S600x600 .bf16) (x10 : Vec Ideal S138x600 .bf16) (x11 : Vec Ideal S822x600 .bf16) (x12 : Vec Ideal S822x822 .bf16) (x13 : Vec Ideal S1x138 .f32) (x14 : Vec Ideal S1x138 .f32) (x15 : Vec Ideal S1x138 .f32) (x16 : Vec Ideal S1x600 .f32) :
    Hand.rowPay (F := Ideal) x0 x1 x2 x3 x4 x5 x6 x7 x8 x9 x10 x11 x12 x13 x14 x15 x16 = PayValue.rowPay x0 x1 x2 x3 x4 x5 x6 x7 x8 x13 x14 x15 x16 x9 x10 x11 x12 x10 := by
  unfold Hand.rowPay PayValue.rowPay
  simp only [View.ld_unit_zero (S := S256x600) hz2, View.ld_unit_zero (S := S256x138) hz2, View.ld_unit_zero (S := S256x300) hz2, View.ld_unit_zero (S := S256x411) hz2, View.ld_unit_zero (S := S600x600) hz2, View.ld_unit_zero (S := S138x600) hz2, View.ld_unit_zero (S := S822x600) hz2, View.ld_unit_zero (S := S822x822) hz2, View.ld_unit_zero (S := S1x138) hz2, View.ld_unit_zero (S := S1x600) hz2]

theorem row_part (c : Dev nD) (b : Fin 32768) :
    rowFinal (E2 m ρ) c (ix2 b (0 : Fin 1))
      = rowSpec (blk256 (m ((c : Thread nD τ).loc main_arg0) : FVec Ideal S32768x600 .f32) (blkOf b)) (blk256 (m ((c : Thread nD τ).loc main_arg1) : FVec Ideal S32768x138 .f32) (blkOf b)) (blk256 (m ((c : Thread nD τ).loc main_arg2) : FVec Ideal S32768x600 .f32) (blkOf b)) (blk256 (m ((c : Thread nD τ).loc main_arg3) : FVec Ideal S32768x600 .f32) (blkOf b))
          (blk256 (m ((c : Thread nD τ).loc main_arg4) : FVec Ideal S32768x138 .f32) (blkOf b)) (blk256 (m ((c : Thread nD τ).loc main_arg5) : FVec Ideal S32768x138 .f32) (blkOf b)) (blk256 (m ((c : Thread nD τ).loc main_arg6) : FVec Ideal S32768x300 .f32) (blkOf b)) (blk256 (m ((c : Thread nD τ).loc main_arg7) : FVec Ideal S32768x300 .f32) (blkOf b)) (blk256 (m ((c : Thread nD τ).loc main_arg8) : FVec Ideal S32768x411 .f32) (blkOf b))
          (m ((c : Thread nD τ).loc main_arg15) : FVec Ideal S1x138 .f32) (m ((c : Thread nD τ).loc main_arg16) : FVec Ideal S1x138 .f32) (costRow m c) maskRow (matL m c) (matG m c) (matIM m c) (matYbr m c) (matG m c) (plcOf b) := by
  have ht : (tOf (ix2 b (0 : Fin 1))).val = (blkOf b).val := rfl
  unfold rowFinal rowOut
  rw [View.canon_unit_zero (S := S256x1) hz2, rowPay_eq]
  refine (rowPay_apply _ _ _ _ _ _ _ _ _ _ _ _ _ _ _ _ _ _ (plcOf b)).trans ?_
  rw [rblk_0 m ρ c _ (blkOf b) ht, rblk_1 m ρ c _ (blkOf b) ht, rblk_2 m ρ c _ (blkOf b) ht, rblk_3 m ρ c _ (blkOf b) ht, rblk_4 m ρ c _ (blkOf b) ht, rblk_5 m ρ c _ (blkOf b) ht, rblk_6 m ρ c _ (blkOf b) ht, rblk_7 m ρ c _ (blkOf b) ht, rblk_8 m ρ c _ (blkOf b) ht, rblk_9 m ρ c, rblk_10 m ρ c, rblk_11 m ρ c, rblk_12 m ρ c, rblk_13 m ρ c, rblk_14 m ρ c, rblk_15 m ρ c, rblk_16 m ρ c]

/-! ## The global scalar -/

theorem glob_part (c : Dev nD) : ∀ (n : ℕ) (hn : n < cfg0.N) (hn' : n < 16),
    (outsAt0 (E1 m ρ) c n hn).2 (ix2 (0 : Fin 1) (0 : Fin 1)) = globAcc (m ((c : Thread nD τ).loc main_arg0) : FVec Ideal S32768x600 .f32) (matY m c) (matYc m c) maskRow hotRow n hn'
  | 0, hn, hn' => by
    rw [outsAt0_zero]
    show cellStep (F := Ideal) _ _ _ _ _ _ (ix2 (0 : Fin 1) (0 : Fin 1)) = _
    unfold cellStep
    rw [gblk_0 m ρ c ⟨0, hn⟩ ⟨0, hn'⟩ rfl, gblk_1 m ρ c ⟨0, hn⟩, gblk_2 m ρ c ⟨0, hn⟩, gblk_3 m ρ c ⟨0, hn⟩, gblk_4 m ρ c ⟨0, hn⟩]
    refine (k0_pay1_apply _ _ _).trans ?_
    rw [k0_pay2_apply, k0_pay3_apply, k0_pay4_apply]
    rfl
  | n + 1, hn, hn' => by
    rw [outsAt0_succ]
    show cellStep (F := Ideal) _ _ _ _ _ _ (ix2 (0 : Fin 1) (0 : Fin 1)) = _
    unfold cellStep
    rw [gblk_0 m ρ c ⟨n + 1, hn⟩ ⟨n + 1, hn'⟩ rfl, gblk_1 m ρ c ⟨n + 1, hn⟩, gblk_2 m ρ c ⟨n + 1, hn⟩, gblk_3 m ρ c ⟨n + 1, hn⟩, gblk_4 m ρ c ⟨n + 1, hn⟩]
    refine (k0_pay1_apply _ _ _).trans ?_
    rw [glob_part c n (Nat.lt_of_succ_lt hn) (Nat.lt_of_succ_lt hn'), k0_pay3_apply, k0_pay4_apply]
    rfl

/-! ## The program's result -/

/-- THE KERNEL PROGRAM'S RESULT at row `b`. -/
theorem ker_final (c : Dev nD) (b : Fin 32768) :
    (W4 m ρ c (Proc.devRef .tc main_v13) : S32768.Idx → EReal) (ix1 b)
      = kerSpec (m ((c : Thread nD τ).loc main_arg0) : FVec Ideal S32768x600 .f32) (m ((c : Thread nD τ).loc main_arg1) : FVec Ideal S32768x138 .f32) (m ((c : Thread nD τ).loc main_arg2) : FVec Ideal S32768x600 .f32) (m ((c : Thread nD τ).loc main_arg3) : FVec Ideal S32768x600 .f32) (m ((c : Thread nD τ).loc main_arg4) : FVec Ideal S32768x138 .f32) (m ((c : Thread nD τ).loc main_arg5) : FVec Ideal S32768x138 .f32) (m ((c : Thread nD τ).loc main_arg6) : FVec Ideal S32768x300 .f32) (m ((c : Thread nD τ).loc main_arg7) : FVec Ideal S32768x300 .f32) (m ((c : Thread nD τ).loc main_arg8) : FVec Ideal S32768x411 .f32) (matY m c) (matYc m c) (matYbr m c) (matIM m c) (matG m c) (matL m c) (m ((c : Thread nD τ).loc main_arg15) : FVec Ideal S1x138 .f32) (m ((c : Thread nD τ).loc main_arg16) : FVec Ideal S1x138 .f32) (costRow m c) maskRow hotRow b := by
  have e1 : shapeCast S32768 (W3 m ρ c (Proc.devRef .tc main_v9) : S32768x1.Idx → Elt Ideal .f32) shapeCasts_S32768x1_S32768 (ix1 b)
      = (W3 m ρ c (Proc.devRef .tc main_v9) : S32768x1.Idx → Elt Ideal .f32) (ix2 b (0 : Fin 1)) :=
    shapeCast_apply _ shapeCasts_S32768x1_S32768 (ix1 b) (ix2 b (0 : Fin 1)) (by
      rw [Shape.rowMajor_val_two, Shape.rowMajor_val_one]; show b.val * 1 + 0 = b.val; omega)
  have e2 : broadcastInDim S32768 ![] bcast_S_S32768 (shapeCast S_ (W3 m ρ c (Proc.devRef .tc main_v8) : S1x1.Idx → Elt Ideal .f32) shapeCasts_S1x1_S_) (ix1 b)
      = (W3 m ρ c (Proc.devRef .tc main_v8) : S1x1.Idx → Elt Ideal .f32) (ix2 (0 : Fin 1) (0 : Fin 1)) :=
    (broadcastInDim_apply ![] bcast_S_S32768 _ (ix1 b) ix0 (fun a => a.elim0)).trans
      (shapeCast_apply _ shapeCasts_S1x1_S_ ix0 (ix2 (0 : Fin 1) (0 : Fin 1)) (by
        have h1 : (S1x1.rowMajor (ix2 (0 : Fin 1) (0 : Fin 1))).val < 1 := (S1x1.rowMajor _).isLt
        have h2 : (S_.rowMajor ix0).val < 1 := (S_.rowMajor _).isLt
        omega))
  rw [W4_v13]
  refine Eq.trans (congrArg₂ (· + ·) e1 e2) ?_
  rw [W3_v9, row_final, W3_v8, glob_final]
  unfold kerSpec glob
  rw [row_part m ρ c b]
  exact congrArg (_ + ·) (glob_part m ρ c 15 h15 (by decide))

end Cert.KernelIdeal.Hand

end
-- ==== Proof.LibLiterals.lean ====
/-
  A float literal as the extended real it denotes: the single-precision word of 1.
-/
import Idealize.ShloMosaic.PureOps.Ideal.Laws

namespace Cert.Lib.Literals

open Idealize.ShloMosaic

/-- The single-precision word `0x3F800000` (sign 0, exponent 127, fraction 0) denotes `2²³ · 2⁻²³ = 1`. -/
theorem ofBits_one_f32 : Ideal.ofBits .f32 0x3F800000#32 = 1 := by
  simp [Ideal.ofBits, Ideal.ieee]
  rw [← EReal.coe_mul, ← EReal.coe_one]
  congr 1
  norm_num

end Cert.Lib.Literals
-- ==== Proof.KerFacts.lean ====
/-
  Three facts about the constant rows the kernel program builds for itself: the mask row is 1 except at columns
  299 and 599, where it is 0; the one-hot row is 1 at column 300 and 0 elsewhere; the cost row is the cost
  argument on its first 69 columns and zero on the other 69.
-/
import proofs.«141359_j50938312131078_1_alg».proof.Proof.KerFinal
import proofs.«141359_j50938312131078_1_alg».proof.Proof.RefSpec
import proofs.«141359_j50938312131078_1_alg».proof.Proof.LibLiterals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.ReferenceIdeal.RefValue

variable (m : (ℓ : Loc nD τ sig) → Buf (Elt Ideal) ℓ)

theorem one_word : Ideal.ofBits .f32 0x3F800000#32 = 1 := Cert.Lib.Literals.ofBits_one_f32

theorem lit0_fact : ∀ c : Fin 600, lit0 c = if c.val = 299 ∨ c.val = 599 then 0x00000000#32 else 0x3F800000#32 := by decide +kernel
theorem lit1_fact : ∀ c : Fin 600, lit1 c = if c.val = 300 then 0x3F800000#32 else 0x00000000#32 := by decide +kernel

theorem rowMajor_1x600 (c : Fin 600) : S1x600.rowMajor (ix2 (0 : Fin 1) c) = c :=
  Fin.ext (by rw [Shape.rowMajor_val_two]; show 0 * 600 + c.val = c.val; omega)

theorem mask_fact (c : Fin 600) : maskRow (ix2 (0 : Fin 1) c) = if c.val = 299 ∨ c.val = 599 then 0 else 1 := by
  show FloatOps.ofBits (F := Ideal) .f32 (lit0 (S1x600.rowMajor (ix2 (0 : Fin 1) c))) = _
  rw [rowMajor_1x600, lit0_fact, Ideal.ofBits_def]
  by_cases h : c.val = 299 ∨ c.val = 599
  · rw [if_pos h, if_pos h]; exact Ideal.ofBits_zero_f32
  · rw [if_neg h, if_neg h]; exact one_word

theorem hot_fact (c : Fin 600) : hotRow (ix2 (0 : Fin 1) c) = if c.val = 300 then 1 else 0 := by
  show FloatOps.ofBits (F := Ideal) .f32 (lit1 (S1x600.rowMajor (ix2 (0 : Fin 1) c))) = _
  rw [rowMajor_1x600, lit1_fact, Ideal.ofBits_def]
  by_cases h : c.val = 300
  · rw [if_pos h, if_pos h]; exact one_word
  · rw [if_neg h, if_neg h]; exact Ideal.ofBits_zero_f32

theorem cost_fact (c : Dev nD) (k : Fin 138) :
    costRow m c (ix2 (0 : Fin 1) k) = cost (m ((c : Thread nD τ).loc main_arg17) : S1x69.Idx → EReal) k := by
  unfold cost
  by_cases h : k.val < 69
  · rw [dif_pos h]
    exact concatenate_pair_apply_left 1 _ _ concatenates_S1x69_S1x69_S1x138_d1 (ix2 (0 : Fin 1) k) rfl
      (ix2 (0 : Fin 1) (⟨k.val, h⟩ : Fin 69)) (fun b => match b with | ⟨0, _⟩ => rfl | ⟨1, _⟩ => rfl)
  · rw [dif_neg h]
    have hk : 69 ≤ k.val := Nat.not_lt.1 h
    refine (concatenate_pair_apply_right 1 _ _ concatenates_S1x69_S1x69_S1x138_d1 (ix2 (0 : Fin 1) k) rfl rfl
      (ix2 (0 : Fin 1) (⟨k.val - 69, by have := k.isLt; omega⟩ : Fin 69)) ?_ ?_).trans ?_
    · intro b hb
      match b with
      | ⟨0, _⟩ => rfl
      | ⟨1, _⟩ => exact absurd rfl hb
    · show (k.val - 69) + 69 = k.val
      omega
    · show (constant (F := Ideal) S_ .f32 0x00000000#32) _ = 0
      exact Ideal.ofBits_zero_f32

end Cert.KernelIdeal.Hand

end
-- ==== Proof.RefIdx.lean ====
/-
  Index arithmetic for reading the reference one element at a time: the index functions the generated read-at-an-index
  module composes (a row of a reduced axis, a slice's offset, a transposition, a broadcast row, the two operand indices of a
  matrix product), each evaluated at an index given by its coordinates; and the sum over a one-axis index set as the sum
  over its coordinate.
-/
import proofs.«141359_j50938312131078_1_alg».proof.Proof.Gen.ReferenceIdeal.Read
import proofs.«141359_j50938312131078_1_alg».proof.Proof.RefSpec

noncomputable section

open scoped BigOperators

namespace Cert.ReferenceIdeal.RefValue

open Idealize.ShloMosaic Idealize.ShloMosaic.ValueIdx Cert.ReferenceIdeal Cert.ReferenceIdeal.Read

/-- Two rank-2 indices with the same coordinates are equal: both sides compute at each axis. -/
macro "idx_eq" : tactic =>
  `(tactic| (funext a; apply Fin.ext; match a with | ⟨0, _⟩ => rfl | ⟨1, _⟩ => rfl))

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A reduced row: row `b`, column `k` -/
theorem e_v23 (b : Fin 32768) (k : Fin 299) : idx_main_v23 (ix1 b) k = ix2 b k := by idx_eq
theorem e_v25 (b : Fin 32768) (k : Fin 299) : idx_main_v25 (ix1 b) k = ix2 b k := by idx_eq
theorem e_v39 (b : Fin 32768) (k : Fin 138) : idx_main_v39 (ix1 b) k = ix2 b k := by idx_eq
theorem e_v44 (b : Fin 32768) (k : Fin 138) : idx_main_v44 (ix1 b) k = ix2 b k := by idx_eq
theorem e_v57 (b : Fin 32768) (k : Fin 300) : idx_main_v57 (ix1 b) k = ix2 b k := by idx_eq
theorem e_v60 (b : Fin 32768) (k : Fin 300) : idx_main_v60 (ix1 b) k = ix2 b k := by idx_eq
theorem e_v74 (b : Fin 32768) (k : Fin 411) : idx_main_v74 (ix1 b) k = ix2 b k := by idx_eq
theorem e_v80 (b : Fin 32768) (k : Fin 138) : idx_main_v80 (ix1 b) k = ix2 b k := by idx_eq
theorem e_v88 (b : Fin 32768) (k : Fin 138) : idx_main_v88 (ix1 b) k = ix2 b k := by idx_eq
theorem e_v94 (b : Fin 32768) (k : Fin 300) : idx_main_v94 (ix1 b) k = ix2 b k := by idx_eq
theorem e_v98 (b : Fin 32768) (k : Fin 300) : idx_main_v98 (ix1 b) k = ix2 b k := by idx_eq
theorem e_v102 (b : Fin 32768) (k : Fin 411) : idx_main_v102 (ix1 b) k = ix2 b k := by idx_eq
theorem e_v119 (b : Fin 32768) (k : Fin 138) : idx_main_v119 (ix1 b) k = ix2 b k := by idx_eq
theorem e_v123 (b : Fin 32768) (k : Fin 138) : idx_main_v123 (ix1 b) k = ix2 b k := by idx_eq
theorem e_v127 (b : Fin 32768) (k : Fin 138) : idx_main_v127 (ix1 b) k = ix2 b k := by idx_eq
theorem e_v131 (b : Fin 32768) (k : Fin 300) : idx_main_v131 (ix1 b) k = ix2 b k := by idx_eq
theorem e_v135 (b : Fin 32768) (k : Fin 300) : idx_main_v135 (ix1 b) k = ix2 b k := by idx_eq
theorem e_v139 (b : Fin 32768) (k : Fin 411) : idx_main_v139 (ix1 b) k = ix2 b k := by idx_eq

/-! ## Slices -/
theorem e_v0 (b : Fin 32768) (k : Fin 300) : idx_main_v0 (ix2 b k) = ix2 b (c300lo k) := by idx_eq
theorem e_v1 (b : Fin 32768) (k : Fin 300) : idx_main_v1 (ix2 b k) = ix2 b (c300hi k) := by idx_eq
theorem e_v8 (b : Fin 32768) (k : Fin 299) : idx_main_v8 (ix2 b k) = ix2 b (c299lo k) := by idx_eq
theorem e_v13 (b : Fin 32768) (k : Fin 299) : idx_main_v13 (ix2 b k) = ix2 b (c299lo k) := by idx_eq
theorem e_v22 (b : Fin 32768) (k : Fin 299) : idx_main_v22 (ix2 b k) = ix2 b (c299lo k) := by idx_eq
theorem e_v10 (b : Fin 32768) (k : Fin 299) : idx_main_v10 (ix2 b k) = ix2 b (c299hi k) := by idx_eq
theorem e_v16 (b : Fin 32768) (k : Fin 299) : idx_main_v16 (ix2 b k) = ix2 b (c299hi k) := by idx_eq
theorem e_v24 (b : Fin 32768) (k : Fin 299) : idx_main_v24 (ix2 b k) = ix2 b (c299hi k) := by idx_eq
theorem e_v66 (b : Fin 32768) (k : Fin 411) : idx_main_v66 (ix2 b k) = ix2 b (c411lo k) := by idx_eq
theorem e_v68 (b : Fin 32768) (k : Fin 411) : idx_main_v68 (ix2 b k) = ix2 b (c411hi k) := by idx_eq
theorem e_v27 (b : Fin 32768) : idx_main_v27 (ix2 b (0 : Fin 1)) = ix2 b c300 := by idx_eq
theorem e_v28 (b : Fin 32768) : idx_main_v28 (ix1 b) = ix2 b (0 : Fin 1) := by
  funext a; apply Fin.ext
  match a with
  | ⟨0, _⟩ => exact Nat.div_one _
  | ⟨1, _⟩ => rfl

/-! ## A one-row array broadcast down the rows -/
theorem e_v36 (b : Fin 32768) (k : Fin 138) : idx_main_v36 (ix2 b k) = ix2 (0 : Fin 1) k := by idx_eq
theorem e_v41 (b : Fin 32768) (k : Fin 138) : idx_main_v41 (ix2 b k) = ix2 (0 : Fin 1) k := by idx_eq
theorem e_v76 (b : Fin 32768) (k : Fin 138) : idx_main_v76 (ix2 b k) = ix2 (0 : Fin 1) k := by idx_eq
theorem e_v84 (b : Fin 32768) (k : Fin 138) : idx_main_v84 (ix2 b k) = ix2 (0 : Fin 1) k := by idx_eq
theorem e_v116 (b : Fin 32768) (k : Fin 138) : idx_main_v116 (ix2 b k) = ix2 (0 : Fin 1) k := by idx_eq

/-! ## Transpositions -/
theorem e_v2 (p : Fin 600) (q : Fin 600) : idx_main_v2 (ix2 p q) = ix2 q p := by idx_eq
theorem e_v5 (p : Fin 600) (q : Fin 600) : idx_main_v5 (ix2 p q) = ix2 q p := by idx_eq
theorem e_v62 (p : Fin 600) (q : Fin 822) : idx_main_v62 (ix2 p q) = ix2 q p := by idx_eq
theorem e_v64 (p : Fin 822) (q : Fin 822) : idx_main_v64 (ix2 p q) = ix2 q p := by idx_eq
theorem e_v113 (p : Fin 600) (q : Fin 138) : idx_main_v113 (ix2 p q) = ix2 q p := by idx_eq

/-! ## The operand indices of a matrix product: entry `(p, q)`, contraction coordinate `k` -/
theorem e_l3 (p : Fin 32768) (q : Fin 600) (k : Fin 600) : lidx_main_v3 (ix2 p q) k = ix2 p k := by idx_eq
theorem e_r3 (p : Fin 32768) (q : Fin 600) (k : Fin 600) : ridx_main_v3 (ix2 p q) k = ix2 k q := by idx_eq
theorem e_l6 (p : Fin 32768) (q : Fin 600) (k : Fin 600) : lidx_main_v6 (ix2 p q) k = ix2 p k := by idx_eq
theorem e_r6 (p : Fin 32768) (q : Fin 600) (k : Fin 600) : ridx_main_v6 (ix2 p q) k = ix2 k q := by idx_eq
theorem e_l19 (p : Fin 32768) (q : Fin 600) (k : Fin 600) : lidx_main_v19 (ix2 p q) k = ix2 p k := by idx_eq
theorem e_r19 (p : Fin 32768) (q : Fin 600) (k : Fin 600) : ridx_main_v19 (ix2 p q) k = ix2 k q := by idx_eq
theorem e_l20 (p : Fin 32768) (q : Fin 600) (k : Fin 138) : lidx_main_v20 (ix2 p q) k = ix2 p k := by idx_eq
theorem e_r20 (p : Fin 32768) (q : Fin 600) (k : Fin 138) : ridx_main_v20 (ix2 p q) k = ix2 k q := by idx_eq
theorem e_l63 (p : Fin 32768) (q : Fin 822) (k : Fin 600) : lidx_main_v63 (ix2 p q) k = ix2 p k := by idx_eq
theorem e_r63 (p : Fin 32768) (q : Fin 822) (k : Fin 600) : ridx_main_v63 (ix2 p q) k = ix2 k q := by idx_eq
theorem e_l65 (p : Fin 32768) (q : Fin 822) (k : Fin 822) : lidx_main_v65 (ix2 p q) k = ix2 p k := by idx_eq
theorem e_r65 (p : Fin 32768) (q : Fin 822) (k : Fin 822) : ridx_main_v65 (ix2 p q) k = ix2 k q := by idx_eq
theorem e_l114 (p : Fin 32768) (q : Fin 138) (k : Fin 600) : lidx_main_v114 (ix2 p q) k = ix2 p k := by idx_eq
theorem e_r114 (p : Fin 32768) (q : Fin 138) (k : Fin 600) : ridx_main_v114 (ix2 p q) k = ix2 k q := by idx_eq

end Cert.ReferenceIdeal.RefValue
-- ==== Proof.RefReadPow.lean ====
/-
  The power-balance terms of the reference: the two quadratic forms entry by entry and their four slice sums over the
  whole batch, the load/generation mismatch and its two row sums, the seed, and the sum of these three as the first
  partial result.
-/
import proofs.«141359_j50938312131078_1_alg».proof.Proof.RefIdx

noncomputable section

open scoped BigOperators

namespace Cert.ReferenceIdeal.RefValue

open Idealize.ShloMosaic Idealize.ShloMosaic.ValueIdx Cert.ReferenceIdeal Cert.ReferenceIdeal.Gen Cert.ReferenceIdeal.Read

local notation "A[" n "," m "]" => FVec Ideal (⟨2, ![n, m]⟩ : Shape) FTy.f32

/-- Entry `(b, r)` of `volt · Yᵀ`. -/
theorem read_v3 (x0 : A[32768,600]) (x9 : A[600,600]) (b : Fin 32768) (r : Fin 600) :
    val_main_v3 (F := Ideal) x0 x9 (ix2 b r) = ∑ k : Fin 600, x0 (ix2 b k) * x9 (ix2 r k) := by
  simp only [val_main_v3_apply, e_l3, e_r3, val_main_v2_apply, e_v2]

/-- Entry `(b, r)` of the first quadratic form. -/
theorem read_v4 (x0 : A[32768,600]) (x9 : A[600,600]) (b : Fin 32768) (r : Fin 600) :
    val_main_v4 (F := Ideal) x0 x9 (ix2 b r) = quad x0 x9 b r := by
  rw [val_main_v4_apply, read_v3]
  rfl

/-- Entry `(b, r)` of `volt · Yconjᵀ`. -/
theorem read_v6 (x0 : A[32768,600]) (x10 : A[600,600]) (b : Fin 32768) (r : Fin 600) :
    val_main_v6 (F := Ideal) x0 x10 (ix2 b r) = ∑ k : Fin 600, x0 (ix2 b k) * x10 (ix2 r k) := by
  simp only [val_main_v6_apply, e_l6, e_r6, val_main_v5_apply, e_v5]

/-- Entry `(b, r)` of the second quadratic form. -/
theorem read_v7 (x0 : A[32768,600]) (x10 : A[600,600]) (b : Fin 32768) (r : Fin 600) :
    val_main_v7 (F := Ideal) x0 x10 (ix2 b r) = quad x0 x10 b r := by
  rw [val_main_v7_apply, read_v6]
  rfl

/-- The first quadratic form over all rows and the columns `0 … 298`. -/
theorem read_v9 (x0 : A[32768,600]) (x9 : A[600,600]) (i : S_.Idx) :
    val_main_v9 (F := Ideal) x0 x9 i = quadSumLo x0 x9 := by
  rw [val_main_v9_apply, sum_idx2]
  simp only [val_main_cst_apply, val_main_v8_apply, e_v8, read_v4, Ideal.ofBits_def, Ideal.ofBits_zero_f32, zero_add]
  rfl

/-- The first quadratic form over all rows and the columns `300 … 598`. -/
theorem read_v11 (x0 : A[32768,600]) (x9 : A[600,600]) (i : S_.Idx) :
    val_main_v11 (F := Ideal) x0 x9 i = quadSumHi x0 x9 := by
  rw [val_main_v11_apply, sum_idx2]
  simp only [val_main_cst_0_apply, val_main_v10_apply, e_v10, read_v4, Ideal.ofBits_def, Ideal.ofBits_zero_f32, zero_add]
  rfl

/-- The second quadratic form over all rows and the columns `0 … 298`. -/
theorem read_v14 (x0 : A[32768,600]) (x10 : A[600,600]) (i : S_.Idx) :
    val_main_v14 (F := Ideal) x0 x10 i = quadSumLo x0 x10 := by
  rw [val_main_v14_apply, sum_idx2]
  simp only [val_main_cst_1_apply, val_main_v13_apply, e_v13, read_v7, Ideal.ofBits_def, Ideal.ofBits_zero_f32, zero_add]
  rfl

/-- The second quadratic form over all rows and the columns `300 … 598`. -/
theorem read_v17 (x0 : A[32768,600]) (x10 : A[600,600]) (i : S_.Idx) :
    val_main_v17 (F := Ideal) x0 x10 i = quadSumHi x0 x10 := by
  rw [val_main_v17_apply, sum_idx2]
  simp only [val_main_cst_2_apply, val_main_v16_apply, e_v16, read_v7, Ideal.ofBits_def, Ideal.ofBits_zero_f32, zero_add]
  rfl

/-- The four slice sums added in the reference's order. -/
theorem read_v18 (x0 : A[32768,600]) (x9 x10 : A[600,600]) (i : S_.Idx) :
    val_main_v18 (F := Ideal) x0 x9 x10 i = scalarPQ x0 x9 x10 := by
  rw [val_main_v18_apply, val_main_v15_apply, val_main_v12_apply, read_v9, read_v11, read_v14, read_v17]
  rfl

/-- Entry `(b, r)` of `P_Loads · Map_L`. -/
theorem read_v19 (x2 : A[32768,600]) (x14 : A[600,600]) (b : Fin 32768) (r : Fin 600) :
    val_main_v19 (F := Ideal) x2 x14 (ix2 b r) = ∑ k : Fin 600, x2 (ix2 b k) * x14 (ix2 k r) := by
  simp only [val_main_v19_apply, e_l19, e_r19]

/-- Entry `(b, r)` of `P_Gens · Map_g`. -/
theorem read_v20 (x1 : A[32768,138]) (x13 : A[138,600]) (b : Fin 32768) (r : Fin 600) :
    val_main_v20 (F := Ideal) x1 x13 (ix2 b r) = ∑ k : Fin 138, x1 (ix2 b k) * x13 (ix2 k r) := by
  simp only [val_main_v20_apply, e_l20, e_r20]

/-- Entry `(b, r)` of the mismatch. -/
theorem read_v21 (x1 : A[32768,138]) (x2 : A[32768,600]) (x13 : A[138,600]) (x14 : A[600,600]) (b : Fin 32768)
    (r : Fin 600) :
    val_main_v21 (F := Ideal) x1 x2 x13 x14 (ix2 b r) = mism x1 x2 x13 x14 b r := by
  rw [val_main_v21_apply, read_v19, read_v20]
  rfl

/-- Row `b` of the mismatch summed over both column ranges. -/
theorem read_v26 (x1 : A[32768,138]) (x2 : A[32768,600]) (x13 : A[138,600]) (x14 : A[600,600]) (b : Fin 32768) :
    val_main_v26 (F := Ideal) x1 x2 x13 x14 (ix1 b) = mismSum x1 x2 x13 x14 b := by
  simp only [val_main_v26_apply, val_main_v23_apply, val_main_v25_apply, e_v23, e_v25, val_main_cst_3_apply,
    val_main_cst_4_apply, val_main_v22_apply, val_main_v24_apply, e_v22, e_v24, read_v21, Ideal.ofBits_def, Ideal.ofBits_zero_f32, zero_add, Ideal.addf_def]
  rfl

/-- The absolute imaginary voltage at the first bus, in row `a`. -/
theorem read_v29 (x0 : A[32768,600]) (a : Fin 32768) :
    val_main_v29 (F := Ideal) x0 (ix1 a) = max (x0 (ix2 a c300)) (-(x0 (ix2 a c300))) := by
  rw [val_main_v29_apply, val_main_v28_apply, e_v28, val_main_v27_apply, e_v27]
  rfl

/-- The seed: that absolute value summed over the batch. -/
theorem read_v30 (x0 : A[32768,600]) (i : S_.Idx) :
    val_main_v30 (F := Ideal) x0 i = seed x0 := by
  rw [val_main_v30_apply, sum_idx1]
  simp only [val_main_cst_5_apply, read_v29, Ideal.ofBits_def, Ideal.ofBits_zero_f32, zero_add]
  rfl

/-- The first partial result at row `b`: seed, slice sums, and batch size times the mismatch row sum. -/
theorem read_v35 (x0 : A[32768,600]) (x1 : A[32768,138]) (x2 : A[32768,600]) (x9 x10 : A[600,600]) (x13 : A[138,600])
    (x14 : A[600,600]) (b : Fin 32768) :
    val_main_v35 (F := Ideal) x0 x1 x2 x9 x10 x13 x14 (ix1 b) = kkt0 x0 x1 x2 x9 x10 x13 x14 b := by
  rw [val_main_v35_apply, val_main_v34_apply, val_main_v31_apply, read_v30, read_v18, val_main_v33_apply,
    val_main_v32_apply, val_main_cst_6_apply, read_v26]
  rfl

end Cert.ReferenceIdeal.RefValue
-- ==== Proof.RefReadGen.lean ====
/-
  The generation-bound terms of the reference read at a row: the rectified violations of the upper and lower bounds, and
  the two complementarity terms (multiplier times slack, in absolute value, summed and divided by 69).
-/
import proofs.«141359_j50938312131078_1_alg».proof.Proof.RefIdx

noncomputable section

open scoped BigOperators

namespace Cert.ReferenceIdeal.RefValue

open Idealize.ShloMosaic Idealize.ShloMosaic.ValueIdx Cert.ReferenceIdeal Cert.ReferenceIdeal.Gen Cert.ReferenceIdeal.Read

local notation "A[" n "," m "]" => FVec Ideal (⟨2, ![n, m]⟩ : Shape) FTy.f32

/-- Generation above the upper bound, rectified and summed over the row. -/
theorem read_v39 (x1 : A[32768,138]) (x15 : A[1,138]) (b : Fin 32768) :
    val_main_v39 (F := Ideal) x1 x15 (ix1 b) = genUp x1 x15 b := by
  simp only [val_main_v39_apply, e_v39, val_main_cst_7_apply, val_main_v38_apply, val_main_v37_apply, val_main_v36_apply,
    e_v36, val_main_call0_v0_apply, val_main_call0_cst_apply, Ideal.ofBits_def, Ideal.ofBits_zero_f32, zero_add, Ideal.maximumf_def, Ideal.subf_def]
  rfl

/-- Generation below the lower bound, rectified and summed over the row. -/
theorem read_v44 (x1 : A[32768,138]) (x16 : A[1,138]) (b : Fin 32768) :
    val_main_v44 (F := Ideal) x1 x16 (ix1 b) = genDn x1 x16 b := by
  simp only [val_main_v44_apply, e_v44, val_main_cst_8_apply, val_main_v43_apply, val_main_v42_apply, val_main_v41_apply,
    e_v41, val_main_call1_v0_apply, val_main_call1_cst_apply, Ideal.ofBits_def, Ideal.ofBits_zero_f32, zero_add, Ideal.maximumf_def, Ideal.subf_def]
  rfl

/-- The upper generation multipliers against their slacks. -/
theorem read_v82 (x1 x4 : A[32768,138]) (x15 : A[1,138]) (b : Fin 32768) :
    val_main_v82 (F := Ideal) x1 x4 x15 (ix1 b) = compGU x1 x4 x15 b := by
  simp only [val_main_v82_apply, val_main_v80_apply, e_v80, val_main_cst_15_apply, val_main_v81_apply, val_main_cst_16_apply,
    val_main_v79_apply, val_main_v78_apply, val_main_v77_apply, val_main_v76_apply, e_v76, Ideal.ofBits_def, Ideal.ofBits_zero_f32, zero_add,
    Ideal.hostDivf_def, Ideal.hostAbsf_def, Ideal.absf_def, Ideal.mulf_def, Ideal.subf_def]
  rfl

/-- The lower generation multipliers against their slacks. -/
theorem read_v90 (x1 x5 : A[32768,138]) (x16 : A[1,138]) (b : Fin 32768) :
    val_main_v90 (F := Ideal) x1 x5 x16 (ix1 b) = compGD x1 x5 x16 b := by
  simp only [val_main_v90_apply, val_main_v88_apply, e_v88, val_main_cst_17_apply, val_main_v89_apply, val_main_cst_18_apply,
    val_main_v87_apply, val_main_v86_apply, val_main_v85_apply, val_main_v84_apply, e_v84, Ideal.ofBits_def, Ideal.ofBits_zero_f32, zero_add,
    Ideal.hostDivf_def, Ideal.hostAbsf_def, Ideal.absf_def, Ideal.mulf_def, Ideal.subf_def]
  rfl

end Cert.ReferenceIdeal.RefValue
-- ==== Proof.RefReadVolt.lean ====
/-
  The voltage-bound terms of the reference read at a row: the two bound expressions at a bus, their rectified row sums, and
  the two complementarity row sums.
-/
import proofs.«141359_j50938312131078_1_alg».proof.Proof.RefIdx

noncomputable section

open scoped BigOperators

namespace Cert.ReferenceIdeal.RefValue

open Idealize.ShloMosaic Idealize.ShloMosaic.ValueIdx Cert.ReferenceIdeal Cert.ReferenceIdeal.Gen Cert.ReferenceIdeal.Read

local notation "A[" n "," m "]" => FVec Ideal (⟨2, ![n, m]⟩ : Shape) FTy.f32

/-- Squared magnitude minus the squared upper bound, at bus `k` of row `b`. -/
theorem read_v50 (x0 : A[32768,600]) (b : Fin 32768) (k : Fin 300) :
    val_main_v50 (F := Ideal) x0 (ix2 b k) = vUp x0 b k := by
  simp only [val_main_v50_apply, val_main_v48_apply, val_main_v46_apply, val_main_v47_apply, val_main_v0_apply,
    val_main_v1_apply, e_v0, e_v1, val_main_v49_apply, val_main_cst_9_apply, Ideal.ofBits_def, Ideal.subf_def,
    Ideal.addf_def, Ideal.mulf_def]
  rfl

/-- The lower-bound expression at bus `k` of row `b`. -/
theorem read_v55 (x0 : A[32768,600]) (b : Fin 32768) (k : Fin 300) :
    val_main_v55 (F := Ideal) x0 (ix2 b k) = vDn x0 b k := by
  simp only [val_main_v55_apply, val_main_v53_apply, val_main_v54_apply, val_main_v51_apply, val_main_v0_apply,
    val_main_v1_apply, e_v0, e_v1, val_main_v52_apply, val_main_cst_10_apply, Ideal.ofBits_def, Ideal.subf_def,
    Ideal.addf_def, Ideal.mulf_def]
  rfl

/-- The rectified upper violations summed over the row. -/
theorem read_v57 (x0 : A[32768,600]) (b : Fin 32768) :
    val_main_v57 (F := Ideal) x0 (ix1 b) = vUpSum x0 b := by
  simp only [val_main_v57_apply, e_v57, val_main_cst_11_apply, val_main_v56_apply, read_v50, val_main_call2_v0_apply,
    val_main_call2_cst_apply, Ideal.ofBits_def, Ideal.ofBits_zero_f32, zero_add, Ideal.maximumf_def]
  rfl

/-- The rectified lower expressions summed over the row. -/
theorem read_v60 (x0 : A[32768,600]) (b : Fin 32768) :
    val_main_v60 (F := Ideal) x0 (ix1 b) = vDnSum x0 b := by
  simp only [val_main_v60_apply, e_v60, val_main_cst_12_apply, val_main_v59_apply, read_v55, val_main_call3_v0_apply,
    val_main_call3_cst_apply, Ideal.ofBits_def, Ideal.ofBits_zero_f32, zero_add, Ideal.maximumf_def]
  rfl

/-- The upper voltage multipliers against the upper expression. -/
theorem read_v94 (x0 : A[32768,600]) (x6 : A[32768,300]) (b : Fin 32768) :
    val_main_v94 (F := Ideal) x0 x6 (ix1 b) = compVU x0 x6 b := by
  simp only [val_main_v94_apply, e_v94, val_main_cst_19_apply, val_main_v93_apply, val_main_v92_apply, read_v50, Ideal.ofBits_def, Ideal.ofBits_zero_f32, zero_add,
    Ideal.hostAbsf_def, Ideal.absf_def, Ideal.mulf_def]
  rfl

/-- The lower voltage multipliers against the lower expression. -/
theorem read_v98 (x0 : A[32768,600]) (x7 : A[32768,300]) (b : Fin 32768) :
    val_main_v98 (F := Ideal) x0 x7 (ix1 b) = compVD x0 x7 b := by
  simp only [val_main_v98_apply, e_v98, val_main_cst_20_apply, val_main_v97_apply, val_main_v96_apply, read_v55, Ideal.ofBits_def, Ideal.ofBits_zero_f32, zero_add,
    Ideal.hostAbsf_def, Ideal.absf_def, Ideal.mulf_def]
  rfl

end Cert.ReferenceIdeal.RefValue
-- ==== Proof.RefReadLine.lean ====
/-
  The branch-current terms of the reference read at a row: the two matrix products, the line-limit expression, its rectified
  row sum and its complementarity row sum.
-/
import proofs.«141359_j50938312131078_1_alg».proof.Proof.RefIdx

noncomputable section

open scoped BigOperators

namespace Cert.ReferenceIdeal.RefValue

open Idealize.ShloMosaic Idealize.ShloMosaic.ValueIdx Cert.ReferenceIdeal Cert.ReferenceIdeal.Gen Cert.ReferenceIdeal.Read

local notation "A[" n "," m "]" => FVec Ideal (⟨2, ![n, m]⟩ : Shape) FTy.f32

/-- Entry `(b, c)` of `volt · IMᵀ`. -/
theorem read_v63 (x0 : A[32768,600]) (x12 : A[822,600]) (b : Fin 32768) (c : Fin 822) :
    val_main_v63 (F := Ideal) x0 x12 (ix2 b c) = ∑ l : Fin 600, x0 (ix2 b l) * x12 (ix2 c l) := by
  simp only [val_main_v63_apply, e_l63, e_r63, val_main_v62_apply, e_v62]

/-- Entry `(b, r)` of the branch currents. -/
theorem read_v65 (x0 : A[32768,600]) (x11 : A[822,822]) (x12 : A[822,600]) (b : Fin 32768) (r : Fin 822) :
    val_main_v65 (F := Ideal) x0 x11 x12 (ix2 b r) = ibr x0 x11 x12 b r := by
  simp only [val_main_v65_apply, e_l65, e_r65, read_v63, val_main_v64_apply, e_v64]
  rfl

/-- The line-limit expression on line `k` of row `b`. -/
theorem read_v72 (x0 : A[32768,600]) (x11 : A[822,822]) (x12 : A[822,600]) (b : Fin 32768) (k : Fin 411) :
    val_main_v72 (F := Ideal) x0 x11 x12 (ix2 b k) = iUp x0 x11 x12 b k := by
  simp only [val_main_v72_apply, val_main_v70_apply, val_main_v67_apply, val_main_v69_apply, val_main_v66_apply,
    val_main_v68_apply, e_v66, e_v68, read_v65, val_main_v71_apply, val_main_cst_13_apply, Ideal.ofBits_def,
    Ideal.subf_def, Ideal.addf_def, Ideal.mulf_def]
  rfl

/-- The rectified line-limit violations summed over the row. -/
theorem read_v74 (x0 : A[32768,600]) (x11 : A[822,822]) (x12 : A[822,600]) (b : Fin 32768) :
    val_main_v74 (F := Ideal) x0 x11 x12 (ix1 b) = iUpSum x0 x11 x12 b := by
  simp only [val_main_v74_apply, e_v74, val_main_cst_14_apply, val_main_v73_apply, read_v72, val_main_call4_v0_apply,
    val_main_call4_cst_apply, Ideal.ofBits_def, Ideal.ofBits_zero_f32, zero_add, Ideal.maximumf_def]
  rfl

/-- The line multipliers against the line-limit expression. -/
theorem read_v102 (x0 : A[32768,600]) (x8 : A[32768,411]) (x11 : A[822,822]) (x12 : A[822,600]) (b : Fin 32768) :
    val_main_v102 (F := Ideal) x0 x8 x11 x12 (ix1 b) = compIU x0 x8 x11 x12 b := by
  simp only [val_main_v102_apply, e_v102, val_main_cst_21_apply, val_main_v101_apply, val_main_v100_apply, read_v72, Ideal.ofBits_def, Ideal.ofBits_zero_f32, zero_add,
    Ideal.hostAbsf_def, Ideal.absf_def, Ideal.mulf_def]
  rfl

end Cert.ReferenceIdeal.RefValue
-- ==== Proof.RefReadStat.lean ====
/-
  The stationarity term of the reference read at a row: the cost row (the active-power costs followed by zeros, a
  concatenation read piece by piece), the product with the transposed generator map, the residual and its absolute row sum.
-/
import proofs.«141359_j50938312131078_1_alg».proof.Proof.RefIdx

noncomputable section

open scoped BigOperators

namespace Cert.ReferenceIdeal.RefValue

open Idealize.ShloMosaic Idealize.ShloMosaic.ValueIdx Cert.ReferenceIdeal Cert.ReferenceIdeal.Gen Cert.ReferenceIdeal.Read

local notation "A[" n "," m "]" => FVec Ideal (⟨2, ![n, m]⟩ : Shape) FTy.f32

/-- The cost row at column `k`: the given cost below column 69, zero from there on. -/
theorem read_v105 (x17 : A[1,69]) (k : Fin 138) :
    val_main_v105 (F := Ideal) x17 (ix2 (0 : Fin 1) k) = cost x17 k := by
  unfold val_main_v105 cost
  by_cases h : k.val < 69
  · rw [dif_pos h]
    exact concatenate_pair_apply_left 1 x17 _ concatenates_S1x69_S1x69_S1x138_d1 (ix2 (0 : Fin 1) k) rfl
      (ix2 (0 : Fin 1) (⟨k.val, h⟩ : Fin 69)) (fun b => match b with | ⟨0, _⟩ => rfl | ⟨1, _⟩ => rfl)
  · rw [dif_neg h]
    have hk : 69 ≤ k.val := Nat.not_lt.1 h
    refine (concatenate_pair_apply_right 1 x17 _ concatenates_S1x69_S1x69_S1x138_d1 (ix2 (0 : Fin 1) k) rfl rfl
      (ix2 (0 : Fin 1) (⟨k.val - 69, by have := k.isLt; omega⟩ : Fin 69)) ?_ ?_).trans ?_
    · intro b hb
      match b with
      | ⟨0, _⟩ => rfl
      | ⟨1, _⟩ => exact absurd rfl hb
    · show (k.val - 69) + 69 = k.val
      omega
    · rw [val_main_v104_apply, val_main_cst_22_apply, Ideal.ofBits_def, Ideal.ofBits_zero_f32]

/-- Entry `(b, k)` of `(n_o_l_p · 1) · Map_gᵀ`. -/
theorem read_v114 (x3 : A[32768,600]) (x13 : A[138,600]) (b : Fin 32768) (k : Fin 138) :
    val_main_v114 (F := Ideal) x3 x13 (ix2 b k) = ∑ l : Fin 600, (x3 (ix2 b l) * cOne) * x13 (ix2 k l) := by
  simp only [val_main_v114_apply, e_l114, e_r114, val_main_v112_apply, val_main_v111_apply, val_main_cst_25_apply,
    val_main_v113_apply, e_v113, Ideal.ofBits_def, Ideal.mulf_def]

/-- The stationarity residual at generator column `k` of row `b`. -/
theorem read_v117 (x3 : A[32768,600]) (x4 x5 : A[32768,138]) (x13 : A[138,600]) (x17 : A[1,69]) (b : Fin 32768)
    (k : Fin 138) :
    val_main_v117 (F := Ideal) x3 x4 x5 x13 x17 (ix2 b k) = stat x3 x4 x5 x13 x17 b k := by
  simp only [val_main_v117_apply, val_main_v115_apply, val_main_v110_apply, val_main_v107_apply, val_main_v109_apply,
    val_main_v106_apply, val_main_v108_apply, val_main_cst_23_apply, val_main_cst_24_apply, read_v114,
    val_main_v116_apply, e_v116, read_v105, Ideal.ofBits_def, Ideal.subf_def, Ideal.addf_def, Ideal.mulf_def]
  rfl

/-- The absolute residuals summed over the row. -/
theorem read_v119 (x3 : A[32768,600]) (x4 x5 : A[32768,138]) (x13 : A[138,600]) (x17 : A[1,69]) (b : Fin 32768) :
    val_main_v119 (F := Ideal) x3 x4 x5 x13 x17 (ix1 b) = statSum x3 x4 x5 x13 x17 b := by
  simp only [val_main_v119_apply, e_v119, val_main_cst_26_apply, val_main_v118_apply, read_v117, Ideal.ofBits_def, Ideal.ofBits_zero_f32, zero_add,
    Ideal.hostAbsf_def, Ideal.absf_def]
  rfl

end Cert.ReferenceIdeal.RefValue
-- ==== Proof.RefReadDual.lean ====
/-
  The five dual-feasibility terms of the reference read at a row: each is the sum over the row of the negated multiplier
  rectified at zero.
-/
import proofs.«141359_j50938312131078_1_alg».proof.Proof.RefIdx

noncomputable section

open scoped BigOperators

namespace Cert.ReferenceIdeal.RefValue

open Idealize.ShloMosaic Idealize.ShloMosaic.ValueIdx Cert.ReferenceIdeal Cert.ReferenceIdeal.Gen Cert.ReferenceIdeal.Read

local notation "A[" n "," m "]" => FVec Ideal (⟨2, ![n, m]⟩ : Shape) FTy.f32

/-- The row sum of `max (-μ) 0` for the multipliers `x4`. -/
theorem read_v123 (x4 : A[32768,138]) (b : Fin 32768) :
    val_main_v123 (F := Ideal) x4 (ix1 b) = dualSum x4 b := by
  simp only [val_main_v123_apply, e_v123, val_main_cst_27_apply, val_main_v122_apply, val_main_v121_apply,
    val_main_call5_v0_apply, val_main_call5_cst_apply, Ideal.ofBits_def, Ideal.ofBits_zero_f32, zero_add, Ideal.maximumf_def,
    Ideal.hostNegf_def, Ideal.negf_def]
  rfl

/-- The row sum of `max (-μ) 0` for the multipliers `x5`. -/
theorem read_v127 (x5 : A[32768,138]) (b : Fin 32768) :
    val_main_v127 (F := Ideal) x5 (ix1 b) = dualSum x5 b := by
  simp only [val_main_v127_apply, e_v127, val_main_cst_28_apply, val_main_v126_apply, val_main_v125_apply,
    val_main_call6_v0_apply, val_main_call6_cst_apply, Ideal.ofBits_def, Ideal.ofBits_zero_f32, zero_add, Ideal.maximumf_def,
    Ideal.hostNegf_def, Ideal.negf_def]
  rfl

/-- The row sum of `max (-μ) 0` for the multipliers `x6`. -/
theorem read_v131 (x6 : A[32768,300]) (b : Fin 32768) :
    val_main_v131 (F := Ideal) x6 (ix1 b) = dualSum x6 b := by
  simp only [val_main_v131_apply, e_v131, val_main_cst_29_apply, val_main_v130_apply, val_main_v129_apply,
    val_main_call7_v0_apply, val_main_call7_cst_apply, Ideal.ofBits_def, Ideal.ofBits_zero_f32, zero_add, Ideal.maximumf_def,
    Ideal.hostNegf_def, Ideal.negf_def]
  rfl

/-- The row sum of `max (-μ) 0` for the multipliers `x7`. -/
theorem read_v135 (x7 : A[32768,300]) (b : Fin 32768) :
    val_main_v135 (F := Ideal) x7 (ix1 b) = dualSum x7 b := by
  simp only [val_main_v135_apply, e_v135, val_main_cst_30_apply, val_main_v134_apply, val_main_v133_apply,
    val_main_call8_v0_apply, val_main_call8_cst_apply, Ideal.ofBits_def, Ideal.ofBits_zero_f32, zero_add, Ideal.maximumf_def,
    Ideal.hostNegf_def, Ideal.negf_def]
  rfl

/-- The row sum of `max (-μ) 0` for the multipliers `x8`. -/
theorem read_v139 (x8 : A[32768,411]) (b : Fin 32768) :
    val_main_v139 (F := Ideal) x8 (ix1 b) = dualSum x8 b := by
  simp only [val_main_v139_apply, e_v139, val_main_cst_31_apply, val_main_v138_apply, val_main_v137_apply,
    val_main_call9_v0_apply, val_main_call9_cst_apply, Ideal.ofBits_def, Ideal.ofBits_zero_f32, zero_add, Ideal.maximumf_def,
    Ideal.hostNegf_def, Ideal.negf_def]
  rfl

end Cert.ReferenceIdeal.RefValue
-- ==== Proof.RefRead.lean ====
/-
  The reference's result is `refSpec`: the sixteen additions that assemble the result, each operand replaced by its
  reading at the row.
-/
import proofs.«141359_j50938312131078_1_alg».proof.Proof.RefIdx
import proofs.«141359_j50938312131078_1_alg».proof.Proof.RefReadPow
import proofs.«141359_j50938312131078_1_alg».proof.Proof.RefReadGen
import proofs.«141359_j50938312131078_1_alg».proof.Proof.RefReadVolt
import proofs.«141359_j50938312131078_1_alg».proof.Proof.RefReadLine
import proofs.«141359_j50938312131078_1_alg».proof.Proof.RefReadStat
import proofs.«141359_j50938312131078_1_alg».proof.Proof.RefReadDual

noncomputable section

open scoped BigOperators

namespace Cert.ReferenceIdeal.RefValue

open Idealize.ShloMosaic Idealize.ShloMosaic.ValueIdx Cert.ReferenceIdeal Cert.ReferenceIdeal.Gen Cert.ReferenceIdeal.Read

local notation "A[" n "," m "]" => FVec Ideal (⟨2, ![n, m]⟩ : Shape) FTy.f32

/-- The reference's result at row `b`. -/
theorem ref_at (x0 : A[32768,600]) (x1 : A[32768,138]) (x2 x3 : A[32768,600]) (x4 x5 : A[32768,138])
    (x6 x7 : A[32768,300]) (x8 : A[32768,411]) (x9 x10 : A[600,600]) (x11 : A[822,822]) (x12 : A[822,600])
    (x13 : A[138,600]) (x14 : A[600,600]) (x15 x16 : A[1,138]) (x17 : A[1,69]) (b : Fin 32768) :
    val_main_v140 (F := Ideal) x0 x1 x2 x3 x4 x5 x6 x7 x8 x9 x10 x11 x12 x13 x14 x15 x16 x17 (ix1 b) = refSpec x0 x1 x2 x3 x4 x5 x6 x7 x8 x9 x10 x11 x12 x13 x14 x15 x16 x17 b := by
  rw [val_main_v140_apply, val_main_v136_apply, val_main_v132_apply, val_main_v128_apply, val_main_v124_apply,
    val_main_v120_apply, val_main_v103_apply, val_main_v99_apply, val_main_v95_apply, val_main_v91_apply,
    val_main_v83_apply, val_main_v75_apply, val_main_v61_apply, val_main_v58_apply, val_main_v45_apply,
    val_main_v40_apply,
    read_v35, read_v39, read_v44, read_v57, read_v60, read_v74, read_v82, read_v90, read_v94, read_v98, read_v102,
    read_v119, read_v123, read_v127, read_v131, read_v135, read_v139]
  rfl

/-- The reference's result as an array: `refSpec` at the index's one coordinate. -/
theorem ref_eq (x0 : A[32768,600]) (x1 : A[32768,138]) (x2 x3 : A[32768,600]) (x4 x5 : A[32768,138])
    (x6 x7 : A[32768,300]) (x8 : A[32768,411]) (x9 x10 : A[600,600]) (x11 : A[822,822]) (x12 : A[822,600])
    (x13 : A[138,600]) (x14 : A[600,600]) (x15 x16 : A[1,138]) (x17 : A[1,69]) :
    val_main_v140 (F := Ideal) x0 x1 x2 x3 x4 x5 x6 x7 x8 x9 x10 x11 x12 x13 x14 x15 x16 x17 = fun i => refSpec x0 x1 x2 x3 x4 x5 x6 x7 x8 x9 x10 x11 x12 x13 x14 x15 x16 x17 (i 0) := by
  funext i
  obtain ⟨b, rfl⟩ : ∃ b : Fin 32768, i = ix1 b := ⟨i 0, eq_ix1 i⟩
  exact ref_at x0 x1 x2 x3 x4 x5 x6 x7 x8 x9 x10 x11 x12 x13 x14 x15 x16 x17 b

end Cert.ReferenceIdeal.RefValue
-- ==== Proof.LibMaskSum.lean ====
/-
  A sum over 600 columns against a weight row that is 0 on the columns 299 and 599 and 1 on every other column is the
  sum over the two runs of 299 columns: the columns 0 … 298 and 300 … 598. Only `x * 1 = x`, `x * 0 = 0` and
  `x + 0 = x` are used, so the statement holds on the extended reals with no finiteness assumption.
-/
import Mathlib.Algebra.BigOperators.Fin
import Mathlib.Data.EReal.Basic

open scoped BigOperators

namespace Cert.Lib.MaskSum

/-- The 600 columns, the two excluded ones dropped: the weighted sum is the sum over the two runs. -/
theorem sum_mul_mask (f w : Fin 600 → EReal)
    (hw : ∀ c : Fin 600, w c = if c.val = 299 ∨ c.val = 599 then 0 else 1) :
    ∑ c : Fin 600, f c * w c
      = (∑ k : Fin 299, f ⟨k.val, by have := k.isLt; omega⟩)
        + ∑ k : Fin 299, f ⟨300 + k.val, by have := k.isLt; omega⟩ := by
  have hterm : ∀ c : Fin 600, f c * w c = if c.val = 299 ∨ c.val = 599 then 0 else f c := fun c => by
    rw [hw c]
    split
    · exact mul_zero _
    · exact mul_one _
  refine (Finset.sum_congr rfl fun c _ => hterm c).trans ?_
  refine (Fin.sum_univ_add (a := 300) (b := 300)
    (fun c : Fin (300 + 300) => if c.val = 299 ∨ c.val = 599 then (0 : EReal) else f c)).trans ?_
  refine congrArg₂ (· + ·) ?_ ?_
  · refine (Fin.sum_univ_castSucc (n := 299)
      (fun i : Fin (299 + 1) => if (Fin.castAdd 300 i).val = 299 ∨ (Fin.castAdd 300 i).val = 599 then (0 : EReal)
        else f (Fin.castAdd 300 i))).trans ?_
    have hlast : (if (Fin.castAdd 300 (Fin.last 299)).val = 299 ∨ (Fin.castAdd 300 (Fin.last 299)).val = 599
        then (0 : EReal) else f (Fin.castAdd 300 (Fin.last 299))) = 0 := if_pos (Or.inl rfl)
    rw [hlast, add_zero]
    refine Finset.sum_congr rfl fun k _ => ?_
    have hk := k.isLt
    have hne : ¬((Fin.castAdd 300 (Fin.castSucc k)).val = 299 ∨ (Fin.castAdd 300 (Fin.castSucc k)).val = 599) := by
      show ¬(k.val = 299 ∨ k.val = 599)
      omega
    exact (if_neg hne).trans (congrArg f (Fin.ext rfl))
  · refine (Fin.sum_univ_castSucc (n := 299)
      (fun i : Fin (299 + 1) => if (Fin.natAdd 300 i).val = 299 ∨ (Fin.natAdd 300 i).val = 599 then (0 : EReal)
        else f (Fin.natAdd 300 i))).trans ?_
    have hlast : (if (Fin.natAdd 300 (Fin.last 299)).val = 299 ∨ (Fin.natAdd 300 (Fin.last 299)).val = 599
        then (0 : EReal) else f (Fin.natAdd 300 (Fin.last 299))) = 0 := if_pos (Or.inr rfl)
    rw [hlast, add_zero]
    refine Finset.sum_congr rfl fun k _ => ?_
    have hk := k.isLt
    have hne : ¬((Fin.natAdd 300 (Fin.castSucc k)).val = 299 ∨ (Fin.natAdd 300 (Fin.castSucc k)).val = 599) := by
      show ¬(300 + k.val = 299 ∨ 300 + k.val = 599)
      omega
    exact (if_neg hne).trans (congrArg f (Fin.ext rfl))

end Cert.Lib.MaskSum
-- ==== Proof.JoinRow.lean ====
/-
  The kernel program's row formula equals the reference's row terms, term by term.
  Row `b` sits at place `b % 256` of block `b / 256`, and `256 * (b / 256) + b % 256 = b`, so an entry of the block
  at that place is the array's entry at row `b`. After that every term of the kernel's formula is the reference's
  term literally, except three: the masked constraint residual, where the mask row (0 on the columns 299 and 599,
  1 elsewhere) turns the sum over 600 columns into the sum over the two runs of 299 columns; the stationarity
  residual, where the factor 1 is placed differently (`x * 1 = x`) and the kernel's cost row is the reference's cost
  function; and the dual-sign terms, where `0 - x = -x`. No term is moved.
-/
import proofs.«141359_j50938312131078_1_alg».proof.Proof.KerSpec
import proofs.«141359_j50938312131078_1_alg».proof.Proof.LibMaskSum
import proofs.«141359_j50938312131078_1_alg».proof.Proof.LibLiterals

noncomputable section

open scoped BigOperators

namespace Cert.KernelIdeal.KerValue

open Idealize.ShloMosaic Idealize.ShloMosaic.ValueIdx Cert.KernelIdeal Cert.KernelIdeal.PayValue
  Cert.ReferenceIdeal.RefValue

/-- An `n`-by-`m` array of extended reals. -/
local notation "A[" n "," m "]" => FVec Ideal (⟨2, ![n, m]⟩ : Shape) FTy.f32

/-- The reference's seventeen row terms, added from the left in the kernel's order. -/
def rowRef (x0 : A[32768,600]) (x1 : A[32768,138]) (x2 x3 : A[32768,600]) (x4 x5 : A[32768,138])
    (x6 x7 : A[32768,300]) (x8 : A[32768,411]) (x9 x10 : A[600,600]) (x11 : A[822,822]) (x12 : A[822,600])
    (x13 : A[138,600]) (x14 : A[600,600]) (x15 x16 : A[1,138]) (x17 : A[1,69]) (b : Fin 32768) : EReal :=
  ((((genUp x1 x15 b + genDn x1 x16 b) + vUpSum x0 b) + vDnSum x0 b) + cBatch * mismSum x1 x2 x13 x14 b)
    + iUpSum x0 x11 x12 b + compGU x1 x4 x15 b + compGD x1 x5 x16 b + compVU x0 x6 b + compVD x0 x7 b
    + compIU x0 x8 x11 x12 b + statSum x3 x4 x5 x13 x17 b
    + dualSum x4 b + dualSum x5 b + dualSum x6 b + dualSum x7 b + dualSum x8 b

/-- The block of row `b` at the place of row `b` is the array at row `b`. -/
theorem blk256_at {C : ℕ} (X : A[32768,C]) (b : Fin 32768) (j : Fin C) :
    blk256 X (blkOf b) (ix2 (plcOf b) j) = X (ix2 b j) :=
  congrArg (fun i : Fin 32768 => X (ix2 i j)) (Fin.ext (Nat.div_add_mod b.val 256))

/-! ## The atoms -/

theorem s3_join (x1 : A[32768,138]) (x15 : A[1,138]) (b : Fin 32768) (j : Fin 138) :
    s3 (blk256 x1 (blkOf b)) x15 (plcOf b) j = x1 (ix2 b j) - x15 (ix2 (0 : Fin 1) j) := by
  unfold s3
  rw [blk256_at]

theorem s4_join (x1 : A[32768,138]) (x16 : A[1,138]) (b : Fin 32768) (j : Fin 138) :
    s4 (blk256 x1 (blkOf b)) x16 (plcOf b) j = x16 (ix2 (0 : Fin 1) j) - x1 (ix2 b j) := by
  unfold s4
  rw [blk256_at]

theorem s8_join (x0 : A[32768,600]) (b : Fin 32768) (j : Fin 300) :
    s8 (blk256 x0 (blkOf b)) (plcOf b) j = vUp x0 b j := by
  unfold s8 vUp
  rw [blk256_at, blk256_at]

theorem s9_join (x0 : A[32768,600]) (b : Fin 32768) (j : Fin 300) :
    s9 (blk256 x0 (blkOf b)) (plcOf b) j = vDn x0 b j := by
  unfold s9 vDn
  rw [blk256_at, blk256_at]

theorem s72_join (x0 : A[32768,600]) (x11 : A[822,822]) (x12 : A[822,600]) (b : Fin 32768) (n : Fin 822) :
    s72 (blk256 x0 (blkOf b)) x12 x11 (plcOf b) n = ibr x0 x11 x12 b n := by
  unfold s72 s11 ibr
  simp only [blk256_at]

theorem s79_join (x0 : A[32768,600]) (x11 : A[822,822]) (x12 : A[822,600]) (b : Fin 32768) (j : Fin 411) :
    s79 (blk256 x0 (blkOf b)) x12 x11 (plcOf b) j = iUp x0 x11 x12 b j := by
  unfold s79 iUp
  rw [s72_join, s72_join]

theorem s127_join (x3 : A[32768,600]) (x4 x5 : A[32768,138]) (x13 : A[138,600]) (x17 : A[1,69]) (costrow : A[1,138])
    (hcost : ∀ k : Fin 138, costrow (ix2 (0 : Fin 1) k) = cost x17 k) (b : Fin 32768) (j : Fin 138) :
    s127 (blk256 x3 (blkOf b)) (blk256 x4 (blkOf b)) (blk256 x5 (blkOf b)) costrow x13 (plcOf b) j
      = stat x3 x4 x5 x13 x17 b j := by
  unfold s127 stat
  simp only [blk256_at, hcost, cOne, Cert.Lib.Literals.ofBits_one_f32, mul_one]

/-! ## The seventeen terms -/

theorem tBound_join (x1 : A[32768,138]) (x15 x16 : A[1,138]) (b : Fin 32768) :
    tBound (blk256 x1 (blkOf b)) x15 x16 (plcOf b) = genUp x1 x15 b + genDn x1 x16 b := by
  unfold tBound genUp genDn
  simp only [s3_join, s4_join]

theorem vUpSum_join (x0 : A[32768,600]) (b : Fin 32768) :
    (∑ j : Fin 300, max (s8 (blk256 x0 (blkOf b)) (plcOf b) j) 0) = vUpSum x0 b := by
  unfold vUpSum
  simp only [s8_join]

theorem vDnSum_join (x0 : A[32768,600]) (b : Fin 32768) :
    (∑ j : Fin 300, max (s9 (blk256 x0 (blkOf b)) (plcOf b) j) 0) = vDnSum x0 b := by
  unfold vDnSum
  simp only [s9_join]

theorem tLin_join (x1 : A[32768,138]) (x2 : A[32768,600]) (x13 : A[138,600]) (x14 : A[600,600]) (mask : A[1,600])
    (hmask : ∀ c : Fin 600, mask (ix2 (0 : Fin 1) c) = if c.val = 299 ∨ c.val = 599 then 0 else 1) (b : Fin 32768) :
    tLin (blk256 x1 (blkOf b)) (blk256 x2 (blkOf b)) mask x14 x13 (plcOf b) = cBatch * mismSum x1 x2 x13 x14 b := by
  unfold tLin mismSum
  refine congrArg (Ideal.ofBits .f32 0x47000000#32 * ·) ?_
  simp only [blk256_at]
  exact Cert.Lib.MaskSum.sum_mul_mask (fun c => mism x1 x2 x13 x14 b c) (fun c => mask (ix2 (0 : Fin 1) c)) hmask

theorem iUpSum_join (x0 : A[32768,600]) (x11 : A[822,822]) (x12 : A[822,600]) (b : Fin 32768) :
    (∑ j : Fin 411, max (s79 (blk256 x0 (blkOf b)) x12 x11 (plcOf b) j) 0) = iUpSum x0 x11 x12 b := by
  unfold iUpSum
  simp only [s79_join]

theorem compGU_join (x1 x4 : A[32768,138]) (x15 : A[1,138]) (b : Fin 32768) :
    Ideal.div (∑ j : Fin 138, max (blk256 x4 (blkOf b) (ix2 (plcOf b) j) * s3 (blk256 x1 (blkOf b)) x15 (plcOf b) j)
        (-(blk256 x4 (blkOf b) (ix2 (plcOf b) j) * s3 (blk256 x1 (blkOf b)) x15 (plcOf b) j)))
      (Ideal.ofBits .f32 0x428A0000#32) = compGU x1 x4 x15 b := by
  unfold compGU
  simp only [blk256_at, s3_join]

theorem compGD_join (x1 x5 : A[32768,138]) (x16 : A[1,138]) (b : Fin 32768) :
    Ideal.div (∑ j : Fin 138, max (blk256 x5 (blkOf b) (ix2 (plcOf b) j) * s4 (blk256 x1 (blkOf b)) x16 (plcOf b) j)
        (-(blk256 x5 (blkOf b) (ix2 (plcOf b) j) * s4 (blk256 x1 (blkOf b)) x16 (plcOf b) j)))
      (Ideal.ofBits .f32 0x428A0000#32) = compGD x1 x5 x16 b := by
  unfold compGD
  simp only [blk256_at, s4_join]

theorem compVU_join (x0 : A[32768,600]) (x6 : A[32768,300]) (b : Fin 32768) :
    (∑ j : Fin 300, max (blk256 x6 (blkOf b) (ix2 (plcOf b) j) * s8 (blk256 x0 (blkOf b)) (plcOf b) j)
        (-(blk256 x6 (blkOf b) (ix2 (plcOf b) j) * s8 (blk256 x0 (blkOf b)) (plcOf b) j))) = compVU x0 x6 b := by
  unfold compVU
  simp only [blk256_at, s8_join]

theorem compVD_join (x0 : A[32768,600]) (x7 : A[32768,300]) (b : Fin 32768) :
    (∑ j : Fin 300, max (blk256 x7 (blkOf b) (ix2 (plcOf b) j) * s9 (blk256 x0 (blkOf b)) (plcOf b) j)
        (-(blk256 x7 (blkOf b) (ix2 (plcOf b) j) * s9 (blk256 x0 (blkOf b)) (plcOf b) j))) = compVD x0 x7 b := by
  unfold compVD
  simp only [blk256_at, s9_join]

theorem compIU_join (x0 : A[32768,600]) (x8 : A[32768,411]) (x11 : A[822,822]) (x12 : A[822,600]) (b : Fin 32768) :
    (∑ j : Fin 411, max (blk256 x8 (blkOf b) (ix2 (plcOf b) j) * s79 (blk256 x0 (blkOf b)) x12 x11 (plcOf b) j)
        (-(blk256 x8 (blkOf b) (ix2 (plcOf b) j) * s79 (blk256 x0 (blkOf b)) x12 x11 (plcOf b) j)))
      = compIU x0 x8 x11 x12 b := by
  unfold compIU
  simp only [blk256_at, s79_join]

theorem statSum_join (x3 : A[32768,600]) (x4 x5 : A[32768,138]) (x13 : A[138,600]) (x17 : A[1,69]) (costrow : A[1,138])
    (hcost : ∀ k : Fin 138, costrow (ix2 (0 : Fin 1) k) = cost x17 k) (b : Fin 32768) :
    (∑ j : Fin 138, max (s127 (blk256 x3 (blkOf b)) (blk256 x4 (blkOf b)) (blk256 x5 (blkOf b)) costrow x13 (plcOf b) j)
        (-(s127 (blk256 x3 (blkOf b)) (blk256 x4 (blkOf b)) (blk256 x5 (blkOf b)) costrow x13 (plcOf b) j)))
      = statSum x3 x4 x5 x13 x17 b := by
  unfold statSum
  simp only [s127_join x3 x4 x5 x13 x17 costrow hcost]

theorem dualSum_join {C : ℕ} (X : A[32768,C]) (b : Fin 32768) :
    (∑ j : Fin C, max (0 - blk256 X (blkOf b) (ix2 (plcOf b) j)) 0) = dualSum X b := by
  unfold dualSum
  simp only [blk256_at, zero_sub]

/-! ## The row -/

/-- The kernel's row formula at row `b` is the reference's row terms in the kernel's order. -/
theorem row_join (x0 : A[32768,600]) (x1 : A[32768,138]) (x2 x3 : A[32768,600]) (x4 x5 : A[32768,138])
    (x6 x7 : A[32768,300]) (x8 : A[32768,411]) (x9 x10 : A[600,600]) (x11 : A[822,822]) (x12 : A[822,600])
    (x13 : A[138,600]) (x14 : A[600,600]) (x15 x16 : A[1,138]) (x17 : A[1,69])
    (costrow : A[1,138]) (mask : A[1,600])
    (hmask : ∀ c : Fin 600, mask (ix2 (0 : Fin 1) c) = if c.val = 299 ∨ c.val = 599 then 0 else 1)
    (hcost : ∀ k : Fin 138, costrow (ix2 (0 : Fin 1) k) = cost x17 k) (b : Fin 32768) :
    rowSpec (blk256 x0 (blkOf b)) (blk256 x1 (blkOf b)) (blk256 x2 (blkOf b)) (blk256 x3 (blkOf b))
        (blk256 x4 (blkOf b)) (blk256 x5 (blkOf b)) (blk256 x6 (blkOf b)) (blk256 x7 (blkOf b)) (blk256 x8 (blkOf b))
        x15 x16 costrow mask x14 x13 x12 x11 x13 (plcOf b)
      = rowRef x0 x1 x2 x3 x4 x5 x6 x7 x8 x9 x10 x11 x12 x13 x14 x15 x16 x17 b := by
  unfold rowSpec s15 s12 s10 rowRef
  rw [tBound_join, vUpSum_join, vDnSum_join, tLin_join x1 x2 x13 x14 mask hmask, iUpSum_join, compGU_join, compGD_join,
    compVU_join, compVD_join, compIU_join, statSum_join x3 x4 x5 x13 x17 costrow hcost,
    dualSum_join x4, dualSum_join x5, dualSum_join x6, dualSum_join x7, dualSum_join x8]

end Cert.KernelIdeal.KerValue

end
-- ==== Proof.JoinGlob.lean ====
/-
  The kernel's global scalar is the reference's seed plus its four slice sums.

  The accumulator over the sixteen blocks of 2048 rows is the sum of the blocks' terms; the rows of the sixteen blocks
  are all the rows, each once; in a row, the mask (zero at columns 299 and 599, one elsewhere) leaves of a sum over the
  600 columns the two runs of 299 columns, and the one-hot row leaves column 300.  What remains is a reordering of a sum,
  for which commutativity and associativity of addition suffice: nothing is cancelled and nothing is distributed.
-/
import proofs.«141359_j50938312131078_1_alg».proof.Proof.KerSpec

noncomputable section

open scoped BigOperators

namespace Cert.KernelIdeal.KerValue

open Idealize.ShloMosaic Idealize.ShloMosaic.ValueIdx Cert.ReferenceIdeal.RefValue

local notation "A[" n "," m "]" => FVec Ideal (⟨2, ![n, m]⟩ : Shape) FTy.f32

/-! ## Sums over index ranges -/

/-- A sum over 600 columns, split into the columns `0 … 298`, column 299, the columns `300 … 598`, and column 599. -/
theorem sum_cols600 {M : Type*} [AddCommMonoid M] (h : Fin 600 → M) :
    ∑ c : Fin 600, h c
      = ((∑ k : Fin 299, h (c299lo k)) + h ⟨299, by omega⟩) + ((∑ k : Fin 299, h (c299hi k)) + h ⟨599, by omega⟩) := by
  have e1 : ∑ c : Fin 600, h c = ∑ i : Fin 300, h (Fin.castAdd 300 i) + ∑ i : Fin 300, h (Fin.natAdd 300 i) :=
    Fin.sum_univ_add (a := 300) (b := 300) h
  have e2 : ∑ i : Fin 300, h (Fin.castAdd 300 i) = (∑ k : Fin 299, h (c299lo k)) + h ⟨299, by omega⟩ :=
    Fin.sum_univ_castSucc (n := 299) (fun i => h (Fin.castAdd 300 i))
  have e3 : ∑ i : Fin 300, h (Fin.natAdd 300 i) = (∑ k : Fin 299, h (c299hi k)) + h ⟨599, by omega⟩ :=
    Fin.sum_univ_castSucc (n := 299) (fun i => h (Fin.natAdd 300 i))
  rw [e1, e2, e3]

/-- The rows of the sixteen blocks of 2048 rows are all 32768 rows, each once. -/
theorem sum_rows_blocks {M : Type*} [AddCommMonoid M] (g : Fin 32768 → M) :
    (∑ t : Fin 16, ∑ r : Fin 2048,
        g ⟨2048 * t.val + r.val, by have := t.isLt; have := r.isLt; omega⟩) = ∑ a : Fin 32768, g a := by
  have h1 : (∑ a : Fin 32768, g a) = ∑ p : Fin 16 × Fin 2048, g (finProdFinEquiv p) :=
    ((finProdFinEquiv (m := 16) (n := 2048)).sum_comp g).symm
  rw [h1, Fintype.sum_prod_type]
  refine Finset.sum_congr rfl fun t _ => Finset.sum_congr rfl fun r _ => congrArg g (Fin.ext ?_)
  show 2048 * t.val + r.val = r.val + 2048 * t.val
  omega

/-! ## A masked row and a one-hot row -/

/-- Against the mask, a sum over the 600 columns keeps the two runs of 299 columns. -/
theorem masked_row (q : Fin 600 → EReal) (mask : A[1,600])
    (hmask : ∀ c : Fin 600, mask (ix2 (0 : Fin 1) c) = if c.val = 299 ∨ c.val = 599 then 0 else 1) :
    ∑ c : Fin 600, q c * mask (ix2 (0 : Fin 1) c) = (∑ k : Fin 299, q (c299lo k)) + ∑ k : Fin 299, q (c299hi k) := by
  rw [sum_cols600 (fun c => q c * mask (ix2 (0 : Fin 1) c))]
  have hlo : ∀ k : Fin 299, q (c299lo k) * mask (ix2 (0 : Fin 1) (c299lo k)) = q (c299lo k) := fun k => by
    rw [hmask, if_neg (by show ¬(k.val = 299 ∨ k.val = 599); have := k.isLt; omega), mul_one]
  have hhi : ∀ k : Fin 299, q (c299hi k) * mask (ix2 (0 : Fin 1) (c299hi k)) = q (c299hi k) := fun k => by
    rw [hmask, if_neg (by show ¬(300 + k.val = 299 ∨ 300 + k.val = 599); have := k.isLt; omega), mul_one]
  have h299 : q ⟨299, by omega⟩ * mask (ix2 (0 : Fin 1) (⟨299, by omega⟩ : Fin 600)) = 0 := by
    rw [hmask, if_pos (Or.inl rfl), mul_zero]
  have h599 : q ⟨599, by omega⟩ * mask (ix2 (0 : Fin 1) (⟨599, by omega⟩ : Fin 600)) = 0 := by
    rw [hmask, if_pos (Or.inr rfl), mul_zero]
  simp only [hlo, hhi, h299, h599, add_zero]

/-- Against the one-hot row, a sum over the 600 columns keeps column 300. -/
theorem onehot_row (a : Fin 600 → EReal) (onehot : A[1,600])
    (honehot : ∀ c : Fin 600, onehot (ix2 (0 : Fin 1) c) = if c.val = 300 then 1 else 0) :
    ∑ c : Fin 600, a c * onehot (ix2 (0 : Fin 1) c) = a c300 := by
  rw [Finset.sum_eq_single c300]
  · rw [honehot, if_pos rfl, mul_one]
  · intro c _ hc
    rw [honehot, if_neg (fun h => hc (Fin.ext h)), mul_zero]
  · intro h
    exact absurd (Finset.mem_univ _) h

/-! ## The accumulator is the sum of the blocks' terms -/

theorem globAcc_eq_sum (volt : A[32768,600]) (Y Yc : A[600,600]) (mask onehot : A[1,600]) : ∀ (n : ℕ) (h : n < 16),
    globAcc volt Y Yc mask onehot n h
      = ∑ t : Fin (n + 1), globTerm volt Y Yc mask onehot ⟨t.val, by have := t.isLt; omega⟩
  | 0, h => by
    rw [globAcc, zero_add, Fin.sum_univ_one]
    rfl
  | n + 1, h => by
    rw [globAcc, globAcc_eq_sum volt Y Yc mask onehot n (Nat.lt_of_succ_lt h)]
    exact (Fin.sum_univ_castSucc (n := n + 1) (fun t : Fin (n + 1 + 1) =>
      globTerm volt Y Yc mask onehot ⟨t.val, by have := t.isLt; omega⟩)).symm

theorem glob_eq_sum (volt : A[32768,600]) (Y Yc : A[600,600]) (mask onehot : A[1,600]) :
    glob volt Y Yc mask onehot = ∑ t : Fin 16, globTerm volt Y Yc mask onehot t :=
  globAcc_eq_sum volt Y Yc mask onehot 15 (by decide)

/-! ## One block's term -/

/-- Row `r` of block `t`. -/
abbrev rowOf (t : Fin 16) (r : Fin 2048) : Fin 32768 :=
  ⟨2048 * t.val + r.val, by have := t.isLt; have := r.isLt; omega⟩

theorem globTerm_eq (volt : A[32768,600]) (Y Yc : A[600,600]) (mask onehot : A[1,600])
    (hmask : ∀ c : Fin 600, mask (ix2 (0 : Fin 1) c) = if c.val = 299 ∨ c.val = 599 then 0 else 1)
    (honehot : ∀ c : Fin 600, onehot (ix2 (0 : Fin 1) c) = if c.val = 300 then 1 else 0) (t : Fin 16) :
    globTerm volt Y Yc mask onehot t
      = ((∑ r : Fin 2048, ((∑ k : Fin 299, quad volt Y (rowOf t r) (c299lo k))
              + ∑ k : Fin 299, quad volt Y (rowOf t r) (c299hi k)))
          + ∑ r : Fin 2048, ((∑ k : Fin 299, quad volt Yc (rowOf t r) (c299lo k))
              + ∑ k : Fin 299, quad volt Yc (rowOf t r) (c299hi k)))
        + ∑ r : Fin 2048, max (volt (ix2 (rowOf t r) c300)) (-(volt (ix2 (rowOf t r) c300))) := by
  unfold globTerm
  simp only [blk2048_apply]
  refine congrArg₂ (· + ·) (congrArg₂ (· + ·) (Finset.sum_congr rfl fun r _ => ?_)
    (Finset.sum_congr rfl fun r _ => ?_)) (Finset.sum_congr rfl fun r _ => ?_)
  · exact masked_row (fun c => quad volt Y (rowOf t r) c) mask hmask
  · exact masked_row (fun c => quad volt Yc (rowOf t r) c) mask hmask
  · exact onehot_row (fun c => max (volt (ix2 (rowOf t r) c)) (-(volt (ix2 (rowOf t r) c)))) onehot honehot

/-! ## The global scalar -/

theorem glob_join (x0 : A[32768,600]) (x9 x10 : A[600,600]) (mask onehot : A[1,600])
    (hmask : ∀ c : Fin 600, mask (ix2 (0 : Fin 1) c) = if c.val = 299 ∨ c.val = 599 then 0 else 1)
    (honehot : ∀ c : Fin 600, onehot (ix2 (0 : Fin 1) c) = if c.val = 300 then 1 else 0) :
    glob x0 x9 x10 mask onehot = seed x0 + scalarPQ x0 x9 x10 := by
  have hP : ∀ M : A[600,600], (∑ t : Fin 16, ∑ r : Fin 2048, ((∑ k : Fin 299, quad x0 M (rowOf t r) (c299lo k))
        + ∑ k : Fin 299, quad x0 M (rowOf t r) (c299hi k)))
      = quadSumLo x0 M + quadSumHi x0 M := fun M =>
    (sum_rows_blocks (fun a => (∑ k : Fin 299, quad x0 M a (c299lo k)) + ∑ k : Fin 299, quad x0 M a (c299hi k))).trans
      Finset.sum_add_distrib
  have hS : (∑ t : Fin 16, ∑ r : Fin 2048, max (x0 (ix2 (rowOf t r) c300)) (-(x0 (ix2 (rowOf t r) c300)))) = seed x0 :=
    sum_rows_blocks (fun a => max (x0 (ix2 a c300)) (-(x0 (ix2 a c300))))
  rw [glob_eq_sum]
  simp only [globTerm_eq x0 x9 x10 mask onehot hmask honehot]
  rw [Finset.sum_add_distrib, Finset.sum_add_distrib, hP x9, hP x10, hS]
  unfold scalarPQ
  abel

end Cert.KernelIdeal.KerValue
-- ==== Proof.Join.lean ====
/-
  The kernel program's result at a row is the reference's result at that row.

  The row's own terms are the reference's row terms in another order, and the global scalar is the reference's seed plus
  its four slice sums; the two results then differ only in the order and grouping of one sum of eighteen extended reals,
  which commutativity and associativity of addition settle.
-/
import proofs.«141359_j50938312131078_1_alg».proof.Proof.JoinRow
import proofs.«141359_j50938312131078_1_alg».proof.Proof.JoinGlob

noncomputable section

open scoped BigOperators

namespace Cert.KernelIdeal.KerValue

open Idealize.ShloMosaic Idealize.ShloMosaic.ValueIdx Cert.ReferenceIdeal.RefValue

local notation "A[" n "," m "]" => FVec Ideal (⟨2, ![n, m]⟩ : Shape) FTy.f32

theorem ker_eq_ref (x0 : A[32768,600]) (x1 : A[32768,138]) (x2 x3 : A[32768,600]) (x4 x5 : A[32768,138])
    (x6 x7 : A[32768,300]) (x8 : A[32768,411]) (x9 x10 : A[600,600]) (x11 : A[822,822]) (x12 : A[822,600])
    (x13 : A[138,600]) (x14 : A[600,600]) (x15 x16 : A[1,138]) (x17 : A[1,69])
    (costrow : A[1,138]) (mask onehot : A[1,600])
    (hmask : ∀ c : Fin 600, mask (ix2 (0 : Fin 1) c) = if c.val = 299 ∨ c.val = 599 then 0 else 1)
    (honehot : ∀ c : Fin 600, onehot (ix2 (0 : Fin 1) c) = if c.val = 300 then 1 else 0)
    (hcost : ∀ k : Fin 138, costrow (ix2 (0 : Fin 1) k) = cost x17 k) (b : Fin 32768) :
    kerSpec x0 x1 x2 x3 x4 x5 x6 x7 x8 x9 x10 x11 x12 x13 x14 x15 x16 costrow mask onehot b
      = refSpec x0 x1 x2 x3 x4 x5 x6 x7 x8 x9 x10 x11 x12 x13 x14 x15 x16 x17 b := by
  have hrow := row_join x0 x1 x2 x3 x4 x5 x6 x7 x8 x9 x10 x11 x12 x13 x14 x15 x16 x17 costrow mask hmask hcost b
  have hglob := glob_join x0 x9 x10 mask onehot hmask honehot
  unfold kerSpec
  rw [hrow, hglob]
  unfold rowRef refSpec kkt0
  abel

end Cert.KernelIdeal.KerValue
-- ==== Proof.lean ====
/-
  The certificate.  Both printed programs run to the end without a fault and leave their argument arrays as they
  found them (the kernel program by its run through its two launches, at the word level and on the extended reals;
  the reference by its run as a chain of host operations).  The ideal pass rewrote nothing, so there is nothing to
  preserve.  On the extended reals the kernel program's result at row `b` is its block's row formula plus the
  global scalar folded over the sixteen voltage blocks, and the reference's is its seventeen terms added from the
  left; the two are the same terms in two orders, the masked sums being the two slice sums, so they are equal by
  commutativity and associativity of addition, x·1 = x, x·0 = 0 and 0 − x = −x.
-/
import proofs.«141359_j50938312131078_1_alg».proof.Defs
import proofs.«141359_j50938312131078_1_alg».proof.Proof.Gen.Kernel
import proofs.«141359_j50938312131078_1_alg».proof.Proof.Gen.KernelIdeal
import proofs.«141359_j50938312131078_1_alg».proof.Proof.Gen.ReferenceIdeal
import proofs.«141359_j50938312131078_1_alg».proof.Proof.Gen.Pre_finite_inputs
import proofs.«141359_j50938312131078_1_alg».proof.Proof.Gen.ReferenceIdeal.Run
import proofs.«141359_j50938312131078_1_alg».proof.Proof.Gen.ReferenceIdeal.Read
import proofs.«141359_j50938312131078_1_alg».proof.Proof.FrameRunB
import proofs.«141359_j50938312131078_1_alg».proof.Proof.KerFinal
import proofs.«141359_j50938312131078_1_alg».proof.Proof.KerFacts
import proofs.«141359_j50938312131078_1_alg».proof.Proof.RefRead
import proofs.«141359_j50938312131078_1_alg».proof.Proof.Join
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

section
open Cert.KernelIdeal Cert.KernelIdeal.Hand Cert.KernelIdeal.KerValue

/-- The kernel program's result array, from the launch memory. -/
def kerResult (m : (ℓ : Loc Cert.KernelIdeal.nD Cert.KernelIdeal.τ Cert.KernelIdeal.sig) → Buf (Elt Ideal) ℓ) (c : Dev Cert.KernelIdeal.nD) :
    S32768.Idx → EReal := fun i =>
  kerSpec (m ((c : Thread nD τ).loc main_arg0) : FVec Ideal S32768x600 .f32) (m ((c : Thread nD τ).loc main_arg1) : FVec Ideal S32768x138 .f32) (m ((c : Thread nD τ).loc main_arg2) : FVec Ideal S32768x600 .f32) (m ((c : Thread nD τ).loc main_arg3) : FVec Ideal S32768x600 .f32) (m ((c : Thread nD τ).loc main_arg4) : FVec Ideal S32768x138 .f32) (m ((c : Thread nD τ).loc main_arg5) : FVec Ideal S32768x138 .f32) (m ((c : Thread nD τ).loc main_arg6) : FVec Ideal S32768x300 .f32) (m ((c : Thread nD τ).loc main_arg7) : FVec Ideal S32768x300 .f32) (m ((c : Thread nD τ).loc main_arg8) : FVec Ideal S32768x411 .f32) (matY m c) (matYc m c) (matYbr m c) (matIM m c) (matG m c) (matL m c) (m ((c : Thread nD τ).loc main_arg15) : FVec Ideal S1x138 .f32) (m ((c : Thread nD τ).loc main_arg16) : FVec Ideal S1x138 .f32) (costRow m c) maskRow hotRow (i 0)

theorem ker_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v13) = kerResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run Cert.KernelIdeal.defs _ _).mono (fun _ h c => ⟨(h c _ (mem_uc main_v13 (by decide))).trans (funext fun i => by
      rw [eq_ix1 i]; exact ker_final m ρ c (i 0)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c)⟩) (run_all m ρ)
end

theorem algebraic : Cert.algebraic_KernelIdeal_ReferenceIdeal := by
  intro m ρ m' ρ' _ hagree
  refine ⟨fun c => kerResult m c, ker_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v140_eq, Cert.ReferenceIdeal.RefValue.ref_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2.1,
    (hagree c).2.2.2.2.2.2.2.2.2.2.2.2.2.1, (hagree c).2.2.2.2.2.2.2.2.2.2.2.2.2.2.1, (hagree c).2.2.2.2.2.2.2.2.2.2.2.2.2.2.2.1,
    (hagree c).2.2.2.2.2.2.2.2.2.2.2.2.2.2.2.2.1, (hagree c).2.2.2.2.2.2.2.2.2.2.2.2.2.2.2.2.2]
  funext i
  exact (Cert.KernelIdeal.KerValue.ker_eq_ref _ _ _ _ _ _ _ _ _ _ _ _ _ _ _ _ _ _ _ _ _
    Cert.KernelIdeal.Hand.mask_fact Cert.KernelIdeal.Hand.hot_fact (Cert.KernelIdeal.Hand.cost_fact m c) (i 0)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
